-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S64x40 .f32) (main_arg13 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x40 .f32 := Host.absf main_arg12
  let main_cst_20 : FVec F S_ .f32 := constant S_ .f32 0x7F800000#32
  let main_v55 : FVec F S64x40 .f32 := broadcastInDim S64x40 ![] bcast_S_S64x40 main_cst_20
  let main_v56 : IVec S64x40 1 := cmpf .olt main_v54 main_v55
  let main_c_21 : IVec S_ 1 := constantI S_ 1 1#1
  let main_v57 : IVec S_ 1 := (fun x v => Host.reduce IntOp.andi x v reducesTo_S64x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64x64 .f32) (main_arg11 : FVec F S64 .f32) (main_arg12 : FVec F S64x40 .f32) (main_arg13 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64x40 .f32) (main_arg13 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64x40 .f32) (main_arg13 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 149
  | .vmem => 45
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64x40, .f32⟩
  | 13 => ⟨S40, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S100000x64, .f32⟩
  | 87 => ⟨S100000x64, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x64, .f32⟩
  | 97 => ⟨S1700000x1, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S1x64, .f32⟩
  | 105 => ⟨S100000x64, .f32⟩
  | 106 => ⟨S100000x64, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S100000x64, .f32⟩
  | 18 => ⟨S100000x64, .f32⟩
  | 19 => ⟨S1x40, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x40, .f32⟩
  | .local _ .vmem, ⟨42, _⟩ => ⟨S1x40, .f32⟩
  | .local _ .vmem, ⟨43, _⟩ => ⟨S5000x40, .f32⟩
  | .local _ .vmem, ⟨44, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77_0 : Ref sig .tc := ⟨.hbm, 107, rfl⟩
abbrev main_v77_1 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_16 : Ref sig .tc := ⟨.hbm, 128, rfl⟩
abbrev main_v94 : Ref sig .tc := ⟨.hbm, 129, rfl⟩
abbrev main_v95 : Ref sig .tc := ⟨.hbm, 130, rfl⟩
abbrev main_c_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg3_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem1_1 : DmaSem sig := 38
abbrev cc7_sem2_0 : DmaSem sig := 39
abbrev cc7_sem2_1 : DmaSem sig := 40
abbrev cc7_sem3_0 : DmaSem sig := 41
abbrev cc7_sem4_0 : DmaSem sig := 42
abbrev cc7_sem5_0 : DmaSem sig := 43
abbrev cc7_sem5_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x40 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x40 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S40_S1x40_1 : S40.BroadcastsInDim S1x40 (![1] : Fin 1 → Fin S1x40.rank)
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x40.size a ≤ S64x40.size a
  hwx7_3 : ∀ i : grid7.Coords, EltTy.bits .f32 = 32 ∨ (Rect.block (s := S64x40) S64x40.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x40.size a ≤ S1x40.size a
  hwx7_4 : ∀ i : grid7.Coords, EltTy.bits .f32 = 32 ∨ (Rect.block (s := S1x40) S1x40.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x40.size a ≤ S100000x40.size a
  hwx7_5 : ∀ i : grid7.Coords, EltTy.bits .f32 = 32 ∨ (Rect.block (s := S100000x40) S5000x40.size (cc7_transform_5 i) (hinb7_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v59) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v109) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S64x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v110) S1x40.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111) S5000x40.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x100000x64 : Shape := ⟨3, ![1, 100000, 64]⟩
abbrev S3x100000x64 : Shape := ⟨3, ![3, 100000, 64]⟩
abbrev S100000x40 : Shape := ⟨2, ![100000, 40]⟩
abbrev S1x40 : Shape := ⟨2, ![1, 40]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64x40, .f32⟩
  | 13 => ⟨S40, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S64, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S64, .f32⟩
  | 3 => ⟨S_, .f32⟩
  | 4 => ⟨S64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S64, .f32⟩
  | 11 => ⟨S64, .f32⟩
  | 12 => ⟨S64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S100000x64, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x64, .f32⟩
  | 35 => ⟨S1700000x1, .f32⟩
  | 36 => ⟨S1700000x64, .f32⟩
  | 37 => ⟨S1700000x64, .f32⟩
  | 38 => ⟨S_, .f32⟩
  | 39 => ⟨S100000x64, .f32⟩
  | 40 => ⟨S1700000x1, .i32⟩
  | 41 => ⟨S100000x64, .f32⟩
  | 42 => ⟨S1x64, .f32⟩
  | 43 => ⟨S100000x64, .f32⟩
  | 44 => ⟨S100000x64, .f32⟩
  | 45 => ⟨S1x100000x64, .f32⟩
  | 46 => ⟨S1x100000x64, .f32⟩
  | 47 => ⟨S1x100000x64, .f32⟩
  | 48 => ⟨S3x100000x64, .f32⟩
  | 49 => ⟨S_, .f32⟩
  | 50 => ⟨S100000x64, .f32⟩
  | 51 => ⟨S100000x40, .f32⟩
  | 52 => ⟨S1x40, .f32⟩
  | 53 => ⟨S100000x40, .f32⟩
  | 54 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call0_cst : Ref sig .tc := ⟨.hbm, 97, rfl⟩
abbrev main_call0_v0 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call1_cst : Ref sig .tc := ⟨.hbm, 150, rfl⟩
abbrev main_call1_v0 : Ref sig .tc := ⟨.hbm, 151, rfl⟩
abbrev main_v112 : Ref sig .tc := ⟨.hbm, 152, rfl⟩
abbrev main_v113 : Ref sig .tc := ⟨.hbm, 153, rfl⟩
abbrev main_c_20 : Ref sig .tc := ⟨.hbm, 154, rfl⟩
abbrev main_v114 : Ref sig .tc := ⟨.hbm, 155, rfl⟩
abbrev main_v115 : Ref sig .tc := ⟨.hbm, 156, rfl⟩
abbrev main_c_21 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_22 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_23 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  reducesTo_S3x100000x64_S100000x64_d0 : S3x100000x64.ReducesTo [0] S100000x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Graph.lean ====
/-
  One graph-convolution aggregation, as a function of what it reads: the layer's dense output `h` (one row per
  node), the two index arrays of the edge list with the self-loops appended (source and destination of each of
  the 1700000 edges), the edge weights `nrm`, and the layer's bias `b`:
  gather the rows of `h` at the sources (a negative index first wrapped by +100000), scale each by its edge's
  weight, add them up at the destinations, add the bias to every row.
  The kernel's program applies exactly these operations, in this order, after each of its three dense launches;
  the three facts below read them off the program's host stretches, from ANY buffer contents at the stretch's entry.
-/
import proofs.«121954_j7129645711840_1_alg».proof.Proof.Gen.KernelIdeal.Launch
import Idealize.ShloMosaic.Lib.StableHlo.Run

set_option maxRecDepth 16384

noncomputable section

namespace Cert.Graph

open Cert.KernelIdeal Cert.KernelIdeal.Gen Idealize.ShloMosaic Idealize.ShloMosaic.StableHlo

variable {F : FTy → Type} [FloatOps F]

/-- A source index with the negative ones wrapped by the number of nodes. -/
def wrap (src : IVec S1700000 32) : IVec S1700000 32 :=
  select (cmpi .slt src (broadcastInDim S1700000 ![] bcast_S_S1700000 (constantI S_ 32 0#32)))
    (addi src (broadcastInDim S1700000 ![] bcast_S_S1700000 (constantI S_ 32 100000#32))) src

/-- Gather at the sources, scale by the edge weights, sum at the destinations, add the bias. -/
def agg (h : FVec F S100000x64 .f32) (src dst : IVec S1700000 32) (nrm : FVec F S1700000 .f32) (b : FVec F S64 .f32) :
    FVec F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf
        (Host.gather gather_S100000x64_S1700000x1_S1700000x64_1_0_n_n_0_1_164 h
          (broadcastInDim S1700000x1 ![0] bcast_S1700000_S1700000x1_0 (wrap src)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- After the first dense launch. -/
theorem stretch1 (W : Valuation τ sig (Elt F)) :
    StableHlo.after (hostOps1 (F := F)) W (Proc.devRef .tc main_v43)
      = agg (W (Proc.devRef .tc main_v27)) (W (Proc.devRef .tc main_v3)) (W (Proc.devRef .tc main_v6))
          (W (Proc.devRef .tc main_v26)) (W (Proc.devRef .tc main_arg3)) := by
  dsimp only [hostOps1]; after_results_simp <;> rfl

/-- After the second dense launch. -/
theorem stretch4 (W : Valuation τ sig (Elt F)) :
    StableHlo.after (hostOps4 (F := F)) W (Proc.devRef .tc main_v76)
      = agg (W (Proc.devRef .tc main_v60)) (W (Proc.devRef .tc main_v3)) (W (Proc.devRef .tc main_v6))
          (W (Proc.devRef .tc main_v26)) (W (Proc.devRef .tc main_arg7)) := by
  dsimp only [hostOps4]; after_results_simp <;> rfl

/-- After the third dense launch. -/
theorem stretch7 (W : Valuation τ sig (Elt F)) :
    StableHlo.after (hostOps7 (F := F)) W (Proc.devRef .tc main_v109)
      = agg (W (Proc.devRef .tc main_v93)) (W (Proc.devRef .tc main_v3)) (W (Proc.devRef .tc main_v6))
          (W (Proc.devRef .tc main_v26)) (W (Proc.devRef .tc main_arg11)) := by
  dsimp only [hostOps7]; after_results_simp <;> rfl

/-- The last launch's bias row: the 40 biases as a 1×40 array. -/
theorem stretch7_bias (W : Valuation τ sig (Elt F)) :
    StableHlo.after (hostOps7 (F := F)) W (Proc.devRef .tc main_v110)
      = broadcastInDim S1x40 ![1] bcast_S40_S1x40_1 (W (Proc.devRef .tc main_arg13)) := by
  dsimp only [hostOps7]; after_results_simp <;> rfl

end Cert.Graph

end
-- ==== Proof.RefGraph.lean ====
/-
  The reference computes each graph-convolution aggregation with the same operations, in the same order, as the
  kernel's program does between its launches: wrap the negative source indices, gather the rows of the layer's dense
  output at the sources, scale each gathered row by its edge's weight, add the rows up at the destinations, and add
  the layer's bias to every row. So each of the reference's three aggregation results is `agg` of the reference's
  own dense output of that layer, its own edge-list arrays and edge weights, and the layer's bias argument: the two
  sides are one term, written once over each program's copy of the same shapes and dimension records.
-/
import proofs.«121954_j7129645711840_1_alg».proof.Proof.RefReadP
import proofs.«121954_j7129645711840_1_alg».proof.Proof.Graph

set_option maxRecDepth 16384

noncomputable section

namespace Cert.RefGraph

open Cert.ReferenceIdeal Cert.ReferenceIdeal.Read Idealize.ShloMosaic

variable {F : FTy → Type} [FloatOps F]

/-- The first aggregation: of the first dense layer's output. -/
theorem agg1 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) :
    val_main_v43 (F := F) x0 x1 x2 x3
      = Cert.Graph.agg (val_main_v27 (F := F) x0 x2) (val_main_v3 (F := F) x1) (val_main_v6 (F := F) x1)
          (val_main_v26 (F := F) x1) x3 := by
  unfold val_main_v43 val_main_v42 val_main_v41 val_main_v40 val_main_v39 val_main_v38 val_main_cst_6 val_main_v37 val_main_v36 val_main_v35 val_main_v34 val_main_v33 val_main_v32 val_main_v31 val_main_v30 val_main_c_5 val_main_v29 val_main_v28 val_main_c_4
  unfold Cert.Graph.agg Cert.Graph.wrap
  rfl

/-- The second aggregation: of the second dense layer's output. -/
theorem agg2 (x0 : (⟨S100000x128, .f32⟩ : BufTy).Contents (Elt F)) (x1 : (⟨S2x1600000, .i32⟩ : BufTy).Contents (Elt F)) (x2 : (⟨S128x64, .f32⟩ : BufTy).Contents (Elt F)) (x3 x4 x5 : (⟨S64, .f32⟩ : BufTy).Contents (Elt F)) (x6 : (⟨S64x64, .f32⟩ : BufTy).Contents (Elt F)) (x7 : (⟨S64, .f32⟩ : BufTy).Contents (Elt F)) :
    val_main_v86 (F := F) x0 x1 x2 x3 x4 x5 x6 x7
      = Cert.Graph.agg (val_main_v70 (F := F) x0 x1 x2 x3 x4 x5 x6) (val_main_v3 (F := F) x1) (val_main_v6 (F := F) x1)
          (val_main_v26 (F := F) x1) x7 := by
  unfold val_main_v86 val_main_v85 val_main_v84 val_main_v83 val_main_v82 val_main_v81 val_main_cst_14 val_main_v80 val_main_v79 val_main_v78 val_main_v77 val_main_v76 val_main_v75 val_main_v74 val_main_v73 val_main_c_13 val_main_v72 val_main_v71 val_main_c_12
  unfold Cert.Graph.agg Cert.Graph.wrap
  rfl

/-- The third aggregation: of the third dense layer's output. -/
theorem agg3 (x0 : (⟨S100000x128, .f32⟩ : BufTy).Contents (Elt F)) (x1 : (⟨S2x1600000, .i32⟩ : BufTy).Contents (Elt F)) (x2 : (⟨S128x64, .f32⟩ : BufTy).Contents (Elt F)) (x3 x4 x5 : (⟨S64, .f32⟩ : BufTy).Contents (Elt F)) (x6 : (⟨S64x64, .f32⟩ : BufTy).Contents (Elt F)) (x7 x8 x9 : (⟨S64, .f32⟩ : BufTy).Contents (Elt F)) (x10 : (⟨S64x64, .f32⟩ : BufTy).Contents (Elt F)) (x11 : (⟨S64, .f32⟩ : BufTy).Contents (Elt F)) :
    val_main_v129 (F := F) x0 x1 x2 x3 x4 x5 x6 x7 x8 x9 x10 x11
      = Cert.Graph.agg (val_main_v113 (F := F) x0 x1 x2 x3 x4 x5 x6 x7 x8 x9 x10) (val_main_v3 (F := F) x1)
          (val_main_v6 (F := F) x1) (val_main_v26 (F := F) x1) x11 := by
  unfold val_main_v129 val_main_v128 val_main_v127 val_main_v126 val_main_v125 val_main_v124 val_main_cst_22 val_main_v123 val_main_v122 val_main_v121 val_main_v120 val_main_v119 val_main_v118 val_main_v117 val_main_v116 val_main_c_21 val_main_v115 val_main_v114 val_main_c_20
  unfold Cert.Graph.agg Cert.Graph.wrap
  rfl

end Cert.RefGraph

end
-- ==== Proof.RefRunStaged.lean ====
/-
  The reference program's run, read stretch by stretch.

  The reference is a straight line of 169 host operations. Cut at the ten places where a value that later stretches
  read has just been written — the edge-list arrays and the edge weights; each layer's dense output; each
  aggregation; each normalised, clipped layer output; the final result — the line is ten consecutive stretches, and
  running the whole line is running them one after another. Each stretch, from ANY buffer contents, leaves in its
  result buffer the stage function of what it found in the buffers it reads, and leaves every buffer it does not
  write as it found it. Chaining the ten facts, with the values written early carried unchanged across the
  stretches between, gives the result buffer after the whole line as the last stage's value of the arguments.
-/
import proofs.«121954_j7129645711840_1_alg».proof.Proof.RefOpsP
import proofs.«121954_j7129645711840_1_alg».proof.Proof.RefReadP
import proofs.«121954_j7129645711840_1_alg».proof.Proof.RefGraph
import Idealize.ShloMosaic.Lib.StableHlo.Run

set_option maxRecDepth 8192

noncomputable section

namespace Cert.RefRunStaged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The ten stretches -/
/-- The edge-list arrays and the edge weights (operations %0 … %26). -/
abbrev s0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)) ]

/-- The first dense layer (operation %27). -/
abbrev s1 : List (HloOp τ sig (Elt F)) :=
  [ binary main_arg0 main_arg2 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first aggregation (operations %28 … %43). -/
abbrev s2 : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x64 ![0, 1] bcast_S1700000x1_S1700000x64_0_1 : (⟨S1700000x1, .f32⟩ : BufTy).Contents (Elt F) → (⟨S1700000x64, .f32⟩ : BufTy).Contents (Elt F)),
    binary main_v34 main_v36 main_v37 (mulf : (⟨S1700000x64, .f32⟩ : BufTy).Contents (Elt F) → (⟨S1700000x64, .f32⟩ : BufTy).Contents (Elt F) → (⟨S1700000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)) ]

/-- The first normalisation and clip (operations %44 … %69). -/
abbrev s3 : List (HloOp τ sig (Elt F)) :=
  [ nullary main_cst_7 (constant S_ .f32 0x00000000#32),
    binary main_v43 main_cst_7 main_v44 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_8 (constant S_ .f32 0x47C35000#32),
    unary main_cst_8 main_v45 (broadcastInDim S64 ![] bcast_S_S64 : (⟨S_, .f32⟩ : BufTy).Contents (Elt F) → (⟨S64, .f32⟩ : BufTy).Contents (Elt F)),
    binary main_v44 main_v45 main_v46 (Host.divf : (⟨S64, .f32⟩ : BufTy).Contents (Elt F) → (⟨S64, .f32⟩ : BufTy).Contents (Elt F) → (⟨S64, .f32⟩ : BufTy).Contents (Elt F)),
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v43 main_v48 main_v49 (subf : (⟨S100000x64, .f32⟩ : BufTy).Contents (Elt F) → (⟨S100000x64, .f32⟩ : BufTy).Contents (Elt F) → (⟨S100000x64, .f32⟩ : BufTy).Contents (Elt F)),
    binary main_v49 main_v49 main_v50 (mulf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v50 main_cst_9 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v52 (broadcastInDim S64 ![] bcast_S_S64 : (⟨S_, .f32⟩ : BufTy).Contents (Elt F) → (⟨S64, .f32⟩ : BufTy).Contents (Elt F)),
    binary main_v51 main_v52 main_v53 (Host.divf : (⟨S64, .f32⟩ : BufTy).Contents (Elt F) → (⟨S64, .f32⟩ : BufTy).Contents (Elt F) → (⟨S64, .f32⟩ : BufTy).Contents (Elt F)),
    unary main_v46 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v43 main_v55 main_v56 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v57 (broadcastInDim S64 ![] bcast_S_S64 : (⟨S_, .f32⟩ : BufTy).Contents (Elt F) → (⟨S64, .f32⟩ : BufTy).Contents (Elt F)),
    binary main_v53 main_v57 main_v58 (addf : (⟨S64, .f32⟩ : BufTy).Contents (Elt F) → (⟨S64, .f32⟩ : BufTy).Contents (Elt F) → (⟨S64, .f32⟩ : BufTy).Contents (Elt F)),
    unary main_v58 main_v59 (Host.rsqrt : (⟨S64, .f32⟩ : BufTy).Contents (Elt F) → (⟨S64, .f32⟩ : BufTy).Contents (Elt F)),
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v56 main_v61 main_v62 (mulf : (⟨S100000x64, .f32⟩ : BufTy).Contents (Elt F) → (⟨S100000x64, .f32⟩ : BufTy).Contents (Elt F) → (⟨S100000x64, .f32⟩ : BufTy).Contents (Elt F)),
    unary main_arg4 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (mulf : (⟨S100000x64, .f32⟩ : BufTy).Contents (Elt F) → (⟨S100000x64, .f32⟩ : BufTy).Contents (Elt F) → (⟨S100000x64, .f32⟩ : BufTy).Contents (Elt F)),
    unary main_arg5 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v68) (TRef.of (T := ⟨S100000x64, .f32⟩) main_call0_v0) (TRef.of (T := ⟨S100000x64, .f32⟩) main_v69) maximumf ]

/-- The second dense layer (operation %70). -/
abbrev s4 : List (HloOp τ sig (Elt F)) :=
  [ binary main_v69 main_arg6 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second aggregation (operations %71 … %86). -/
abbrev s5 : List (HloOp τ sig (Elt F)) :=
  [ nullary main_c_12 (constantI S_ 32 0#32),
    unary main_c_12 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v78 (broadcastInDim S1700000x1 ![0] bcast_S1700000_S1700000x1_0 : (⟨S1700000, .f32⟩ : BufTy).Contents (Elt F) → (⟨S1700000x1, .f32⟩ : BufTy).Contents (Elt F)),
    unary main_v78 main_v79 (broadcastInDim S1700000x64 ![0, 1] bcast_S1700000x1_S1700000x64_0_1 : (⟨S1700000x1, .f32⟩ : BufTy).Contents (Elt F) → (⟨S1700000x64, .f32⟩ : BufTy).Contents (Elt F)),
    binary main_v77 main_v79 main_v80 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v81 (broadcastInDim S100000x64 ![] bcast_S_S100000x64 : (⟨S_, .f32⟩ : BufTy).Contents (Elt F) → (⟨S100000x64, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v84 (broadcastInDim S1x64 ![1] bcast_S64_S1x64_1 : (⟨S64, .f32⟩ : BufTy).Contents (Elt F) → (⟨S1x64, .f32⟩ : BufTy).Contents (Elt F)),
    unary main_v84 main_v85 (broadcastInDim S100000x64 ![0, 1] bcast_S1x64_S100000x64_0_1 : (⟨S1x64, .f32⟩ : BufTy).Contents (Elt F) → (⟨S100000x64, .f32⟩ : BufTy).Contents (Elt F)),
    binary main_v83 main_v85 main_v86 (addf : (⟨S100000x64, .f32⟩ : BufTy).Contents (Elt F) → (⟨S100000x64, .f32⟩ : BufTy).Contents (Elt F) → (⟨S100000x64, .f32⟩ : BufTy).Contents (Elt F)) ]

/-- The second normalisation and clip (operations %87 … %112). -/
abbrev s6 : List (HloOp τ sig (Elt F)) :=
  [ nullary main_cst_15 (constant S_ .f32 0x00000000#32),
    binary main_v86 main_cst_15 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v88 (broadcastInDim S64 ![] bcast_S_S64 : (⟨S_, .f32⟩ : BufTy).Contents (Elt F) → (⟨S64, .f32⟩ : BufTy).Contents (Elt F)),
    binary main_v87 main_v88 main_v89 (Host.divf : (⟨S64, .f32⟩ : BufTy).Contents (Elt F) → (⟨S64, .f32⟩ : BufTy).Contents (Elt F) → (⟨S64, .f32⟩ : BufTy).Contents (Elt F)),
    unary main_v89 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v86 main_v91 main_v92 (subf : (⟨S100000x64, .f32⟩ : BufTy).Contents (Elt F) → (⟨S100000x64, .f32⟩ : BufTy).Contents (Elt F) → (⟨S100000x64, .f32⟩ : BufTy).Contents (Elt F)),
    binary main_v92 main_v92 main_v93 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v93 main_cst_17 main_v94 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v95 (broadcastInDim S64 ![] bcast_S_S64 : (⟨S_, .f32⟩ : BufTy).Contents (Elt F) → (⟨S64, .f32⟩ : BufTy).Contents (Elt F)),
    binary main_v94 main_v95 main_v96 (Host.divf : (⟨S64, .f32⟩ : BufTy).Contents (Elt F) → (⟨S64, .f32⟩ : BufTy).Contents (Elt F) → (⟨S64, .f32⟩ : BufTy).Contents (Elt F)),
    unary main_v89 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v86 main_v98 main_v99 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v100 (broadcastInDim S64 ![] bcast_S_S64 : (⟨S_, .f32⟩ : BufTy).Contents (Elt F) → (⟨S64, .f32⟩ : BufTy).Contents (Elt F)),
    binary main_v96 main_v100 main_v101 (addf : (⟨S64, .f32⟩ : BufTy).Contents (Elt F) → (⟨S64, .f32⟩ : BufTy).Contents (Elt F) → (⟨S64, .f32⟩ : BufTy).Contents (Elt F)),
    unary main_v101 main_v102 (Host.rsqrt : (⟨S64, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v99 main_v104 main_v105 (mulf : (⟨S100000x64, .f32⟩ : BufTy).Contents (Elt F) → (⟨S100000x64, .f32⟩ : BufTy).Contents (Elt F) → (⟨S100000x64, .f32⟩ : BufTy).Contents (Elt F)),
    unary main_arg8 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (mulf : (⟨S100000x64, .f32⟩ : BufTy).Contents (Elt F) → (⟨S100000x64, .f32⟩ : BufTy).Contents (Elt F) → (⟨S100000x64, .f32⟩ : BufTy).Contents (Elt F)),
    unary main_arg9 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v108 main_v110 main_v111 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v111) (TRef.of (T := ⟨S100000x64, .f32⟩) main_call1_v0) (TRef.of (T := ⟨S100000x64, .f32⟩) main_v112) maximumf ]

/-- The third dense layer (operation %113). -/
abbrev s7 : List (HloOp τ sig (Elt F)) :=
  [ binary main_v112 main_arg10 main_v113 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The third aggregation (operations %114 … %129). -/
abbrev s8 : List (HloOp τ sig (Elt F)) :=
  [ nullary main_c_20 (constantI S_ 32 0#32),
    unary main_c_20 main_v114 (broadcastInDim S1700000 ![] bcast_S_S1700000 : (⟨S_, .i32⟩ : BufTy).Contents (Elt F) → (⟨S1700000, .i32⟩ : BufTy).Contents (Elt F)),
    binary main_v3 main_v114 main_v115 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v116 (broadcastInDim S1700000 ![] bcast_S_S1700000 : (⟨S_, .i32⟩ : BufTy).Contents (Elt F) → (⟨S1700000, .i32⟩ : BufTy).Contents (Elt F)),
    binary main_v3 main_v116 main_v117 (addi : (⟨S1700000, .i32⟩ : BufTy).Contents (Elt F) → (⟨S1700000, .i32⟩ : BufTy).Contents (Elt F) → (⟨S1700000, .i32⟩ : BufTy).Contents (Elt F)),
    ternary main_v115 main_v117 main_v3 main_v118 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v118 main_v119 (broadcastInDim S1700000x1 ![0] bcast_S1700000_S1700000x1_0 : (⟨S1700000, .i32⟩ : BufTy).Contents (Elt F) → (⟨S1700000x1, .i32⟩ : BufTy).Contents (Elt F)),
    binary main_v113 main_v119 main_v120 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v121 (broadcastInDim S1700000x1 ![0] bcast_S1700000_S1700000x1_0 : (⟨S1700000, .f32⟩ : BufTy).Contents (Elt F) → (⟨S1700000x1, .f32⟩ : BufTy).Contents (Elt F)),
    unary main_v121 main_v122 (broadcastInDim S1700000x64 ![0, 1] bcast_S1700000x1_S1700000x64_0_1 : (⟨S1700000x1, .f32⟩ : BufTy).Contents (Elt F) → (⟨S1700000x64, .f32⟩ : BufTy).Contents (Elt F)),
    binary main_v120 main_v122 main_v123 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v124 (broadcastInDim S100000x64 ![] bcast_S_S100000x64 : (⟨S_, .f32⟩ : BufTy).Contents (Elt F) → (⟨S100000x64, .f32⟩ : BufTy).Contents (Elt F)),
    unary main_v6 main_v125 (broadcastInDim S1700000x1 ![0] bcast_S1700000_S1700000x1_0 : (⟨S1700000, .i32⟩ : BufTy).Contents (Elt F) → (⟨S1700000x1, .i32⟩ : BufTy).Contents (Elt F)),
    ternary main_v124 main_v125 main_v123 main_v126 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg11 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

/-- The maximum of the three layer outputs, the last dense layer and its bias (operations %130 … %138). -/
abbrev s9 : List (HloOp τ sig (Elt F)) :=
  [ unary main_v69 main_v130 (broadcastInDim S1x100000x64 ![1, 2] bcast_S100000x64_S1x100000x64_1_2 : (⟨S100000x64, .f32⟩ : BufTy).Contents (Elt F) → (⟨S1x100000x64, .f32⟩ : BufTy).Contents (Elt F)),
    unary main_v112 main_v131 (broadcastInDim S1x100000x64 ![1, 2] bcast_S100000x64_S1x100000x64_1_2 : (⟨S100000x64, .f32⟩ : BufTy).Contents (Elt F) → (⟨S1x100000x64, .f32⟩ : BufTy).Contents (Elt F)),
    unary main_v129 main_v132 (broadcastInDim S1x100000x64 ![1, 2] bcast_S100000x64_S1x100000x64_1_2 : (⟨S100000x64, .f32⟩ : BufTy).Contents (Elt F) → (⟨S1x100000x64, .f32⟩ : BufTy).Contents (Elt F)),
    nary ![main_v130, main_v131, main_v132] main_v133 (fun u => concatenate S3x100000x64 0 [⟨S1x100000x64, u 0⟩, ⟨S1x100000x64, u 1⟩, ⟨S1x100000x64, u 2⟩] concatenates_S1x100000x64_S1x100000x64_S1x100000x64_S3x100000x64_d0),
    nullary main_cst_23 (constant S_ .f32 0xFF800000#32),
    binary main_v133 main_cst_23 main_v134 ((fun x v => Host.reduce FloatOps.maximumf x v reducesTo_S3x100000x64_S100000x64_d0 h_S_) : (⟨S3x100000x64, .f32⟩ : BufTy).Contents (Elt F) → (⟨S_, .f32⟩ : BufTy).Contents (Elt F) → (⟨S100000x64, .f32⟩ : BufTy).Contents (Elt F)),
    binary main_v134 main_arg12 main_v135 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg13 main_v136 (broadcastInDim S1x40 ![1] bcast_S40_S1x40_1 : (⟨S40, .f32⟩ : BufTy).Contents (Elt F) → (⟨S1x40, .f32⟩ : BufTy).Contents (Elt F)),
    unary main_v136 main_v137 (broadcastInDim S100000x40 ![0, 1] bcast_S1x40_S100000x40_0_1 : (⟨S1x40, .f32⟩ : BufTy).Contents (Elt F) → (⟨S100000x40, .f32⟩ : BufTy).Contents (Elt F)),
    binary main_v135 main_v137 main_v138 (addf : (⟨S100000x40, .f32⟩ : BufTy).Contents (Elt F) → (⟨S100000x40, .f32⟩ : BufTy).Contents (Elt F) → (⟨S100000x40, .f32⟩ : BufTy).Contents (Elt F)) ]

/-- The whole line is the ten stretches in order. -/
theorem ops_eq : (ops : List (HloOp τ sig (Elt F))) = s0 ++ s1 ++ s2 ++ s3 ++ s4 ++ s5 ++ s6 ++ s7 ++ s8 ++ s9 := rfl

/-! ## What each stretch leaves in its result buffer -/

/-- The source indices, from any contents: the edge list's first row followed by the node numbers. -/
theorem src0 (W : Valuation τ sig (Elt F)) :
    after (s0 (F := F)) W (Proc.devRef .tc main_v3) = val_main_v3 (F := F) (W (Proc.devRef .tc main_arg1)) := by
  dsimp only [s0]; after_results_simp
  unfold val_main_v3 val_main_v2 val_main_v1 val_main_v0
  rfl

/-- The destination indices: the edge list's second row followed by the node numbers. -/
theorem dst0 (W : Valuation τ sig (Elt F)) :
    after (s0 (F := F)) W (Proc.devRef .tc main_v6) = val_main_v6 (F := F) (W (Proc.devRef .tc main_arg1)) := by
  dsimp only [s0]; after_results_simp
  unfold val_main_v6 val_main_v5 val_main_v4 val_main_v0
  rfl

/-- The edge weights. -/
theorem nrm0 (W : Valuation τ sig (Elt F)) :
    after (s0 (F := F)) W (Proc.devRef .tc main_v26) = val_main_v26 (F := F) (W (Proc.devRef .tc main_arg1)) := by
  dsimp only [s0]; after_results_simp
  unfold val_main_v26 val_main_v25 val_main_v24 val_main_v23 val_main_v22 val_main_v21 val_main_c_3 val_main_v20 val_main_v19 val_main_c_2 val_main_v18 val_main_v17 val_main_v16 val_main_v15 val_main_v14 val_main_c_1 val_main_v13 val_main_v12 val_main_c val_main_v11 val_main_v10 val_main_v9 val_main_v8 val_main_cst_0 val_main_v7 val_main_cst val_main_v6 val_main_v5 val_main_v4 val_main_v3 val_main_v2 val_main_v1 val_main_v0
  rfl

/-- The first dense layer, from any contents holding the features and the first weights. -/
theorem stretch1 (W : Valuation τ sig (Elt F)) (x0 : (⟨S100000x128, .f32⟩ : BufTy).Contents (Elt F)) (x2 : (⟨S128x64, .f32⟩ : BufTy).Contents (Elt F))
    (ha0 : W (Proc.devRef .tc main_arg0) = x0)
    (ha2 : W (Proc.devRef .tc main_arg2) = x2) :
    after (s1 (F := F)) W (Proc.devRef .tc main_v27) = val_main_v27 (F := F) x0 x2 := by
  dsimp only [s1]; after_results_simp
  rw [ha0, ha2]
  unfold val_main_v27
  rfl

/-- The first aggregation, from any contents holding the first dense output, the edge-list arrays and the edge weights at their stages and the first bias. -/
theorem stretch2 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F))
    (h27 : W (Proc.devRef .tc main_v27) = val_main_v27 (F := F) x0 x2)
    (h3 : W (Proc.devRef .tc main_v3) = val_main_v3 (F := F) x1)
    (h6 : W (Proc.devRef .tc main_v6) = val_main_v6 (F := F) x1)
    (h26 : W (Proc.devRef .tc main_v26) = val_main_v26 (F := F) x1)
    (ha3 : W (Proc.devRef .tc main_arg3) = x3) :
    after (s2 (F := F)) W (Proc.devRef .tc main_v43) = val_main_v43 (F := F) x0 x1 x2 x3 := by
  dsimp only [s2]; after_results_simp
  rw [h27, h3, h6, h26, ha3]
  unfold val_main_v43 val_main_v42 val_main_v41 val_main_v40 val_main_v39 val_main_v38 val_main_cst_6 val_main_v37 val_main_v36 val_main_v35 val_main_v34 val_main_v33 val_main_v32 val_main_v31 val_main_v30 val_main_c_5 val_main_v29 val_main_v28 val_main_c_4
  rfl

/-- The first normalisation and clip, from any contents holding the first aggregation at its stage and the layer's scale and shift. -/
theorem stretch3 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F))
    (h43 : W (Proc.devRef .tc main_v43) = val_main_v43 (F := F) x0 x1 x2 x3)
    (ha4 : W (Proc.devRef .tc main_arg4) = x4)
    (ha5 : W (Proc.devRef .tc main_arg5) = x5) :
    after (s3 (F := F)) W (Proc.devRef .tc main_v69) = val_main_v69 (F := F) x0 x1 x2 x3 x4 x5 := by
  dsimp only [s3]; after_results_simp
  rw [h43, ha4, ha5]
  unfold val_main_v69 val_main_call0_v0 val_main_call0_cst val_main_v68 val_main_v67 val_main_v66 val_main_v65 val_main_v64 val_main_v63 val_main_v62 val_main_v61 val_main_v60 val_main_v59 val_main_v58 val_main_v57 val_main_cst_11 val_main_v56 val_main_v55 val_main_v54 val_main_v53 val_main_v52 val_main_cst_10 val_main_v51 val_main_cst_9 val_main_v50 val_main_v49 val_main_v48 val_main_v47 val_main_v46 val_main_v45 val_main_cst_8 val_main_v44 val_main_cst_7
  rfl

/-- The second dense layer. -/
theorem stretch4 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F))
    (h69 : W (Proc.devRef .tc main_v69) = val_main_v69 (F := F) x0 x1 x2 x3 x4 x5)
    (ha6 : W (Proc.devRef .tc main_arg6) = x6) :
    after (s4 (F := F)) W (Proc.devRef .tc main_v70) = val_main_v70 (F := F) x0 x1 x2 x3 x4 x5 x6 := by
  dsimp only [s4]; after_results_simp
  rw [h69, ha6]
  unfold val_main_v70
  rfl

/-- The second aggregation. -/
theorem stretch5 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F))
    (h70 : W (Proc.devRef .tc main_v70) = val_main_v70 (F := F) x0 x1 x2 x3 x4 x5 x6)
    (h3 : W (Proc.devRef .tc main_v3) = val_main_v3 (F := F) x1)
    (h6 : W (Proc.devRef .tc main_v6) = val_main_v6 (F := F) x1)
    (h26 : W (Proc.devRef .tc main_v26) = val_main_v26 (F := F) x1)
    (ha7 : W (Proc.devRef .tc main_arg7) = x7) :
    after (s5 (F := F)) W (Proc.devRef .tc main_v86) = val_main_v86 (F := F) x0 x1 x2 x3 x4 x5 x6 x7 := by
  dsimp only [s5]; after_results_simp
  rw [h70, h3, h6, h26, ha7]
  unfold val_main_v86 val_main_v85 val_main_v84 val_main_v83 val_main_v82 val_main_v81 val_main_cst_14 val_main_v80 val_main_v79 val_main_v78 val_main_v77 val_main_v76 val_main_v75 val_main_v74 val_main_v73 val_main_c_13 val_main_v72 val_main_v71 val_main_c_12
  rfl

/-- The second normalisation and clip. -/
theorem stretch6 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F))
    (h86 : W (Proc.devRef .tc main_v86) = val_main_v86 (F := F) x0 x1 x2 x3 x4 x5 x6 x7)
    (ha8 : W (Proc.devRef .tc main_arg8) = x8)
    (ha9 : W (Proc.devRef .tc main_arg9) = x9) :
    after (s6 (F := F)) W (Proc.devRef .tc main_v112) = val_main_v112 (F := F) x0 x1 x2 x3 x4 x5 x6 x7 x8 x9 := by
  dsimp only [s6]; after_results_simp
  rw [h86, ha8, ha9]
  unfold val_main_v112 val_main_call1_v0 val_main_call1_cst val_main_v111 val_main_v110 val_main_v109 val_main_v108 val_main_v107 val_main_v106 val_main_v105 val_main_v104 val_main_v103 val_main_v102 val_main_v101 val_main_v100 val_main_cst_19 val_main_v99 val_main_v98 val_main_v97 val_main_v96 val_main_v95 val_main_cst_18 val_main_v94 val_main_cst_17 val_main_v93 val_main_v92 val_main_v91 val_main_v90 val_main_v89 val_main_v88 val_main_cst_16 val_main_v87 val_main_cst_15
  rfl

/-- The third dense layer. -/
theorem stretch7 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64x64, .f32⟩ : BufTy).Contents (Elt F))
    (h112 : W (Proc.devRef .tc main_v112) = val_main_v112 (F := F) x0 x1 x2 x3 x4 x5 x6 x7 x8 x9)
    (ha10 : W (Proc.devRef .tc main_arg10) = x10) :
    after (s7 (F := F)) W (Proc.devRef .tc main_v113) = val_main_v113 (F := F) x0 x1 x2 x3 x4 x5 x6 x7 x8 x9 x10 := by
  dsimp only [s7]; after_results_simp
  rw [h112, ha10]
  unfold val_main_v113
  rfl

/-- The third aggregation. -/
theorem stretch8 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F))
    (h113 : W (Proc.devRef .tc main_v113) = val_main_v113 (F := F) x0 x1 x2 x3 x4 x5 x6 x7 x8 x9 x10)
    (h3 : W (Proc.devRef .tc main_v3) = val_main_v3 (F := F) x1)
    (h6 : W (Proc.devRef .tc main_v6) = val_main_v6 (F := F) x1)
    (h26 : W (Proc.devRef .tc main_v26) = val_main_v26 (F := F) x1)
    (ha11 : W (Proc.devRef .tc main_arg11) = x11) :
    after (s8 (F := F)) W (Proc.devRef .tc main_v129) = val_main_v129 (F := F) x0 x1 x2 x3 x4 x5 x6 x7 x8 x9 x10 x11 := by
  dsimp only [s8]; after_results_simp
  rw [h113, h3, h6, h26, ha11]
  unfold val_main_v129 val_main_v128 val_main_v127 val_main_v126 val_main_v125 val_main_v124 val_main_cst_22 val_main_v123 val_main_v122 val_main_v121 val_main_v120 val_main_v119 val_main_v118 val_main_v117 val_main_v116 val_main_c_21 val_main_v115 val_main_v114 val_main_c_20
  rfl

/-- The last stretch as one function of what it reads: the three layer outputs stacked, their entrywise maximum,
    the last dense layer, and its bias added to every row. -/
def tail9 (a b c : (⟨S100000x64, .f32⟩ : BufTy).Contents (Elt F)) (w : (⟨S64x40, .f32⟩ : BufTy).Contents (Elt F)) (bias : (⟨S40, .f32⟩ : BufTy).Contents (Elt F)) :
    (⟨S100000x40, .f32⟩ : BufTy).Contents (Elt F) :=
  addf
    (Host.dotGeneral dot_S100000x64_S64x40_S100000x40_1_0_0_1_n_n none
      (Host.reduce FloatOps.maximumf
        (concatenate S3x100000x64 0 [⟨S1x100000x64, broadcastInDim S1x100000x64 ![1, 2] bcast_S100000x64_S1x100000x64_1_2 a⟩, ⟨S1x100000x64, broadcastInDim S1x100000x64 ![1, 2] bcast_S100000x64_S1x100000x64_1_2 b⟩, ⟨S1x100000x64, broadcastInDim S1x100000x64 ![1, 2] bcast_S100000x64_S1x100000x64_1_2 c⟩]
          concatenates_S1x100000x64_S1x100000x64_S1x100000x64_S3x100000x64_d0)
        (constant S_ .f32 0xFF800000#32) reducesTo_S3x100000x64_S100000x64_d0 h_S_)
      w)
    (broadcastInDim S100000x40 ![0, 1] bcast_S1x40_S100000x40_0_1 (broadcastInDim S1x40 ![1] bcast_S40_S1x40_1 bias))

/-- The last stretch leaves that function of the buffers it reads. -/
theorem after9 (W : Valuation τ sig (Elt F)) :
    after (s9 (F := F)) W (Proc.devRef .tc main_v138)
      = tail9 (W (Proc.devRef .tc main_v69)) (W (Proc.devRef .tc main_v112)) (W (Proc.devRef .tc main_v129)) (W (Proc.devRef .tc main_arg12)) (W (Proc.devRef .tc main_arg13)) := by
  dsimp only [s9]; after_results_simp
  unfold tail9
  rfl

/-- The last stage is that function of the three layer outputs' stages. -/
theorem stage138 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x40, .f32⟩ : BufTy).Contents (Elt F)) (x13 : (⟨S40, .f32⟩ : BufTy).Contents (Elt F)) :
    val_main_v138 (F := F) x0 x1 x2 x3 x4 x5 x6 x7 x8 x9 x10 x11 x12 x13 = tail9 (val_main_v69 (F := F) x0 x1 x2 x3 x4 x5) (val_main_v112 (F := F) x0 x1 x2 x3 x4 x5 x6 x7 x8 x9) (val_main_v129 (F := F) x0 x1 x2 x3 x4 x5 x6 x7 x8 x9 x10 x11) x12 x13 := by
  unfold val_main_v138 val_main_v137 val_main_v136 val_main_v135 val_main_v134 val_main_cst_23 val_main_v133 val_main_v132 val_main_v131 val_main_v130 tail9
  rfl

/-- The maximum of the three layer outputs, the last dense layer and its bias. -/
theorem stretch9 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x40, .f32⟩ : BufTy).Contents (Elt F)) (x13 : (⟨S40, .f32⟩ : BufTy).Contents (Elt F))
    (h69 : W (Proc.devRef .tc main_v69) = val_main_v69 (F := F) x0 x1 x2 x3 x4 x5) (h112 : W (Proc.devRef .tc main_v112) = val_main_v112 (F := F) x0 x1 x2 x3 x4 x5 x6 x7 x8 x9)
    (h129 : W (Proc.devRef .tc main_v129) = val_main_v129 (F := F) x0 x1 x2 x3 x4 x5 x6 x7 x8 x9 x10 x11) (ha12 : W (Proc.devRef .tc main_arg12) = x12) (ha13 : W (Proc.devRef .tc main_arg13) = x13) :
    after (s9 (F := F)) W (Proc.devRef .tc main_v138) = val_main_v138 (F := F) x0 x1 x2 x3 x4 x5 x6 x7 x8 x9 x10 x11 x12 x13 := by
  rw [after9, h69, h112, h129, ha12, ha13]
  exact (stage138 x0 x1 x2 x3 x4 x5 x6 x7 x8 x9 x10 x11 x12 x13).symm

/-! ## What each stretch leaves alone -/

/-- The buffers stretch 0 writes. -/
abbrev w0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem writes0 : (s0 (F := F)).Forall fun op => op.writes ⊆ ((w0.map (Proc.devRef (τ := τ) .tc)).toFinset) := by
  simp only [s0, w0, List.Forall, nullary_writes, unary_writes, binary_writes, ternary_writes, reshape_writes, nary_writes,
    Finset.singleton_subset_iff, List.mem_toFinset, List.map_cons, List.map_nil, List.mem_cons, true_or, or_true, and_self]
/-- A buffer stretch 0 does not write keeps its contents. -/
theorem pass0 (W : Valuation τ sig (Elt F)) {r : Ref sig .tc} (hr : r ∉ w0) :
    after (s0 (F := F)) W (Proc.devRef .tc r) = W (Proc.devRef .tc r) :=
  after_of_writes_sub s0 W writes0 hr

/-- The buffers stretch 1 writes. -/
abbrev w1 : List (Ref sig .tc) := [main_v27]
theorem writes1 : (s1 (F := F)).Forall fun op => op.writes ⊆ ((w1.map (Proc.devRef (τ := τ) .tc)).toFinset) := by
  simp only [s1, w1, List.Forall, nullary_writes, unary_writes, binary_writes, ternary_writes, reshape_writes, nary_writes,
    Finset.singleton_subset_iff, List.mem_toFinset, List.map_cons, List.map_nil, List.mem_cons, true_or, or_true, and_self]
/-- A buffer stretch 1 does not write keeps its contents. -/
theorem pass1 (W : Valuation τ sig (Elt F)) {r : Ref sig .tc} (hr : r ∉ w1) :
    after (s1 (F := F)) W (Proc.devRef .tc r) = W (Proc.devRef .tc r) :=
  after_of_writes_sub s1 W writes1 hr

/-- The buffers stretch 2 writes. -/
abbrev w2 : List (Ref sig .tc) := [main_c_4, main_v28, main_v29, main_c_5, main_v30, main_v31, main_v32, main_v33, main_v34, main_v35, main_v36, main_v37, main_cst_6, main_v38, main_v39, main_v40, main_v41, main_v42, main_v43]
theorem writes2 : (s2 (F := F)).Forall fun op => op.writes ⊆ ((w2.map (Proc.devRef (τ := τ) .tc)).toFinset) := by
  simp only [s2, w2, List.Forall, nullary_writes, unary_writes, binary_writes, ternary_writes, reshape_writes, nary_writes,
    Finset.singleton_subset_iff, List.mem_toFinset, List.map_cons, List.map_nil, List.mem_cons, true_or, or_true, and_self]
/-- A buffer stretch 2 does not write keeps its contents. -/
theorem pass2 (W : Valuation τ sig (Elt F)) {r : Ref sig .tc} (hr : r ∉ w2) :
    after (s2 (F := F)) W (Proc.devRef .tc r) = W (Proc.devRef .tc r) :=
  after_of_writes_sub s2 W writes2 hr

/-- The buffers stretch 3 writes. -/
abbrev w3 : List (Ref sig .tc) := [main_cst_7, main_v44, main_cst_8, main_v45, main_v46, main_v47, main_v48, main_v49, main_v50, main_cst_9, main_v51, main_cst_10, main_v52, main_v53, main_v54, main_v55, main_v56, main_cst_11, main_v57, main_v58, main_v59, main_v60, main_v61, main_v62, main_v63, main_v64, main_v65, main_v66, main_v67, main_v68, main_call0_cst, main_call0_v0, main_v69]
theorem writes3 : (s3 (F := F)).Forall fun op => op.writes ⊆ ((w3.map (Proc.devRef (τ := τ) .tc)).toFinset) := by
  simp only [s3, w3, List.Forall, nullary_writes, unary_writes, binary_writes, ternary_writes, reshape_writes, nary_writes,
    Finset.singleton_subset_iff, List.mem_toFinset, List.map_cons, List.map_nil, List.mem_cons, true_or, or_true, and_self]
/-- A buffer stretch 3 does not write keeps its contents. -/
theorem pass3 (W : Valuation τ sig (Elt F)) {r : Ref sig .tc} (hr : r ∉ w3) :
    after (s3 (F := F)) W (Proc.devRef .tc r) = W (Proc.devRef .tc r) :=
  after_of_writes_sub s3 W writes3 hr

/-- The buffers stretch 4 writes. -/
abbrev w4 : List (Ref sig .tc) := [main_v70]
theorem writes4 : (s4 (F := F)).Forall fun op => op.writes ⊆ ((w4.map (Proc.devRef (τ := τ) .tc)).toFinset) := by
  simp only [s4, w4, List.Forall, nullary_writes, unary_writes, binary_writes, ternary_writes, reshape_writes, nary_writes,
    Finset.singleton_subset_iff, List.mem_toFinset, List.map_cons, List.map_nil, List.mem_cons, true_or, or_true, and_self]
/-- A buffer stretch 4 does not write keeps its contents. -/
theorem pass4 (W : Valuation τ sig (Elt F)) {r : Ref sig .tc} (hr : r ∉ w4) :
    after (s4 (F := F)) W (Proc.devRef .tc r) = W (Proc.devRef .tc r) :=
  after_of_writes_sub s4 W writes4 hr

/-- The buffers stretch 5 writes. -/
abbrev w5 : List (Ref sig .tc) := [main_c_12, main_v71, main_v72, main_c_13, main_v73, main_v74, main_v75, main_v76, main_v77, main_v78, main_v79, main_v80, main_cst_14, main_v81, main_v82, main_v83, main_v84, main_v85, main_v86]
theorem writes5 : (s5 (F := F)).Forall fun op => op.writes ⊆ ((w5.map (Proc.devRef (τ := τ) .tc)).toFinset) := by
  simp only [s5, w5, List.Forall, nullary_writes, unary_writes, binary_writes, ternary_writes, reshape_writes, nary_writes,
    Finset.singleton_subset_iff, List.mem_toFinset, List.map_cons, List.map_nil, List.mem_cons, true_or, or_true, and_self]
/-- A buffer stretch 5 does not write keeps its contents. -/
theorem pass5 (W : Valuation τ sig (Elt F)) {r : Ref sig .tc} (hr : r ∉ w5) :
    after (s5 (F := F)) W (Proc.devRef .tc r) = W (Proc.devRef .tc r) :=
  after_of_writes_sub s5 W writes5 hr

/-- The buffers stretch 6 writes. -/
abbrev w6 : List (Ref sig .tc) := [main_cst_15, main_v87, main_cst_16, main_v88, main_v89, main_v90, main_v91, main_v92, main_v93, main_cst_17, main_v94, main_cst_18, main_v95, main_v96, main_v97, main_v98, main_v99, main_cst_19, main_v100, main_v101, main_v102, main_v103, main_v104, main_v105, main_v106, main_v107, main_v108, main_v109, main_v110, main_v111, main_call1_cst, main_call1_v0, main_v112]
theorem writes6 : (s6 (F := F)).Forall fun op => op.writes ⊆ ((w6.map (Proc.devRef (τ := τ) .tc)).toFinset) := by
  simp only [s6, w6, List.Forall, nullary_writes, unary_writes, binary_writes, ternary_writes, reshape_writes, nary_writes,
    Finset.singleton_subset_iff, List.mem_toFinset, List.map_cons, List.map_nil, List.mem_cons, true_or, or_true, and_self]
/-- A buffer stretch 6 does not write keeps its contents. -/
theorem pass6 (W : Valuation τ sig (Elt F)) {r : Ref sig .tc} (hr : r ∉ w6) :
    after (s6 (F := F)) W (Proc.devRef .tc r) = W (Proc.devRef .tc r) :=
  after_of_writes_sub s6 W writes6 hr

/-- The buffers stretch 7 writes. -/
abbrev w7 : List (Ref sig .tc) := [main_v113]
theorem writes7 : (s7 (F := F)).Forall fun op => op.writes ⊆ ((w7.map (Proc.devRef (τ := τ) .tc)).toFinset) := by
  simp only [s7, w7, List.Forall, nullary_writes, unary_writes, binary_writes, ternary_writes, reshape_writes, nary_writes,
    Finset.singleton_subset_iff, List.mem_toFinset, List.map_cons, List.map_nil, List.mem_cons, true_or, or_true, and_self]
/-- A buffer stretch 7 does not write keeps its contents. -/
theorem pass7 (W : Valuation τ sig (Elt F)) {r : Ref sig .tc} (hr : r ∉ w7) :
    after (s7 (F := F)) W (Proc.devRef .tc r) = W (Proc.devRef .tc r) :=
  after_of_writes_sub s7 W writes7 hr

/-- The buffers stretch 8 writes. -/
abbrev w8 : List (Ref sig .tc) := [main_c_20, main_v114, main_v115, main_c_21, main_v116, main_v117, main_v118, main_v119, main_v120, main_v121, main_v122, main_v123, main_cst_22, main_v124, main_v125, main_v126, main_v127, main_v128, main_v129]
theorem writes8 : (s8 (F := F)).Forall fun op => op.writes ⊆ ((w8.map (Proc.devRef (τ := τ) .tc)).toFinset) := by
  simp only [s8, w8, List.Forall, nullary_writes, unary_writes, binary_writes, ternary_writes, reshape_writes, nary_writes,
    Finset.singleton_subset_iff, List.mem_toFinset, List.map_cons, List.map_nil, List.mem_cons, true_or, or_true, and_self]
/-- A buffer stretch 8 does not write keeps its contents. -/
theorem pass8 (W : Valuation τ sig (Elt F)) {r : Ref sig .tc} (hr : r ∉ w8) :
    after (s8 (F := F)) W (Proc.devRef .tc r) = W (Proc.devRef .tc r) :=
  after_of_writes_sub s8 W writes8 hr

/-- The buffers stretch 9 writes. -/
abbrev w9 : List (Ref sig .tc) := [main_v130, main_v131, main_v132, main_v133, main_cst_23, main_v134, main_v135, main_v136, main_v137, main_v138]
theorem writes9 : (s9 (F := F)).Forall fun op => op.writes ⊆ ((w9.map (Proc.devRef (τ := τ) .tc)).toFinset) := by
  simp only [s9, w9, List.Forall, nullary_writes, unary_writes, binary_writes, ternary_writes, reshape_writes, nary_writes,
    Finset.singleton_subset_iff, List.mem_toFinset, List.map_cons, List.map_nil, List.mem_cons, true_or, or_true, and_self]
/-- A buffer stretch 9 does not write keeps its contents. -/
theorem pass9 (W : Valuation τ sig (Elt F)) {r : Ref sig .tc} (hr : r ∉ w9) :
    after (s9 (F := F)) W (Proc.devRef .tc r) = W (Proc.devRef .tc r) :=
  after_of_writes_sub s9 W writes9 hr

/-! ## The chain -/

/-- The buffer contents after the first k stretches, from contents V. -/
abbrev U1 (V : Valuation τ sig (Elt F)) : Valuation τ sig (Elt F) := after s0 V
abbrev U2 (V : Valuation τ sig (Elt F)) : Valuation τ sig (Elt F) := after s1 (U1 V)
abbrev U3 (V : Valuation τ sig (Elt F)) : Valuation τ sig (Elt F) := after s2 (U2 V)
abbrev U4 (V : Valuation τ sig (Elt F)) : Valuation τ sig (Elt F) := after s3 (U3 V)
abbrev U5 (V : Valuation τ sig (Elt F)) : Valuation τ sig (Elt F) := after s4 (U4 V)
abbrev U6 (V : Valuation τ sig (Elt F)) : Valuation τ sig (Elt F) := after s5 (U5 V)
abbrev U7 (V : Valuation τ sig (Elt F)) : Valuation τ sig (Elt F) := after s6 (U6 V)
abbrev U8 (V : Valuation τ sig (Elt F)) : Valuation τ sig (Elt F) := after s7 (U7 V)
abbrev U9 (V : Valuation τ sig (Elt F)) : Valuation τ sig (Elt F) := after s8 (U8 V)
abbrev U10 (V : Valuation τ sig (Elt F)) : Valuation τ sig (Elt F) := after s9 (U9 V)

/-- The whole line leaves what the ten stretches leave one after another. -/
theorem ops_after (V : Valuation τ sig (Elt F)) : after (ops (F := F)) V = U10 V := by
  rw [ops_eq]; simp only [after_append]

variable (V : Valuation τ sig (Elt F))

/-- After the first stretch: the edge-list arrays and the edge weights at their stages of the edge-list argument. -/
theorem reach3 : U1 V (Proc.devRef .tc main_v3) = val_main_v3 (F := F) (V (Proc.devRef .tc main_arg1)) := src0 V
theorem reach6 : U1 V (Proc.devRef .tc main_v6) = val_main_v6 (F := F) (V (Proc.devRef .tc main_arg1)) := dst0 V
theorem reach26 : U1 V (Proc.devRef .tc main_v26) = val_main_v26 (F := F) (V (Proc.devRef .tc main_arg1)) := nrm0 V

/-- After the second: the first dense output. -/
theorem reach27 : U2 V (Proc.devRef .tc main_v27) = val_main_v27 (F := F) (V (Proc.devRef .tc main_arg0)) (V (Proc.devRef .tc main_arg2)) :=
  stretch1 (U1 V) (V (Proc.devRef .tc main_arg0)) (V (Proc.devRef .tc main_arg2)) (pass0 V (r := main_arg0) (by decide)) (pass0 V (r := main_arg2) (by decide))

/-- After the third: the first aggregation. -/
theorem reach43 : U3 V (Proc.devRef .tc main_v43) = val_main_v43 (F := F) (V (Proc.devRef .tc main_arg0)) (V (Proc.devRef .tc main_arg1)) (V (Proc.devRef .tc main_arg2)) (V (Proc.devRef .tc main_arg3)) :=
  stretch2 (U2 V) (V (Proc.devRef .tc main_arg0)) (V (Proc.devRef .tc main_arg1)) (V (Proc.devRef .tc main_arg2)) (V (Proc.devRef .tc main_arg3)) (reach27 V) ((pass1 (U1 V) (r := main_v3) (by decide)).trans (reach3 V)) ((pass1 (U1 V) (r := main_v6) (by decide)).trans (reach6 V)) ((pass1 (U1 V) (r := main_v26) (by decide)).trans (reach26 V)) ((pass1 (U1 V) (r := main_arg3) (by decide)).trans (pass0 V (r := main_arg3) (by decide)))

/-- After the fourth: the first layer's output. -/
theorem reach69 : U4 V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stretch3 (U3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (reach43 V) ((pass2 (U2 V) (r := main_arg4) (by decide)).trans ((pass1 (U1 V) (r := main_arg4) (by decide)).trans (pass0 V (r := main_arg4) (by decide)))) ((pass2 (U2 V) (r := main_arg5) (by decide)).trans ((pass1 (U1 V) (r := main_arg5) (by decide)).trans (pass0 V (r := main_arg5) (by decide))))

/-- After the fifth: the second dense output. -/
theorem reach70 : U5 V (Proc.devRef .tc main_v70) = val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  stretch4 (U4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (reach69 V) ((pass3 (U3 V) (r := main_arg6) (by decide)).trans ((pass2 (U2 V) (r := main_arg6) (by decide)).trans ((pass1 (U1 V) (r := main_arg6) (by decide)).trans (pass0 V (r := main_arg6) (by decide)))))

/-- After the sixth: the second aggregation. -/
theorem reach86 : U6 V (Proc.devRef .tc main_v86) = val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  stretch5 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (reach70 V) (((pass4 (U4 V) (r := main_v3) (by decide)).trans ((pass3 (U3 V) (r := main_v3) (by decide)).trans ((pass2 (U2 V) (r := main_v3) (by decide)).trans (pass1 (U1 V) (r := main_v3) (by decide))))).trans (reach3 V)) (((pass4 (U4 V) (r := main_v6) (by decide)).trans ((pass3 (U3 V) (r := main_v6) (by decide)).trans ((pass2 (U2 V) (r := main_v6) (by decide)).trans (pass1 (U1 V) (r := main_v6) (by decide))))).trans (reach6 V)) (((pass4 (U4 V) (r := main_v26) (by decide)).trans ((pass3 (U3 V) (r := main_v26) (by decide)).trans ((pass2 (U2 V) (r := main_v26) (by decide)).trans (pass1 (U1 V) (r := main_v26) (by decide))))).trans (reach26 V)) ((pass4 (U4 V) (r := main_arg7) (by decide)).trans ((pass3 (U3 V) (r := main_arg7) (by decide)).trans ((pass2 (U2 V) (r := main_arg7) (by decide)).trans ((pass1 (U1 V) (r := main_arg7) (by decide)).trans (pass0 V (r := main_arg7) (by decide))))))

/-- After the seventh: the second layer's output. -/
theorem reach112 : U7 V (Proc.devRef .tc main_v112) = val_main_v112 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  stretch6 (U6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (reach86 V) ((pass5 (U5 V) (r := main_arg8) (by decide)).trans ((pass4 (U4 V) (r := main_arg8) (by decide)).trans ((pass3 (U3 V) (r := main_arg8) (by decide)).trans ((pass2 (U2 V) (r := main_arg8) (by decide)).trans ((pass1 (U1 V) (r := main_arg8) (by decide)).trans (pass0 V (r := main_arg8) (by decide))))))) ((pass5 (U5 V) (r := main_arg9) (by decide)).trans ((pass4 (U4 V) (r := main_arg9) (by decide)).trans ((pass3 (U3 V) (r := main_arg9) (by decide)).trans ((pass2 (U2 V) (r := main_arg9) (by decide)).trans ((pass1 (U1 V) (r := main_arg9) (by decide)).trans (pass0 V (r := main_arg9) (by decide)))))))

/-- After the eighth: the third dense output. -/
theorem reach113 : U8 V (Proc.devRef .tc main_v113) = val_main_v113 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  stretch7 (U7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (reach112 V) ((pass6 (U6 V) (r := main_arg10) (by decide)).trans ((pass5 (U5 V) (r := main_arg10) (by decide)).trans ((pass4 (U4 V) (r := main_arg10) (by decide)).trans ((pass3 (U3 V) (r := main_arg10) (by decide)).trans ((pass2 (U2 V) (r := main_arg10) (by decide)).trans ((pass1 (U1 V) (r := main_arg10) (by decide)).trans (pass0 V (r := main_arg10) (by decide))))))))

/-- After the ninth: the third aggregation. -/
theorem reach129 : U9 V (Proc.devRef .tc main_v129) = val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  stretch8 (U8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (reach113 V) (((pass7 (U7 V) (r := main_v3) (by decide)).trans ((pass6 (U6 V) (r := main_v3) (by decide)).trans ((pass5 (U5 V) (r := main_v3) (by decide)).trans ((pass4 (U4 V) (r := main_v3) (by decide)).trans ((pass3 (U3 V) (r := main_v3) (by decide)).trans ((pass2 (U2 V) (r := main_v3) (by decide)).trans (pass1 (U1 V) (r := main_v3) (by decide)))))))).trans (reach3 V)) (((pass7 (U7 V) (r := main_v6) (by decide)).trans ((pass6 (U6 V) (r := main_v6) (by decide)).trans ((pass5 (U5 V) (r := main_v6) (by decide)).trans ((pass4 (U4 V) (r := main_v6) (by decide)).trans ((pass3 (U3 V) (r := main_v6) (by decide)).trans ((pass2 (U2 V) (r := main_v6) (by decide)).trans (pass1 (U1 V) (r := main_v6) (by decide)))))))).trans (reach6 V)) (((pass7 (U7 V) (r := main_v26) (by decide)).trans ((pass6 (U6 V) (r := main_v26) (by decide)).trans ((pass5 (U5 V) (r := main_v26) (by decide)).trans ((pass4 (U4 V) (r := main_v26) (by decide)).trans ((pass3 (U3 V) (r := main_v26) (by decide)).trans ((pass2 (U2 V) (r := main_v26) (by decide)).trans (pass1 (U1 V) (r := main_v26) (by decide)))))))).trans (reach26 V)) ((pass7 (U7 V) (r := main_arg11) (by decide)).trans ((pass6 (U6 V) (r := main_arg11) (by decide)).trans ((pass5 (U5 V) (r := main_arg11) (by decide)).trans ((pass4 (U4 V) (r := main_arg11) (by decide)).trans ((pass3 (U3 V) (r := main_arg11) (by decide)).trans ((pass2 (U2 V) (r := main_arg11) (by decide)).trans ((pass1 (U1 V) (r := main_arg11) (by decide)).trans (pass0 V (r := main_arg11) (by decide)))))))))

/-- After the tenth: the result. -/
theorem reach138 : U10 V (Proc.devRef .tc main_v138) = val_main_v138 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  stretch9 (U9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (((pass8 (U8 V) (r := main_v69) (by decide)).trans ((pass7 (U7 V) (r := main_v69) (by decide)).trans ((pass6 (U6 V) (r := main_v69) (by decide)).trans ((pass5 (U5 V) (r := main_v69) (by decide)).trans (pass4 (U4 V) (r := main_v69) (by decide)))))).trans (reach69 V)) (((pass8 (U8 V) (r := main_v112) (by decide)).trans (pass7 (U7 V) (r := main_v112) (by decide))).trans (reach112 V)) (reach129 V) ((pass8 (U8 V) (r := main_arg12) (by decide)).trans ((pass7 (U7 V) (r := main_arg12) (by decide)).trans ((pass6 (U6 V) (r := main_arg12) (by decide)).trans ((pass5 (U5 V) (r := main_arg12) (by decide)).trans ((pass4 (U4 V) (r := main_arg12) (by decide)).trans ((pass3 (U3 V) (r := main_arg12) (by decide)).trans ((pass2 (U2 V) (r := main_arg12) (by decide)).trans ((pass1 (U1 V) (r := main_arg12) (by decide)).trans (pass0 V (r := main_arg12) (by decide)))))))))) ((pass8 (U8 V) (r := main_arg13) (by decide)).trans ((pass7 (U7 V) (r := main_arg13) (by decide)).trans ((pass6 (U6 V) (r := main_arg13) (by decide)).trans ((pass5 (U5 V) (r := main_arg13) (by decide)).trans ((pass4 (U4 V) (r := main_arg13) (by decide)).trans ((pass3 (U3 V) (r := main_arg13) (by decide)).trans ((pass2 (U2 V) (r := main_arg13) (by decide)).trans ((pass1 (U1 V) (r := main_arg13) (by decide)).trans (pass0 V (r := main_arg13) (by decide))))))))))

/-- The result buffer after the whole line: the last stage's value of the arguments as the line found them. -/
theorem result : after (ops (F := F)) V (Proc.devRef .tc main_v138) = val_main_v138 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_after]; exact reach138 V

/-- A buffer none of the ten stretches writes is, after the whole line, as the line found it. -/
theorem kept {r : Ref sig .tc} (h0 : r ∉ w0) (h1 : r ∉ w1) (h2 : r ∉ w2) (h3 : r ∉ w3) (h4 : r ∉ w4) (h5 : r ∉ w5) (h6 : r ∉ w6) (h7 : r ∉ w7) (h8 : r ∉ w8) (h9 : r ∉ w9) :
    after (ops (F := F)) V (Proc.devRef .tc r) = V (Proc.devRef .tc r) := by
  rw [ops_after]
  exact ((pass9 (U9 V) h9).trans ((pass8 (U8 V) h8).trans ((pass7 (U7 V) h7).trans ((pass6 (U6 V) h6).trans ((pass5 (U5 V) h5).trans ((pass4 (U4 V) h4).trans ((pass3 (U3 V) h3).trans ((pass2 (U2 V) h2).trans ((pass1 (U1 V) h1).trans (pass0 V h0))))))))))

/-! ## The run -/

/-- Every weakly fair execution of the reference terminates, nothing faulting, with the result buffer at the last
    stage's value of the arguments' launch contents and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v138).trans (result (launchContents m c)),
      (h c main_arg0).trans (kept (launchContents m c) (by decide) (by decide) (by decide) (by decide) (by decide) (by decide) (by decide) (by decide) (by decide) (by decide)),
      (h c main_arg1).trans (kept (launchContents m c) (by decide) (by decide) (by decide) (by decide) (by decide) (by decide) (by decide) (by decide) (by decide) (by decide)),
      (h c main_arg2).trans (kept (launchContents m c) (by decide) (by decide) (by decide) (by decide) (by decide) (by decide) (by decide) (by decide) (by decide) (by decide)),
      (h c main_arg3).trans (kept (launchContents m c) (by decide) (by decide) (by decide) (by decide) (by decide) (by decide) (by decide) (by decide) (by decide) (by decide)),
      (h c main_arg4).trans (kept (launchContents m c) (by decide) (by decide) (by decide) (by decide) (by decide) (by decide) (by decide) (by decide) (by decide) (by decide)),
      (h c main_arg5).trans (kept (launchContents m c) (by decide) (by decide) (by decide) (by decide) (by decide) (by decide) (by decide) (by decide) (by decide) (by decide)),
      (h c main_arg6).trans (kept (launchContents m c) (by decide) (by decide) (by decide) (by decide) (by decide) (by decide) (by decide) (by decide) (by decide) (by decide)),
      (h c main_arg7).trans (kept (launchContents m c) (by decide) (by decide) (by decide) (by decide) (by decide) (by decide) (by decide) (by decide) (by decide) (by decide)),
      (h c main_arg8).trans (kept (launchContents m c) (by decide) (by decide) (by decide) (by decide) (by decide) (by decide) (by decide) (by decide) (by decide) (by decide)),
      (h c main_arg9).trans (kept (launchContents m c) (by decide) (by decide) (by decide) (by decide) (by decide) (by decide) (by decide) (by decide) (by decide) (by decide)),
      (h c main_arg10).trans (kept (launchContents m c) (by decide) (by decide) (by decide) (by decide) (by decide) (by decide) (by decide) (by decide) (by decide) (by decide)),
      (h c main_arg11).trans (kept (launchContents m c) (by decide) (by decide) (by decide) (by decide) (by decide) (by decide) (by decide) (by decide) (by decide) (by decide)),
      (h c main_arg12).trans (kept (launchContents m c) (by decide) (by decide) (by decide) (by decide) (by decide) (by decide) (by decide) (by decide) (by decide) (by decide)),
      (h c main_arg13).trans (kept (launchContents m c) (by decide) (by decide) (by decide) (by decide) (by decide) (by decide) (by decide) (by decide) (by decide) (by decide))⟩)
    (run_seq scopedRefs_eq scopedSems_eq defs main (fun _ => ops) main_eq (fun _ => ops_sub) m ρ)

end Cert.RefRunStaged

end
-- ==== Proof.KernelRun.lean ====
/-
  The idealized kernel's run with its result NAMED: every weakly fair execution of @main terminates, nothing
  faulting, the result array holding what the last launch's write-backs leave (the buffer contents at the last
  segment boundary, read at the result's buffer) and the arguments as launched. The same launch over the same
  segments as the frame; the last thread state is read at one more buffer.
-/
import proofs.«121954_j7129645711840_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer at the last boundary's contents. -/
theorem run_named : θ_run defs (onTc (τ := τ) (main (F := F))) ⟨m, fun _ => 0, ρ⟩ (fun r => ∀ c : Dev nD,
      r.2.mem ((c.tc : Thread nD τ).loc main_v111) = W14 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v111 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.Val

end
-- ==== Proof.ChaseArgs.lean ====
/-
  The program's arguments are never written: at the entry of the segment that first reads one, its buffer still holds the launch contents. Each fact walks the buffer back through the segment boundaries: a host stretch that does not write it, a launch none of whose arrays it is, or a launch that only reads it.
-/
import proofs.«121954_j7129645711840_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0_W0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_arg2_W0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_arg3_W0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg4_W0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg5_W0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_arg6_W0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_arg7_W0 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_arg8_W0 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_arg9_W0 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_arg10_W0 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W12_arg11_W0 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W12_arg13_W0 (c : Dev nD) : W12 m ρ c (Proc.devRef .tc main_arg13) = W0 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W13_arg12_W0 (c : Dev nD) : W13 m ρ c (Proc.devRef .tc main_arg12) = W0 m ρ c (Proc.devRef .tc main_arg12) :=
  calc W13 m ρ c (Proc.devRef .tc main_arg12)
    _ = W12 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
end Cert.KernelIdeal.Val

end
-- ==== Proof.ChaseMid.lean ====
/-
  Values computed once and read later — the two index arrays and the edge weights of the graph, a layer's pre-normalisation output, a layer's output — are unchanged between the segment that writes them and each segment that reads them: every host stretch between does not write them, and every launch between either does not touch them or only reads them.
-/
import proofs.«121954_j7129645711840_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

theorem W2_v3_W1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W2_v6_W1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem W2_v26_W1 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem W7_v3_W1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W7_v6_W1 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem W7_v26_W1 (c : Dev nD) : W7 m ρ c (Proc.devRef .tc main_v26) = W1 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

theorem W12_v3_W1 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W12_v6_W1 (c : Dev nD) : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem W12_v26_W1 (c : Dev nD) : W12 m ρ c (Proc.devRef .tc main_v26) = W1 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := W11_of_ne m ρ c main_v26 (by decide)
    _ = W9 m ρ c (Proc.devRef .tc main_v26) := StableHlo.after_of_forall_not_mem (b := Proc.devRef .tc main_v26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v26) := W9_of_ne m ρ c main_v26 (by decide)
    _ = W7 m ρ c (Proc.devRef .tc main_v26) := StableHlo.after_of_forall_not_mem (b := Proc.devRef .tc main_v26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

theorem W5_v43_W3 (c : Dev nD) : W5 m ρ c (Proc.devRef .tc main_v43) = W3 m ρ c (Proc.devRef .tc main_v43) :=
  calc W5 m ρ c (Proc.devRef .tc main_v43)
    _ = W4 m ρ c (Proc.devRef .tc main_v43) := StableHlo.after_of_forall_not_mem (b := Proc.devRef .tc main_v43) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v43) := (W4_arr m ρ c 0).trans (((dat1 (V3 m ρ) c).arrAt_in 0 rfl _).trans (A_eq1 (V3 m ρ) c 0))

theorem W10_v76_W8 (c : Dev nD) : W10 m ρ c (Proc.devRef .tc main_v76) = W8 m ρ c (Proc.devRef .tc main_v76) :=
  calc W10 m ρ c (Proc.devRef .tc main_v76)
    _ = W9 m ρ c (Proc.devRef .tc main_v76) := StableHlo.after_of_forall_not_mem (b := Proc.devRef .tc main_v76) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v76) := (W9_arr m ρ c 0).trans (((dat4 (V8 m ρ) c).arrAt_in 0 rfl _).trans (A_eq4 (V8 m ρ) c 0))

theorem W13_v59_W6 (c : Dev nD) : W13 m ρ c (Proc.devRef .tc main_v59) = W6 m ρ c (Proc.devRef .tc main_v59) :=
  calc W13 m ρ c (Proc.devRef .tc main_v59)
    _ = W12 m ρ c (Proc.devRef .tc main_v59) := StableHlo.after_of_forall_not_mem (b := Proc.devRef .tc main_v59) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v59) := W12_of_ne m ρ c main_v59 (by decide)
    _ = W10 m ρ c (Proc.devRef .tc main_v59) := W11_of_ne m ρ c main_v59 (by decide)
    _ = W9 m ρ c (Proc.devRef .tc main_v59) := StableHlo.after_of_forall_not_mem (b := Proc.devRef .tc main_v59) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v59) := W9_of_ne m ρ c main_v59 (by decide)
    _ = W7 m ρ c (Proc.devRef .tc main_v59) := StableHlo.after_of_forall_not_mem (b := Proc.devRef .tc main_v59) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v59) := (W7_arr m ρ c 0).trans (((dat3 (V6 m ρ) c).arrAt_in 0 rfl _).trans (A_eq3 (V6 m ρ) c 0))

theorem W13_v92_W11 (c : Dev nD) : W13 m ρ c (Proc.devRef .tc main_v92) = W11 m ρ c (Proc.devRef .tc main_v92) :=
  calc W13 m ρ c (Proc.devRef .tc main_v92)
    _ = W12 m ρ c (Proc.devRef .tc main_v92) := StableHlo.after_of_forall_not_mem (b := Proc.devRef .tc main_v92) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v92) := (W12_arr m ρ c 0).trans (((dat6 (V11 m ρ) c).arrAt_in 0 rfl _).trans (A_eq6 (V11 m ρ) c 0))
end Cert.KernelIdeal.Val

end
-- ==== Proof.Spec.lean ====
/-
  What each of the kernel's eight launches leaves in its output array, as ONE function of its input arrays,
  entry by entry on the extended reals (the ideal reading: every float an extended real, every operation exact).
  Rows are the 100000 graph nodes; columns are feature channels.
  * `mm`      : a dense layer, entry (n, c) = ∑ₖ x (n, k) · w (k, c).
  * `colsum`  : per channel, the sum over all nodes (kept as a 1×C row, as the kernel stores it).
  * `sq`      : the entrywise square (the second statistic is `colsum (sq x)`).
  * `affRelu` : the normalisation applied as one multiply-add per entry with a per-channel scale and shift, then
                 clipped below at zero.
  * `jk`      : the entrywise maximum of three node-feature arrays, then a dense layer and a per-channel bias.
-/
import Idealize.ShloMosaic.PureOps.Ideal
import Idealize.ShloMosaic.Lib.ValueIdx

noncomputable section

open scoped BigOperators

namespace Cert.Spec

open Idealize.ShloMosaic Idealize.ShloMosaic.ValueIdx

/-- Node features with 128, 64, 40 channels; the three weight matrices' shapes; a 1×64 and a 1×40 row. -/
abbrev N128 : Shape := ⟨2, ![100000, 128]⟩
abbrev N64 : Shape := ⟨2, ![100000, 64]⟩
abbrev N40 : Shape := ⟨2, ![100000, 40]⟩
abbrev W128x64 : Shape := ⟨2, ![128, 64]⟩
abbrev W64x64 : Shape := ⟨2, ![64, 64]⟩
abbrev W64x40 : Shape := ⟨2, ![64, 40]⟩
abbrev R64 : Shape := ⟨2, ![1, 64]⟩
abbrev R40 : Shape := ⟨2, ![1, 40]⟩

/-- The first dense layer: entry (n, c) is ∑ₖ x (n, k) · w (k, c), k over the 128 input channels. -/
def mm128 (x : N128.Idx → EReal) (w : W128x64.Idx → EReal) : N64.Idx → EReal :=
  fun i => ∑ k : Fin 128, x (ix2 (⟨(i 0).val, idx2_lt0 i⟩ : Fin 100000) k) * w (ix2 k (⟨(i 1).val, idx2_lt1 i⟩ : Fin 64))

/-- A 64-to-64 dense layer. -/
def mm64 (x : N64.Idx → EReal) (w : W64x64.Idx → EReal) : N64.Idx → EReal :=
  fun i => ∑ k : Fin 64, x (ix2 (⟨(i 0).val, idx2_lt0 i⟩ : Fin 100000) k) * w (ix2 k (⟨(i 1).val, idx2_lt1 i⟩ : Fin 64))

/-- Per channel, the sum over all 100000 nodes, as a 1×64 row. -/
def colsum (x : N64.Idx → EReal) : R64.Idx → EReal :=
  fun j => ∑ r : Fin 100000, x (ix2 r (⟨(j 1).val, idx2_lt1 j⟩ : Fin 64))

/-- The entrywise square. -/
def sq (x : N64.Idx → EReal) : N64.Idx → EReal := fun i => x i * x i

/-- One multiply-add per entry with the channel's scale and shift, clipped below at zero. -/
def affRelu (x : N64.Idx → EReal) (scale shift : R64.Idx → EReal) : N64.Idx → EReal :=
  fun i => max (x i * scale (ix2 (0 : Fin 1) (⟨(i 1).val, idx2_lt1 i⟩ : Fin 64))
                + shift (ix2 (0 : Fin 1) (⟨(i 1).val, idx2_lt1 i⟩ : Fin 64))) 0

/-- The entrywise maximum of three feature arrays, a 64-to-40 dense layer, and the channel's bias. -/
def jk (x1 x2 x3 : N64.Idx → EReal) (wf : W64x40.Idx → EReal) (bf : R40.Idx → EReal) : N40.Idx → EReal :=
  fun i => (∑ k : Fin 64,
      max (max (x1 (ix2 (⟨(i 0).val, idx2_lt0 i⟩ : Fin 100000) k)) (x2 (ix2 (⟨(i 0).val, idx2_lt0 i⟩ : Fin 100000) k)))
          (x3 (ix2 (⟨(i 0).val, idx2_lt0 i⟩ : Fin 100000) k))
        * wf (ix2 k (⟨(i 1).val, idx2_lt1 i⟩ : Fin 40)))
    + bf (ix2 (0 : Fin 1) (⟨(i 1).val, idx2_lt1 i⟩ : Fin 40))

/-- At coordinates: the forms the per-block lemmas are stated in. -/
theorem mm128_ix (x : N128.Idx → EReal) (w : W128x64.Idx → EReal) (n : Fin 100000) (c : Fin 64) :
    mm128 x w (ix2 n c) = ∑ k : Fin 128, x (ix2 n k) * w (ix2 k c) := rfl
theorem mm64_ix (x : N64.Idx → EReal) (w : W64x64.Idx → EReal) (n : Fin 100000) (c : Fin 64) :
    mm64 x w (ix2 n c) = ∑ k : Fin 64, x (ix2 n k) * w (ix2 k c) := rfl
theorem colsum_ix (x : N64.Idx → EReal) (c : Fin 64) :
    colsum x (ix2 (0 : Fin 1) c) = ∑ r : Fin 100000, x (ix2 r c) := rfl
theorem affRelu_ix (x : N64.Idx → EReal) (scale shift : R64.Idx → EReal) (n : Fin 100000) (c : Fin 64) :
    affRelu x scale shift (ix2 n c) = max (x (ix2 n c) * scale (ix2 (0 : Fin 1) c) + shift (ix2 (0 : Fin 1) c)) 0 := rfl
theorem jk_ix (x1 x2 x3 : N64.Idx → EReal) (wf : W64x40.Idx → EReal) (bf : R40.Idx → EReal) (n : Fin 100000) (c : Fin 40) :
    jk x1 x2 x3 wf bf (ix2 n c)
      = (∑ k : Fin 64, max (max (x1 (ix2 n k)) (x2 (ix2 n k))) (x3 (ix2 n k)) * wf (ix2 k c)) + bf (ix2 (0 : Fin 1) c) := rfl

end Cert.Spec

end
-- ==== Proof.Region0.lean ====
/-
  The first dense layer (launch 0 of 8).

  The launch walks 20 grid points. Point t loads rows 5000·t … 5000·t + 4999 of the node features (all 128 input
  channels) and the whole 128×64 weight matrix, multiplies the two, and stores the 5000×64 product as the same rows
  of the output array. Rounding an operand to a shorter float format is the identity on the extended reals, and a
  matrix product accumulated into zero is the plain sum over the contracted channel. So entry (n, c) of the output
  array is ∑ₖ x (n, k) · w (k, c): row n lies in block n / 5000, at row n % 5000 inside it, and the 20 blocks
  tile the 100000 rows.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-- The zero offsets of a whole-buffer load or store. -/
theorem zeroOff0 : (![0, 0] : Fin 2 → Nat) = fun _ => 0 := funext fun a => by fin_cases a <;> rfl

/-! ## The product's operand indices: output entry (r, c) and contraction index k read x (r, k) and w (k, c) -/

theorem dot0_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot0_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot0_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot0_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What one grid point stores, entry by entry: the block's row p times the weights' column q, summed over the
    128 input channels. -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact dot0_lhs_row _ _
    | ⟨1, _⟩ => exact (dot0_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot0_rhs_row _ _).trans hk
    | ⟨1, _⟩ => exact dot0_rhs_col _ _)
  rw [truncf_apply, truncf_apply, el, er]

/-- One block of the product is the same block of the whole-array product: for a 5000-row block x0 holding rows
    T·5000 … of the array A, and x1 holding all of W, the stored entry j is entry i of `mm128 A W` whenever i is j
    moved down by T·5000 rows. -/
theorem block0_apply (A : Cert.Spec.N128.Idx → EReal) (W : Cert.Spec.W128x64.Idx → EReal)
    (x0 : Vec Ideal S5000x128 .f32) (x1 : Vec Ideal S128x64 .f32) (T : Nat) (hT : T < 20)
    (h0 : ∀ (p : Fin 5000) (k : Fin 128) (h : T * 5000 + p.val < 100000), x0 (ix2 p k) = A (ix2 (⟨T * 5000 + p.val, h⟩ : Fin 100000) k))
    (h1 : ∀ (k : Fin 128) (q : Fin 64), x1 (ix2 k q) = W (ix2 k q))
    (j : S5000x64.Idx) (i : S100000x64.Idx) (hi0 : (i 0).val = T * 5000 + (j 0).val) (hi1 : (i 1).val = (j 1).val) :
    k0_pay1 (F := Ideal) x0 x1 j = Cert.Spec.mm128 A W i := by
  obtain ⟨p, q, rfl⟩ : ∃ (p : Fin 5000) (q : Fin 64), j = ix2 p q := ⟨j 0, j 1, eq_ix2 j⟩
  have hp : p.val < 5000 := p.isLt
  have hlt : T * 5000 + p.val < 100000 := by omega
  have hi : i = ix2 (⟨T * 5000 + p.val, hlt⟩ : Fin 100000) q := by
    funext a; apply Fin.ext
    match a with
    | ⟨0, _⟩ => exact hi0
    | ⟨1, _⟩ => exact hi1
  rw [hi, Cert.Spec.mm128_ix, pay0_apply]
  exact Finset.sum_congr rfl fun k _ => by rw [h0 p k hlt, h1 k q]

variable (V : (c : Dev nD) → (b : Ref sig .tc) → Buf (Elt Ideal) ((c : Thread nD τ).loc b))

/-! ## Blocks as rows of the arrays -/

/-- The index maps over the grid: the feature and output windows step one block of rows per point, the weight
    window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t holds rows 5000·t … 5000·t + 4999 of the feature array. -/
theorem read0_0 (c : Dev nD) (t : Fin cfg0.N) (p : Fin 5000) (k : Fin 128) (h : t.val * 5000 + p.val < 100000) :
    (iblk0 V c 0 t : Vec Ideal S5000x128 .f32) (ix2 p k)
      = (V c main_arg0 : S100000x128.Idx → EReal) (ix2 (⟨t.val * 5000 + p.val, h⟩ : Fin 100000) k) := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at every point is the whole weight matrix. -/
theorem read0_1 (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := idx_facts0 t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t writes back is block t of the whole-array product. -/
theorem flushed0 (c : Dev nD) (t : Fin cfg0.N) :
    (dat0 (F := Ideal) V c).flushed 2 t
      = ((cfg0.win 2).blk t).view.read (Elt Ideal) (Cert.Spec.mm128 (V c main_arg0) (V c main_arg2)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x64) zeroOff0]
  obtain ⟨-, -, -, -, e4, e5⟩ := idx_facts0 t
  have ht : t.val < 20 := t.isLt
  funext j
  show k0_pay1 (F := Ideal) (iblk0 V c 0 t) (iblk0 V c 1 t) j
    = Cert.Spec.mm128 (V c main_arg0) (V c main_arg2) (((cfg0.win 2).blk t).view.emb j)
  refine block0_apply (V c main_arg0) (V c main_arg2) (iblk0 V c 0 t) (iblk0 V c 1 t) t.val ht
    (fun p k h => read0_0 V c t p k h) (fun k q => read0_1 V c t k q) j _ ?_ ?_
  · show win0_2.index t (0 : Fin 2) * 5000 + 1 * (j 0).val = t.val * 5000 + (j 0).val
    rw [e4]; omega
  · show win0_2.index t (1 : Fin 2) * 64 + 1 * (j 1).val = (j 1).val
    rw [e5]; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every block of rows is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- Row r of the output is covered by the point whose block index is r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the launch is the dense layer of the two input arrays as the launch found them. -/
theorem region0 (c : Dev nD) :
    (dat0 (F := Ideal) V c).arrAt 2 cfg0.N = Cert.Spec.mm128 (V c main_arg0) (V c main_arg2) :=
  (dat0 (F := Ideal) V c).arrAt_eq_of_cover 2 (Cert.Spec.mm128 (V c main_arg0) (V c main_arg2))
    (fun t _ => flushed0 V c t) cover0

end Cert.KernelIdeal.Val

end
-- ==== Proof.BNAlgebra.lean ====
/- The extended-real algebra of one batch-normalisation column.

   Two ways of normalising a column of extended reals are compared: one computes the mean and the
   variance from the sum and the sum of squares (variance = E[x²] - E[x]²) and folds scale and shift
   into one multiply-add; the other centres the column first (variance = E[(x - E x)²]).  Over the
   reals the two are the same function; over the extended reals the identities used (expanding a
   square, distributing a product over a difference) fail at the infinities, so every entry is
   assumed to be a real.  The module also holds the facts that a sum over 100000 rows is the sum of
   20 consecutive blocks of 5000 rows, and the values of three float literals. -/
import Idealize.ShloMosaic.PureOps.Ideal
import Idealize.ShloMosaic.PureOps.Ideal.Laws
import Mathlib.Tactic

noncomputable section

namespace Cert.BNAlgebra

open Idealize.ShloMosaic
open scoped BigOperators

/-- An extended real that is a real number (neither infinity). -/
def IsReal (y : EReal) : Prop := ∃ a : ℝ, y = (a : EReal)

theorem isReal_coe (r : ℝ) : IsReal (r : EReal) := ⟨r, rfl⟩

theorem isReal_zero : IsReal 0 := ⟨0, EReal.coe_zero.symm⟩

theorem isReal_add {a b : EReal} : IsReal a → IsReal b → IsReal (a + b) := by
  rintro ⟨x, rfl⟩ ⟨y, rfl⟩; exact ⟨x + y, (EReal.coe_add x y).symm⟩

theorem isReal_mul {a b : EReal} : IsReal a → IsReal b → IsReal (a * b) := by
  rintro ⟨x, rfl⟩ ⟨y, rfl⟩; exact ⟨x * y, (EReal.coe_mul x y).symm⟩

theorem isReal_sub {a b : EReal} : IsReal a → IsReal b → IsReal (a - b) := by
  rintro ⟨x, rfl⟩ ⟨y, rfl⟩; exact ⟨x - y, (EReal.coe_sub x y).symm⟩

theorem isReal_max {a b : EReal} : IsReal a → IsReal b → IsReal (max a b) := by
  rintro ⟨x, rfl⟩ ⟨y, rfl⟩
  rcases le_total x y with h | h
  · exact ⟨y, max_eq_right (EReal.coe_le_coe_iff.mpr h)⟩
  · exact ⟨x, max_eq_left (EReal.coe_le_coe_iff.mpr h)⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_finset_sum {ι : Type*} (s : Finset ι) (f : ι → EReal) (h : ∀ i, IsReal (f i)) :
    IsReal (∑ i ∈ s, f i) := by
  choose g hg using h
  exact ⟨∑ i ∈ s, g i, by rw [coe_finset_sum]; exact Finset.sum_congr rfl (fun i _ => hg i)⟩

theorem isReal_sum {ι : Type*} [Fintype ι] (f : ι → EReal) (h : ∀ i, IsReal (f i)) :
    IsReal (∑ i, f i) := isReal_finset_sum Finset.univ f h

theorem isReal_div_real {a : EReal} {c : ℝ} (hc : c ≠ 0) : IsReal a → IsReal (Ideal.div a (c : EReal)) := by
  rintro ⟨x, rfl⟩
  exact ⟨x * (1 / c), by rw [Ideal.div_coe hc, EReal.coe_mul]⟩

/-- The reciprocal square root of a positive real is the real reciprocal of its square root. -/
theorem rsqrt_pos {a : ℝ} (ha : 0 < a) : Ideal.rsqrt (a : EReal) = (((Real.sqrt a)⁻¹ : ℝ) : EReal) := by
  rw [Ideal.rsqrt_coe, if_neg (not_lt.mpr ha.le), if_neg ha.ne']

theorem isReal_rsqrt_pos {a : ℝ} (ha : 0 < a) : IsReal (Ideal.rsqrt (a : EReal)) :=
  ⟨(Real.sqrt a)⁻¹, rsqrt_pos ha⟩

/-- Over the reals: the mean of the squares minus the square of the mean is the mean of the squared
    deviations from the mean. -/
theorem real_var_eq {ι : Type*} [Fintype ι] (x : ι → ℝ) (hn : 0 < Fintype.card ι) :
    (∑ r, x r * x r) * (1 / (Fintype.card ι : ℝ))
        - ((∑ r, x r) * (1 / (Fintype.card ι : ℝ))) * ((∑ r, x r) * (1 / (Fintype.card ι : ℝ)))
      = (∑ r, (x r - (∑ r, x r) * (1 / (Fintype.card ι : ℝ))) * (x r - (∑ r, x r) * (1 / (Fintype.card ι : ℝ))))
          * (1 / (Fintype.card ι : ℝ)) := by
  have hn' : (Fintype.card ι : ℝ) ≠ 0 := by exact_mod_cast hn.ne'
  set n : ℝ := (Fintype.card ι : ℝ) with hndef
  set S : ℝ := ∑ r, x r with hS
  set Q : ℝ := ∑ r, x r * x r with hQ
  have h1 : ∀ r, (x r - S * (1 / n)) * (x r - S * (1 / n))
      = x r * x r - (2 * (S * (1 / n))) * x r + (S * (1 / n)) * (S * (1 / n)) := fun r => by ring
  have h2 : ∑ r, (x r - S * (1 / n)) * (x r - S * (1 / n))
      = Q - (2 * (S * (1 / n))) * S + n * ((S * (1 / n)) * (S * (1 / n))) := by
    simp_rw [h1]
    rw [Finset.sum_add_distrib, Finset.sum_sub_distrib, ← Finset.mul_sum, Finset.sum_const,
      Finset.card_univ, nsmul_eq_mul]
  rw [h2]
  field_simp
  ring

/-- The mean of squared deviations is nonnegative. -/
theorem real_var_nonneg {ι : Type*} [Fintype ι] (x : ι → ℝ) (m : ℝ) :
    0 ≤ (∑ r, (x r - m) * (x r - m)) * (1 / (Fintype.card ι : ℝ)) := by
  apply mul_nonneg
  · exact Finset.sum_nonneg (fun r _ => mul_self_nonneg _)
  · positivity

/-- The core: with a real column, the mean is a real, and both variances plus epsilon are one and the
    same positive real. -/
theorem bn_core {ι : Type*} [Fintype ι] (x : ι → ℝ) (hn : 0 < Fintype.card ι) (a : ℝ) (ha : 0 < a) :
    ∃ m w : ℝ, 0 < w ∧
      Ideal.div (∑ r, (x r : EReal)) ((Fintype.card ι : ℝ) : EReal) = (m : EReal) ∧
      (Ideal.div (∑ r, (x r : EReal) * (x r : EReal)) ((Fintype.card ι : ℝ) : EReal) - (m : EReal) * (m : EReal))
          + (a : EReal) = (w : EReal) ∧
      Ideal.div (∑ r, ((x r : EReal) - (m : EReal)) * ((x r : EReal) - (m : EReal))) ((Fintype.card ι : ℝ) : EReal)
          + (a : EReal) = (w : EReal) := by
  have hn' : (Fintype.card ι : ℝ) ≠ 0 := by exact_mod_cast hn.ne'
  refine ⟨(∑ r, x r) * (1 / (Fintype.card ι : ℝ)),
    (∑ r, (x r - (∑ r, x r) * (1 / (Fintype.card ι : ℝ))) * (x r - (∑ r, x r) * (1 / (Fintype.card ι : ℝ))))
      * (1 / (Fintype.card ι : ℝ)) + a, ?_, ?_, ?_, ?_⟩
  · have := real_var_nonneg x ((∑ r, x r) * (1 / (Fintype.card ι : ℝ)))
    linarith
  · rw [Ideal.div_coe hn', ← coe_finset_sum, ← EReal.coe_mul]
  · have hQ : ∑ r, (x r : EReal) * (x r : EReal) = ((∑ r, x r * x r : ℝ) : EReal) := by
      rw [coe_finset_sum]; exact Finset.sum_congr rfl (fun r _ => (EReal.coe_mul _ _).symm)
    rw [hQ, Ideal.div_coe hn', ← EReal.coe_mul, ← EReal.coe_mul, ← EReal.coe_sub, ← EReal.coe_add,
      real_var_eq x hn]
  · have hV : ∑ r, ((x r : EReal) - (((∑ r, x r) * (1 / (Fintype.card ι : ℝ)) : ℝ) : EReal))
          * ((x r : EReal) - (((∑ r, x r) * (1 / (Fintype.card ι : ℝ)) : ℝ) : EReal))
        = ((∑ r, (x r - (∑ r, x r) * (1 / (Fintype.card ι : ℝ))) * (x r - (∑ r, x r) * (1 / (Fintype.card ι : ℝ))) : ℝ) : EReal) := by
      rw [coe_finset_sum]
      exact Finset.sum_congr rfl (fun r _ => by simp only [EReal.coe_mul, EReal.coe_sub])
    rw [hV, Ideal.div_coe hn', ← EReal.coe_mul, ← EReal.coe_add]

/-- One normalised entry, the two ways, for a column of reals. -/
theorem bn_column {ι : Type*} [Fintype ι] (x : ι → EReal) (g β c e : EReal) (hx : ∀ r, IsReal (x r)) (hg : IsReal g)
    (hβ : IsReal β) (hc : c = ((Fintype.card ι : ℝ) : EReal)) (hn : 0 < Fintype.card ι)
    (he : ∃ a : ℝ, 0 < a ∧ e = (a : EReal)) (r₀ : ι) :
    x r₀ * (g * Ideal.rsqrt ((Ideal.div (∑ r, x r * x r) c - Ideal.div (∑ r, x r) c * Ideal.div (∑ r, x r) c) + e))
        + (β - Ideal.div (∑ r, x r) c * (g * Ideal.rsqrt ((Ideal.div (∑ r, x r * x r) c - Ideal.div (∑ r, x r) c * Ideal.div (∑ r, x r) c) + e)))
      = (x r₀ - Ideal.div (∑ r, x r) c) * Ideal.rsqrt (Ideal.div (∑ r, (x r - Ideal.div (∑ r, x r) c) * (x r - Ideal.div (∑ r, x r) c)) c + e) * g + β := by
  choose xr hxr using hx
  obtain ⟨gr, rfl⟩ := hg
  obtain ⟨br, rfl⟩ := hβ
  obtain ⟨a, ha, rfl⟩ := he
  subst hc
  simp only [hxr]
  obtain ⟨m, w, hw, hm, hvar, hv⟩ := bn_core xr hn a ha
  rw [hm, hvar, hv, rsqrt_pos hw]
  simp only [← EReal.coe_mul, ← EReal.coe_sub, ← EReal.coe_add]
  congr 1
  ring

/-- The normalised entry is again a real. -/
theorem bn_column_isReal {ι : Type*} [Fintype ι] (x : ι → EReal) (g β c e : EReal) (hx : ∀ r, IsReal (x r)) (hg : IsReal g)
    (hβ : IsReal β) (hc : c = ((Fintype.card ι : ℝ) : EReal)) (hn : 0 < Fintype.card ι)
    (he : ∃ a : ℝ, 0 < a ∧ e = (a : EReal)) (r₀ : ι) :
    IsReal (x r₀ * (g * Ideal.rsqrt ((Ideal.div (∑ r, x r * x r) c - Ideal.div (∑ r, x r) c * Ideal.div (∑ r, x r) c) + e))
        + (β - Ideal.div (∑ r, x r) c * (g * Ideal.rsqrt ((Ideal.div (∑ r, x r * x r) c - Ideal.div (∑ r, x r) c * Ideal.div (∑ r, x r) c) + e)))) := by
  choose xr hxr using hx
  obtain ⟨gr, rfl⟩ := hg
  obtain ⟨br, rfl⟩ := hβ
  obtain ⟨a, ha, rfl⟩ := he
  subst hc
  simp only [hxr]
  obtain ⟨m, w, hw, hm, hvar, -⟩ := bn_core xr hn a ha
  rw [hm, hvar, rsqrt_pos hw]
  simp only [← EReal.coe_mul, ← EReal.coe_sub, ← EReal.coe_add]
  exact isReal_coe _

/-! ### A sum over 100000 rows as 20 blocks of 5000 rows -/

/-- A sum over 100000 rows is the sum over 20 consecutive blocks of 5000 rows. -/
theorem sum_blocks (f : Fin 100000 → EReal) :
    ∑ r : Fin 100000, f r = ∑ t : Fin 20, ∑ p : Fin 5000, f ⟨5000 * t.val + p.val, by omega⟩ := by
  rw [← Fintype.sum_prod_type']
  symm
  refine Fintype.sum_equiv (finProdFinEquiv (m := 20) (n := 5000)) _ _ ?_
  rintro ⟨t, p⟩
  congr 1
  ext
  simp [finProdFinEquiv, Nat.add_comm]

/-- The same with the blocks counted by a natural number below 20. -/
theorem sum_blocks_range (f : Fin 100000 → EReal) :
    ∑ r : Fin 100000, f r
      = ∑ t ∈ Finset.range 20, ∑ p : Fin 5000,
          (if h : 5000 * t + p.val < 100000 then f ⟨5000 * t + p.val, h⟩ else 0) := by
  rw [sum_blocks, ← Fin.sum_univ_eq_sum_range
    (fun t => ∑ p : Fin 5000, (if h : 5000 * t + p.val < 100000 then f ⟨5000 * t + p.val, h⟩ else 0)) 20]
  refine Finset.sum_congr rfl (fun t _ => Finset.sum_congr rfl (fun p _ => ?_))
  rw [dif_pos (by omega)]

/-- The sum of the first n blocks is the sum of the rows below 5000 n. -/
theorem sum_blocks_upto (f : Fin 100000 → EReal) (n : ℕ) (hn : n ≤ 20) :
    (∑ t ∈ Finset.range n, ∑ p : Fin 5000,
        (if h : 5000 * t + p.val < 100000 then f ⟨5000 * t + p.val, h⟩ else 0))
      = ∑ r : Fin 100000, (if r.val < 5000 * n then f r else 0) := by
  rw [sum_blocks_range (fun r => if r.val < 5000 * n then f r else 0)]
  have hsub : Finset.range n ⊆ Finset.range 20 := Finset.range_mono hn
  rw [← Finset.sum_subset hsub]
  · refine Finset.sum_congr rfl (fun t ht => Finset.sum_congr rfl (fun p _ => ?_))
    have ht' : t < n := Finset.mem_range.mp ht
    have hp := p.isLt
    by_cases h : 5000 * t + p.val < 100000
    · rw [dif_pos h, dif_pos h, if_pos (by show 5000 * t + p.val < 5000 * n; omega)]
    · rw [dif_neg h, dif_neg h]
  · intro t _ ht
    have ht' : ¬ t < n := fun h => ht (Finset.mem_range.mpr h)
    refine Finset.sum_eq_zero (fun p _ => ?_)
    have hp := p.isLt
    by_cases h : 5000 * t + p.val < 100000
    · rw [dif_pos h, if_neg (by show ¬ 5000 * t + p.val < 5000 * n; omega)]
    · rw [dif_neg h]

/-! ### Three float literals -/

/-- The divisor literal denotes exactly the real 100000. -/
theorem ofBits_1e5 : Ideal.ofBits .f32 0x47C35000#32 = ((100000 : ℝ) : EReal) := by
  simp [Ideal.ofBits, Ideal.ieee, -EReal.coe_mul]; norm_num

/-- The divisor literal is the number of rows, in the form `bn_column` asks for. -/
theorem ofBits_1e5_card : Ideal.ofBits .f32 0x47C35000#32 = ((Fintype.card (Fin 100000) : ℝ) : EReal) := by
  rw [ofBits_1e5, Fintype.card_fin]; norm_num

/-- The epsilon literal denotes a positive real (10995116 · 2⁻⁴⁰, about 1e-5). -/
theorem ofBits_eps : ∃ a : ℝ, 0 < a ∧ Ideal.ofBits .f32 0x3727C5AC#32 = (a : EReal) := by
  refine ⟨(10995116 : ℝ) * (2 : ℝ) ^ (-40 : ℤ), by positivity, ?_⟩
  simp [Ideal.ofBits, Ideal.ieee, -EReal.coe_mul]

/-- The all-zero pattern denotes 0. -/
theorem ofBits_zero : Ideal.ofBits .f32 0x00000000#32 = 0 := Ideal.ofBits_zero_f32

end Cert.BNAlgebra

end
-- ==== Proof.Region1.lean ====
/-
  The batch statistics of the first hidden layer: per channel, the sum and the sum of squares over all 100000 rows.
  The launch walks 20 row blocks of 5000 rows. The two 1×64 outputs stay in place from point to point: the first point
  zeroes them, every point adds its block's column sums (of x and of x · x), and only what the last point leaves reaches
  the arrays. So after point n an output holds the sum over the rows of blocks 0 … n, and after the last point the whole
  column sum. Addition of extended reals is commutative and associative, so regrouping 100000 rows into 20 blocks of
  5000 needs no finiteness.
-/
import proofs.«121954_j7129645711840_1_alg».proof.Proof.Gen.KernelIdeal.Frame
import proofs.«121954_j7129645711840_1_alg».proof.Proof.Spec
import proofs.«121954_j7129645711840_1_alg».proof.Proof.BNAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen

/-- The offsets of a whole-block access are zero on both axes. -/
theorem zeroOffsets1 : (![0, 0] : Fin 2 → Nat) = fun _ => 0 := funext fun a => by fin_cases a <;> rfl

/-! ## What one grid point leaves in the two accumulators, as the body's arithmetic of the block and of what they held -/

section Pieces
variable {F : FTy → Type} [FloatOps F]

/-- The first point: the sum accumulator is zeroed, read back, and the block's column sums added. -/
theorem firstSum1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) zeroOffsets1, View.readCov_unit_zero (S := S1x64) _ zeroOffsets1]
  simp only [View.readAt_eq_ld, h1.read_unread, View.ld_unit_zero (S := S5000x64) zeroOffsets1]

/-- The first point, the accumulator of squares: zeroed, read back, and the column sums of the block's squares added. -/
theorem firstSq1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) zeroOffsets1, View.readCov_unit_zero (S := S1x64) _ zeroOffsets1]
  simp only [View.readAt_eq_ld, h1.read_unread, View.ld_unit_zero (S := S5000x64) zeroOffsets1]

/-- A later point adds the block's column sums onto what the sum accumulator held. -/
theorem nextSum1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (s1 s2 : Vec F S1x64 .f32) :
    out1_B_1 c i a1 h1 a2 h2 a3 h3 hc x s1 s2 = k1_pay4 x s1 := by
  unfold out1_B_1
  rw [View.read_writes_eq_canon _ _ _ (cover1_B_1 c i a1 h1 a2 h2 a3 h3 hc x s1 s2)]
  unfold kernelRun1_B
  dsimp only
  rw [View.canon_unit_zero (S := S1x64) zeroOffsets1]
  simp only [View.readAt_eq_ld, h1.read_unread, h2.read_unread, View.ld_unit_zero (S := S5000x64) zeroOffsets1,
    View.ld_unit_zero (S := S1x64) zeroOffsets1]

/-- A later point adds the column sums of the block's squares onto what the accumulator of squares held. -/
theorem nextSq1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (s1 s2 : Vec F S1x64 .f32) :
    out1_B_2 c i a1 h1 a2 h2 a3 h3 hc x s1 s2 = k1_pay5 x s2 := by
  unfold out1_B_2
  rw [View.read_writes_eq_canon _ _ _ (cover1_B_2 c i a1 h1 a2 h2 a3 h3 hc x s1 s2)]
  unfold kernelRun1_B
  dsimp only
  rw [View.canon_unit_zero (S := S1x64) zeroOffsets1]
  simp only [View.readAt_eq_ld, h1.read_unread, h3.read_unread, View.ld_unit_zero (S := S5000x64) zeroOffsets1,
    View.ld_unit_zero (S := S1x64) zeroOffsets1]

end Pieces

/-! ## The body's arithmetic at a channel -/

/-- A 64-vector stored as a 1×64 row reads, at channel q of the row, the vector's entry q. -/
theorem asRow1 {α : Type} (w : S64.Idx → α) (h : S64.ShapeCasts S1x64) (q : Fin 64) :
    shapeCast S1x64 w h (ix2 (0 : Fin 1) q) = w (ix1 q) :=
  shapeCast_apply w h (ix2 (0 : Fin 1) q) (ix1 q) (by
    rw [Shape.rowMajor_val_one, Shape.rowMajor_val_two]
    show q.val = 0 * 64 + q.val
    omega)

/-- The entry of a 5000×64 block over channel q with row p put back is (p, q). -/
theorem liftCol1 (h : S5000x64.Reduces [0] S64) (q : Fin 64) (p : Fin 5000) : h.lift (ix1 q) p = ix2 p q :=
  funext fun c => Fin.ext (by match c with | ⟨0, _⟩ => rfl | ⟨1, _⟩ => rfl)

/-- The sum of a block down its rows, at channel q, is the sum over the 5000 rows of the entries of column q. -/
theorem colReduce1 (x : FVec Ideal S5000x64 .f32) (h : S5000x64.Reduces [0] S64) (hφ) (hacc) (q : Fin 64) :
    multiReduction .add [0] S64 x 0x00000000#32 h hφ hacc (ix1 q) = ∑ p : Fin 5000, x (ix2 p q) :=
  (Ideal.multiReduction_add_single x _ h hφ hacc (ix1 q)).trans
    (Finset.sum_congr rfl fun p _ => congrArg x (liftCol1 h q p))

/-- The two zero rows the first point stores are zero everywhere. -/
theorem zeroRowA1_at (j : S1x64.Idx) : k1_pay1 (F := Ideal) j = 0 := Ideal.ofBits_zero_f32
theorem zeroRowB1_at (j : S1x64.Idx) : k1_pay2 (F := Ideal) j = 0 := Ideal.ofBits_zero_f32

/-- One step of the sum: the accumulator's entry at channel q plus the block's column sum there. -/
theorem sumStep1_at (x : Vec Ideal S5000x64 .f32) (acc : Vec Ideal S1x64 .f32) (q : Fin 64) :
    k1_pay4 (F := Ideal) x acc (ix2 (0 : Fin 1) q) = acc (ix2 (0 : Fin 1) q) + ∑ p : Fin 5000, x (ix2 p q) := by
  unfold k1_pay4 k1_pay3
  simp only [shapeCast_self]
  rw [addf_apply, asRow1]
  exact congrArg (acc (ix2 (0 : Fin 1) q) + ·) (colReduce1 x _ _ _ q)

/-- One step of the sum of squares: the accumulator's entry at channel q plus the column sum of the block's squares. -/
theorem sqStep1_at (x : Vec Ideal S5000x64 .f32) (acc : Vec Ideal S1x64 .f32) (q : Fin 64) :
    k1_pay5 (F := Ideal) x acc (ix2 (0 : Fin 1) q)
      = acc (ix2 (0 : Fin 1) q) + ∑ p : Fin 5000, x (ix2 p q) * x (ix2 p q) := by
  unfold k1_pay5 k1_pay3
  simp only [shapeCast_self]
  rw [addf_apply, asRow1]
  exact congrArg (acc (ix2 (0 : Fin 1) q) + ·) (colReduce1 (mulf x x) _ _ _ q)

/-! ## The running sums -/

/-- Column q of a 100000×64 array, as a function of the row. -/
abbrev col1 (A : Cert.Spec.N64.Idx → EReal) (q : Fin 64) : Fin 100000 → EReal := fun r => A (ix2 r q)

/-- Block t's share of a column sum: rows 5000 t … 5000 t + 4999 (nothing beyond row 99999). -/
abbrev blockShare1 (f : Fin 100000 → EReal) (t : ℕ) : EReal :=
  ∑ p : Fin 5000, (if h : 5000 * t + p.val < 100000 then f ⟨5000 * t + p.val, h⟩ else 0)

/-- A sum over the 5000 rows of block t whose terms are the column's entries at rows 5000 t + p is that share. -/
theorem blockShare1_of (f : Fin 100000 → EReal) (t : ℕ) (ht : t < 20) (g : Fin 5000 → EReal)
    (hg : ∀ (p : Fin 5000) (h : 5000 * t + p.val < 100000), g p = f ⟨5000 * t + p.val, h⟩) :
    ∑ p : Fin 5000, g p = blockShare1 f t :=
  Finset.sum_congr rfl fun p _ => by
    have hp : 5000 * t + p.val < 100000 := by have := p.isLt; omega
    rw [hg p hp, dif_pos hp]

variable (V : (c : Dev nD) → (b : Ref sig .tc) → Buf (Elt Ideal) ((c : Thread nD τ).loc b))

/-- Where the input's block sits: at grid point t it is row block t. -/
theorem blockPlaces1 : ∀ t : Fin cfg1.N, win1_0.index t (0 : Fin 2) = t.val ∧ win1_0.index t (1 : Fin 2) = 0 :=
  (by decide +kernel : ∀ t : Fin grid1.N, _)

/-- Row p, channel q of the input's block at grid point t is row 5000 t + p, channel q of the input array. -/
theorem blockRead1 (c : Dev nD) (t : Fin cfg1.N) (p : Fin 5000) (q : Fin 64) (h : 5000 * t.val + p.val < 100000) :
    (iblk1 (F := Ideal) V c 0 t : Vec Ideal S5000x64 .f32) (ix2 p q)
      = (V c main_v43 : Cert.Spec.N64.Idx → EReal) (ix2 (⟨5000 * t.val + p.val, h⟩ : Fin 100000) q) := by
  obtain ⟨e0, e1⟩ := blockPlaces1 t
  unfold iblk1
  rw [View.read_apply]
  show V c main_v43 _ = V c main_v43 _
  congr 1
  funext a
  apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- After the first point the accumulators hold the first block's column sums over zero. -/
theorem outsFirst1 (c : Dev nD) (hn : 0 < cfg1.N) :
    outsAt1 (F := Ideal) V c 0 hn
      = (k1_pay4 (iblk1 V c 0 ⟨0, hn⟩) (k1_pay1 (F := Ideal)), k1_pay5 (iblk1 V c 0 ⟨0, hn⟩) (k1_pay2 (F := Ideal))) := by
  rw [outsAt1_A V c ⟨0, hn⟩ rfl, firstSum1, firstSq1]

/-- After a later point they hold what the point before left plus the point's block's column sums. -/
theorem outsNext1 (c : Dev nD) (n : ℕ) (hn : n + 1 < cfg1.N) :
    outsAt1 (F := Ideal) V c (n + 1) hn
      = (k1_pay4 (iblk1 V c 0 ⟨n + 1, hn⟩) (outsAt1 (F := Ideal) V c n (Nat.lt_of_succ_lt hn)).1,
         k1_pay5 (iblk1 V c 0 ⟨n + 1, hn⟩) (outsAt1 (F := Ideal) V c n (Nat.lt_of_succ_lt hn)).2) := by
  have hN : cfg1.N = 20 := N_1
  have hB : ¬(⟨n + 1, hn⟩ : Fin cfg1.N).val % 20 = 0 := by dsimp only; omega
  rw [outsAt1_B V c ⟨n + 1, hn⟩ hB, nextSum1, nextSq1]
  rfl

/-- After point n the two accumulators hold, at channel q, the sums of the entries and of their squares over the rows
    of blocks 0 … n. -/
theorem running1 (c : Dev nD) (q : Fin 64) : ∀ (n : ℕ) (hn : n < cfg1.N),
    (outsAt1 (F := Ideal) V c n hn).1 (ix2 (0 : Fin 1) q)
        = ∑ t ∈ Finset.range (n + 1), blockShare1 (col1 (V c main_v43) q) t
      ∧ (outsAt1 (F := Ideal) V c n hn).2 (ix2 (0 : Fin 1) q)
        = ∑ t ∈ Finset.range (n + 1), blockShare1 (col1 (Cert.Spec.sq (V c main_v43)) q) t
  | 0, hn => by
    rw [outsFirst1 V c hn]
    dsimp only
    rw [sumStep1_at, sqStep1_at, zeroRowA1_at, zeroRowB1_at, ]
    simp only [zero_add, Finset.sum_range_one]
    exact ⟨blockShare1_of _ 0 (by omega) _ (fun p h => blockRead1 V c ⟨0, hn⟩ p q h),
      blockShare1_of _ 0 (by omega) _ (fun p h => by
        rw [blockRead1 V c ⟨0, hn⟩ p q h]; rfl)⟩
  | n + 1, hn => by
    have hN : cfg1.N = 20 := N_1
    obtain ⟨ih1, ih2⟩ := running1 c q n (Nat.lt_of_succ_lt hn)
    rw [outsNext1 V c n hn]
    dsimp only
    rw [sumStep1_at, sqStep1_at, ih1, ih2, Finset.sum_range_succ _ (n + 1), Finset.sum_range_succ _ (n + 1)]
    exact ⟨congrArg (_ + ·) (blockShare1_of _ (n + 1) (by omega) _ (fun p h => blockRead1 V c ⟨n + 1, hn⟩ p q h)),
      congrArg (_ + ·) (blockShare1_of _ (n + 1) (by omega) _ (fun p h => by
        rw [blockRead1 V c ⟨n + 1, hn⟩ p q h]; rfl))⟩

/-- After the last point they hold the whole column sums: the specification's two rows. -/
theorem lastPoint1 (c : Dev nD) (n : ℕ) (hn : n < cfg1.N) (hlast : n = 19) :
    (outsAt1 (F := Ideal) V c n hn).1 = Cert.Spec.colsum (V c main_v43)
      ∧ (outsAt1 (F := Ideal) V c n hn).2 = Cert.Spec.colsum (Cert.Spec.sq (V c main_v43)) := by
  subst hlast
  constructor <;> funext j
  · obtain ⟨z, q, rfl⟩ : ∃ (z : Fin 1) (q : Fin 64), j = ix2 z q := ⟨j 0, j 1, eq_ix2 j⟩
    obtain rfl : z = 0 := Subsingleton.elim _ _
    rw [(running1 V c q 19 hn).1, Cert.Spec.colsum_ix]
    exact (Cert.BNAlgebra.sum_blocks_range (col1 (V c main_v43) q)).symm
  · obtain ⟨z, q, rfl⟩ : ∃ (z : Fin 1) (q : Fin 64), j = ix2 z q := ⟨j 0, j 1, eq_ix2 j⟩
    obtain rfl : z = 0 := Subsingleton.elim _ _
    rw [(running1 V c q 19 hn).2, Cert.Spec.colsum_ix]
    exact (Cert.BNAlgebra.sum_blocks_range (col1 (Cert.Spec.sq (V c main_v43)) q)).symm

/-! ## From the last point to the arrays -/

/-- The two outputs' one block never moves: it is the whole 1×64 array at every point. -/
theorem rowPlaces1 : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Output 1's block at any point is the whole row: reading a row through it gives the row back. -/
theorem sameRow1_1 (G : S1x64.Idx → EReal) (t : Fin cfg1.N) :
    (cfg1.win 1).cut (grid1.coords t) G = ((cfg1.win 1).blk t).view.read (Elt Ideal) G := by
  obtain ⟨e0, e1, -, -⟩ := rowPlaces1 t
  funext j
  show G j = G (((cfg1.win 1).blk t).view.emb j)
  congr 1
  funext a
  apply Fin.ext
  match a with
  | ⟨0, _⟩ => show (j 0).val = win1_1.index t (0 : Fin 2) * 1 + 1 * (j 0).val; omega
  | ⟨1, _⟩ => show (j 1).val = win1_1.index t (1 : Fin 2) * 64 + 1 * (j 1).val; omega

/-- Output 2's block at any point is the whole row: reading a row through it gives the row back. -/
theorem sameRow1_2 (G : S1x64.Idx → EReal) (t : Fin cfg1.N) :
    (cfg1.win 2).cut (grid1.coords t) G = ((cfg1.win 2).blk t).view.read (Elt Ideal) G := by
  obtain ⟨-, -, e0, e1⟩ := rowPlaces1 t
  funext j
  show G j = G (((cfg1.win 2).blk t).view.emb j)
  congr 1
  funext a
  apply Fin.ext
  match a with
  | ⟨0, _⟩ => show (j 0).val = win1_2.index t (0 : Fin 2) * 1 + 1 * (j 0).val; omega
  | ⟨1, _⟩ => show (j 1).val = win1_2.index t (1 : Fin 2) * 64 + 1 * (j 1).val; omega

/-- The only write-back of the sum, at the last point, writes the specification's row. -/
theorem writtenSum1 (c : Dev nD) (t : Fin cfg1.N) (hf : (cfg1.win 1).flush t = true) :
    (dat1 (F := Ideal) V c).flushed 1 t
      = ((cfg1.win 1).blk t).view.read (Elt Ideal) (Cert.Spec.colsum (V c main_v43)) := by
  have hN : cfg1.N = 20 := N_1
  have h19 : t.val = 19 := by have := (flush1_1 t).mp hf; have := t.isLt; omega
  show (cfg1.win 1).cut (grid1.coords t) ((dat1 (F := Ideal) V c).after 1 t) = _
  rw [after1_1, (lastPoint1 V c t.val t.isLt h19).1]
  exact sameRow1_1 _ t

/-- The only write-back of the sum of squares, at the last point, writes the specification's row. -/
theorem writtenSq1 (c : Dev nD) (t : Fin cfg1.N) (hf : (cfg1.win 2).flush t = true) :
    (dat1 (F := Ideal) V c).flushed 2 t
      = ((cfg1.win 2).blk t).view.read (Elt Ideal) (Cert.Spec.colsum (Cert.Spec.sq (V c main_v43))) := by
  have hN : cfg1.N = 20 := N_1
  have h19 : t.val = 19 := by have := (flush1_2 t).mp hf; have := t.isLt; omega
  show (cfg1.win 2).cut (grid1.coords t) ((dat1 (F := Ideal) V c).after 2 t) = _
  rw [after1_2, (lastPoint1 V c t.val t.isLt h19).2]
  exact sameRow1_2 _ t

/-- The last point's block of either output is the whole 1×64 array. -/
theorem lastCovers1_1 (i : S1x64.Idx) :
    ∃ t : Fin cfg1.N, (cfg1.win 1).flush t = true ∧ i ∈ ((cfg1.win 1).blk t).view.set := by
  have hi0 : (i 0).val < 1 := idx2_lt0 i
  have hi1 : (i 1).val < 64 := idx2_lt1 i
  have hN : cfg1.N = 20 := N_1
  obtain ⟨t, ht⟩ : ∃ t : Fin cfg1.N, t.val = 19 := ⟨⟨19, by rw [hN]; decide⟩, rfl⟩
  obtain ⟨e0, e1, -, -⟩ := rowPlaces1 t
  refine ⟨t, (flush1_1 t).mpr (by rw [ht]), ?_⟩
  show i ∈ ((View.whole main_v44_0).slice (win1_1.rect t)).set
  rw [View.set_slice_whole, Rect.mem_set_unit]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 64 ≤ (i 1).val ∧ (i 1).val < win1_1.index t (1 : Fin 2) * 64 + 64; omega

theorem lastCovers1_2 (i : S1x64.Idx) :
    ∃ t : Fin cfg1.N, (cfg1.win 2).flush t = true ∧ i ∈ ((cfg1.win 2).blk t).view.set := by
  have hi0 : (i 0).val < 1 := idx2_lt0 i
  have hi1 : (i 1).val < 64 := idx2_lt1 i
  have hN : cfg1.N = 20 := N_1
  obtain ⟨t, ht⟩ : ∃ t : Fin cfg1.N, t.val = 19 := ⟨⟨19, by rw [hN]; decide⟩, rfl⟩
  obtain ⟨-, -, e0, e1⟩ := rowPlaces1 t
  refine ⟨t, (flush1_2 t).mpr (by rw [ht]), ?_⟩
  show i ∈ ((View.whole main_v44_1).slice (win1_2.rect t)).set
  rw [View.set_slice_whole, Rect.mem_set_unit]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 64 ≤ (i 1).val ∧ (i 1).val < win1_2.index t (1 : Fin 2) * 64 + 64; omega

/-- The sum array after the launch: per channel, the sum of the input over all 100000 rows. -/
theorem region1_sum (c : Dev nD) :
    (Gen.dat1 (F := Ideal) V c).arrAt 1 cfg1.N = Cert.Spec.colsum (V c main_v43) :=
  (Gen.dat1 (F := Ideal) V c).arrAt_eq_of_cover 1 (Cert.Spec.colsum (V c main_v43))
    (fun t hf => writtenSum1 V c t hf) (fun i => lastCovers1_1 i)

/-- The sum-of-squares array after the launch: per channel, the sum of the squared input over all 100000 rows. -/
theorem region1_sumsq (c : Dev nD) :
    (Gen.dat1 (F := Ideal) V c).arrAt 2 cfg1.N = Cert.Spec.colsum (Cert.Spec.sq (V c main_v43)) :=
  (Gen.dat1 (F := Ideal) V c).arrAt_eq_of_cover 2 (Cert.Spec.colsum (Cert.Spec.sq (V c main_v43)))
    (fun t hf => writtenSq1 V c t hf) (fun i => lastCovers1_2 i)

end Cert.KernelIdeal.Val

end
-- ==== Proof.Region2.lean ====
/-
  The normalise-and-clip launch over the first hidden layer: every entry of the 100000×64 output is
  max (x · scale + shift, 0) of the entry of x above it and of the channel's scale and shift (two 1×64 rows).
  The launch walks 20 row blocks of 5000 rows; block t of the output depends on block t of x and on the two rows,
  which every block sees whole. So the array after the launch is ONE entrywise function of the three input arrays.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (V : (c : Dev nD) → (b : Ref sig .tc) → Buf (Elt Ideal) ((c : Thread nD τ).loc b))

/-- The offsets of a whole-block access are zero on both axes. -/
theorem zeroOffsets2 : (![0, 0] : Fin 2 → Nat) = fun _ => 0 := funext fun a => by fin_cases a <;> rfl

/-- A 1×64 row broadcast down 5000 rows reads, at row p and channel q, the row's entry at channel q. -/
theorem rowDown2 (x : Vec Ideal S1x64 .f32) (h : S1x64.Broadcasts S5000x64) (p : Fin 5000) (q : Fin 64) :
    broadcastTo S5000x64 x h (ix2 p q) = x (ix2 (0 : Fin 1) q) :=
  broadcastTo_apply x h (ix2 p q) (ix2 (0 : Fin 1) q)
    (fun a => by match a with | ⟨0, _⟩ => rfl | ⟨1, _⟩ => rfl)

/-- The body's arithmetic at row p, channel q of a block: multiply by the channel's scale, add its shift, clip at zero. -/
theorem affineClip2_at (x0 : Vec Ideal S5000x64 .f32) (x1 x2 : Vec Ideal S1x64 .f32) (p : Fin 5000) (q : Fin 64) :
    Gen.k2_pay1 (F := Ideal) x0 x1 x2 (ix2 p q)
      = max (x0 (ix2 p q) * x1 (ix2 (0 : Fin 1) q) + x2 (ix2 (0 : Fin 1) q)) 0 := by
  unfold Gen.k2_pay1
  simp only [shapeCast_self]
  rw [maximumf_apply, addf_apply, mulf_apply, broadcast_apply, rowDown2, rowDown2]
  exact congrArg (max _) Ideal.ofBits_zero_f32

/-- The same against the arrays: when the block's entry j is the array's entry e j (same channel) and the two rows are
    the arrays' rows, the body leaves the specification's value at e j. -/
theorem affineClip2_block (x0 : Vec Ideal S5000x64 .f32) (x1 x2 : Vec Ideal S1x64 .f32)
    (a0 : Cert.Spec.N64.Idx → EReal) (a1 a2 : Cert.Spec.R64.Idx → EReal)
    (e : S5000x64.Idx → Cert.Spec.N64.Idx)
    (he : ∀ j, (e j 1).val = (j 1).val)
    (h0 : ∀ j, x0 j = a0 (e j)) (h1 : ∀ y, x1 y = a1 y) (h2 : ∀ y, x2 y = a2 y) (j : S5000x64.Idx) :
    Gen.k2_pay1 (F := Ideal) x0 x1 x2 j = Cert.Spec.affRelu a0 a1 a2 (e j) := by
  obtain ⟨p, q, rfl⟩ : ∃ (p : Fin 5000) (q : Fin 64), j = ix2 p q := ⟨j 0, j 1, eq_ix2 j⟩
  refine (affineClip2_at x0 x1 x2 p q).trans ?_
  have hq : (⟨(e (ix2 p q) 1).val, idx2_lt1 (e (ix2 p q))⟩ : Fin 64) = q := Fin.ext (he (ix2 p q))
  rw [h0, h1, h2]
  show _ = max (a0 (e (ix2 p q)) * a1 (ix2 (0 : Fin 1) (⟨(e (ix2 p q) 1).val, idx2_lt1 (e (ix2 p q))⟩ : Fin 64))
      + a2 (ix2 (0 : Fin 1) (⟨(e (ix2 p q) 1).val, idx2_lt1 (e (ix2 p q))⟩ : Fin 64))) 0
  rw [hq]

/-- Where the blocks sit: at grid point t the x block and the output block are row block t; the two rows never move. -/
theorem blockPlaces2 : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What grid point t writes back is row block t of the specification's array. -/
theorem written2 (c : Dev nD) (t : Fin cfg2.N) :
    (Gen.dat2 (F := Ideal) V c).flushed 3 t
      = ((cfg2.win 3).blk t).view.read (Elt Ideal) (Cert.Spec.affRelu (V c main_v43) (V c main_v55) (V c main_v58)) := by
  show (cfg2.win 3).cut (grid2.coords t) ((Gen.dat2 (F := Ideal) V c).after 3 t) = _
  rw [after2_3]
  unfold Gen.out2_3
  rw [View.canon_unit_zero zeroOffsets2]
  simp only [View.ld_unit_zero (S := S5000x64) zeroOffsets2, View.ld_unit_zero (S := S1x64) zeroOffsets2]
  obtain ⟨e0, e1, e2, e3, e4, e5, e6, e7⟩ := blockPlaces2 t
  funext j
  show Gen.k2_pay1 (F := Ideal) (iblk2 V c 0 t) (iblk2 V c 1 t) (iblk2 V c 2 t) j
    = Cert.Spec.affRelu (V c main_v43) (V c main_v55) (V c main_v58) (((cfg2.win 3).blk t).view.emb j)
  refine affineClip2_block (iblk2 V c 0 t) (iblk2 V c 1 t) (iblk2 V c 2 t) (V c main_v43) (V c main_v55) (V c main_v58)
    (fun y => ((cfg2.win 3).blk t).view.emb y) (fun y => ?_) (fun y => ?_) (fun y => ?_) (fun y => ?_) j
  · show win2_3.index t (1 : Fin 2) * 64 + 1 * (y 1).val = (y 1).val
    omega
  · show V c main_v43 (((cfg2.win 0).blk t).view.emb y) = V c main_v43 (((cfg2.win 3).blk t).view.emb y)
    have hemb : ((cfg2.win 0).blk t).view.emb y = ((cfg2.win 3).blk t).view.emb y := by
      funext a; apply Fin.ext
      match a with
      | ⟨0, _⟩ => show win2_0.index t (0 : Fin 2) * 5000 + 1 * (y 0).val = win2_3.index t (0 : Fin 2) * 5000 + 1 * (y 0).val; omega
      | ⟨1, _⟩ => show win2_0.index t (1 : Fin 2) * 64 + 1 * (y 1).val = win2_3.index t (1 : Fin 2) * 64 + 1 * (y 1).val; omega
    rw [hemb]
  · show V c main_v55 (((cfg2.win 1).blk t).view.emb y) = V c main_v55 y
    congr 1; funext a; apply Fin.ext
    match a with
    | ⟨0, _⟩ => show win2_1.index t (0 : Fin 2) * 1 + 1 * (y 0).val = (y 0).val; omega
    | ⟨1, _⟩ => show win2_1.index t (1 : Fin 2) * 64 + 1 * (y 1).val = (y 1).val; omega
  · show V c main_v58 (((cfg2.win 2).blk t).view.emb y) = V c main_v58 y
    congr 1; funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega

/-- An entry of the output array is in point t's block iff each coordinate is in the block's range on its axis. -/
theorem inBlock2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v59).slice (win2_3.rect t)).set ↔ _
  rw [View.set_slice_whole, Rect.mem_set_unit]
  exact Iff.rfl

/-- Row r of the output lies in the block of grid point r / 5000, and every point writes its block back. -/
theorem rowCovered2 (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, e2, e3, -⟩ := blockPlaces2 t
  refine ⟨t, flush2_3 t, ?_⟩
  rw [inBlock2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the launch is the specification's function of the three input arrays. -/
theorem region2 (c : Dev nD) :
    (Gen.dat2 (F := Ideal) V c).arrAt 3 cfg2.N = Cert.Spec.affRelu (V c main_v43) (V c main_v55) (V c main_v58) :=
  (Gen.dat2 (F := Ideal) V c).arrAt_eq_of_cover 3 (Cert.Spec.affRelu (V c main_v43) (V c main_v55) (V c main_v58))
    (fun t _ => written2 V c t) (fun i => rowCovered2 i)

end Cert.KernelIdeal.Val

end
-- ==== Proof.Region3.lean ====
/-
  The second dense layer (launch 3 of 8, counting from 0).

  The launch walks 20 grid points. Point t loads rows 5000·t … 5000·t + 4999 of the node features (all 64
  channels) and the whole 64×64 weight matrix, multiplies the two, and stores the 5000×64 product as the same rows
  of the output array. Recasting a block to its own shape and rounding an operand to a shorter float format are both
  the identity on the extended reals, and a matrix product accumulated into zero is the plain sum over the contracted
  channel. So entry (n, c) of the output array is ∑ₖ x (n, k) · w (k, c): row n lies in block n / 5000, at row
  n % 5000 inside it, and the 20 blocks tile the 100000 rows.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-- The zero offsets of a whole-buffer load or store. -/
theorem zeroOff3 : (![0, 0] : Fin 2 → Nat) = fun _ => 0 := funext fun a => by fin_cases a <;> rfl

/-! ## The product's operand indices: output entry (r, c) and contraction index k read x (r, k) and w (k, c) -/

theorem dot3_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot3_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot3_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot3_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What one grid point stores, entry by entry: the block's row p times the weights' column q, summed over the
    64 input channels. -/
theorem pay3_apply (x0 : Vec Ideal S5000x64 .f32) (x1 : Vec Ideal S64x64 .f32) (p : Fin 5000) (q : Fin 64) :
    k3_pay1 (F := Ideal) x0 x1 (ix2 p q) = ∑ k : Fin 64, x0 (ix2 p k) * x1 (ix2 k q) := by
  unfold k3_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot3_lhs_row _ _
    | ⟨1, _⟩ => exact (dot3_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot3_rhs_row _ _).trans hk
    | ⟨1, _⟩ => exact dot3_rhs_col _ _)
  rw [truncf_apply, truncf_apply, shapeCast_self, el, er]

/-- One block of the product is the same block of the whole-array product: for a 5000-row block x0 holding rows
    T·5000 … of the array A, and x1 holding all of W, the stored entry j is entry i of `mm64 A W` whenever i is j
    moved down by T·5000 rows. -/
theorem block3_apply (A : Cert.Spec.N64.Idx → EReal) (W : Cert.Spec.W64x64.Idx → EReal)
    (x0 : Vec Ideal S5000x64 .f32) (x1 : Vec Ideal S64x64 .f32) (T : Nat) (hT : T < 20)
    (h0 : ∀ (p : Fin 5000) (k : Fin 64) (h : T * 5000 + p.val < 100000), x0 (ix2 p k) = A (ix2 (⟨T * 5000 + p.val, h⟩ : Fin 100000) k))
    (h1 : ∀ (k : Fin 64) (q : Fin 64), x1 (ix2 k q) = W (ix2 k q))
    (j : S5000x64.Idx) (i : S100000x64.Idx) (hi0 : (i 0).val = T * 5000 + (j 0).val) (hi1 : (i 1).val = (j 1).val) :
    k3_pay1 (F := Ideal) x0 x1 j = Cert.Spec.mm64 A W i := by
  obtain ⟨p, q, rfl⟩ : ∃ (p : Fin 5000) (q : Fin 64), j = ix2 p q := ⟨j 0, j 1, eq_ix2 j⟩
  have hp : p.val < 5000 := p.isLt
  have hlt : T * 5000 + p.val < 100000 := by omega
  have hi : i = ix2 (⟨T * 5000 + p.val, hlt⟩ : Fin 100000) q := by
    funext a; apply Fin.ext
    match a with
    | ⟨0, _⟩ => exact hi0
    | ⟨1, _⟩ => exact hi1
  rw [hi, Cert.Spec.mm64_ix, pay3_apply]
  exact Finset.sum_congr rfl fun k _ => by rw [h0 p k hlt, h1 k q]

variable (V : (c : Dev nD) → (b : Ref sig .tc) → Buf (Elt Ideal) ((c : Thread nD τ).loc b))

/-! ## Blocks as rows of the arrays -/

/-- The index maps over the grid: the feature and output windows step one block of rows per point, the weight
    window stays at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point t holds rows 5000·t … 5000·t + 4999 of the feature array. -/
theorem read3_0 (c : Dev nD) (t : Fin cfg3.N) (p : Fin 5000) (k : Fin 64) (h : t.val * 5000 + p.val < 100000) :
    (iblk3 V c 0 t : Vec Ideal S5000x64 .f32) (ix2 p k)
      = (V c main_v59 : S100000x64.Idx → EReal) (ix2 (⟨t.val * 5000 + p.val, h⟩ : Fin 100000) k) := by
  obtain ⟨e0, e1, -⟩ := idx_facts3 t
  unfold iblk3
  rw [View.read_apply]
  show V c main_v59 _ = V c main_v59 _
  refine congrArg (V c main_v59) ?_
  funext a
  apply Fin.ext
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega

/-- The weight block at every point is the whole weight matrix. -/
theorem read3_1 (c : Dev nD) (t : Fin cfg3.N) (k : Fin 64) (q : Fin 64) :
    (iblk3 V c 1 t : Vec Ideal S64x64 .f32) (ix2 k q) = (V c main_arg6 : S64x64.Idx → EReal) (ix2 k q) := by
  obtain ⟨-, -, e2, e3, -⟩ := idx_facts3 t
  unfold iblk3
  rw [View.read_apply]
  show V c main_arg6 _ = V c main_arg6 _
  refine congrArg (V c main_arg6) ?_
  funext a
  apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- What point t writes back is block t of the whole-array product. -/
theorem flushed3 (c : Dev nD) (t : Fin cfg3.N) :
    (dat3 (F := Ideal) V c).flushed 2 t
      = ((cfg3.win 2).blk t).view.read (Elt Ideal) (Cert.Spec.mm64 (V c main_v59) (V c main_arg6)) := by
  show (cfg3.win 2).cut (grid3.coords t) ((dat3 V c).after 2 t) = _
  rw [after3_2]
  unfold out3_2
  rw [View.canon_unit_zero zeroOff3]
  simp only [View.ld_unit_zero (S := S5000x64) zeroOff3, View.ld_unit_zero (S := S64x64) zeroOff3]
  obtain ⟨-, -, -, -, e4, e5⟩ := idx_facts3 t
  have ht : t.val < 20 := t.isLt
  funext j
  show k3_pay1 (F := Ideal) (iblk3 V c 0 t) (iblk3 V c 1 t) j
    = Cert.Spec.mm64 (V c main_v59) (V c main_arg6) (((cfg3.win 2).blk t).view.emb j)
  refine block3_apply (V c main_v59) (V c main_arg6) (iblk3 V c 0 t) (iblk3 V c 1 t) t.val ht
    (fun p k h => read3_0 V c t p k h) (fun k q => read3_1 V c t k q) j _ ?_ ?_
  · show win3_2.index t (0 : Fin 2) * 5000 + 1 * (j 0).val = t.val * 5000 + (j 0).val
    rw [e4]; omega
  · show win3_2.index t (1 : Fin 2) * 64 + 1 * (j 1).val = (j 1).val
    rw [e5]; omega

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- Every block of rows is some point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- Row r of the output is covered by the point whose block index is r / 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the launch is the dense layer of the two input arrays as the launch found them. -/
theorem region3 (c : Dev nD) :
    (dat3 (F := Ideal) V c).arrAt 2 cfg3.N = Cert.Spec.mm64 (V c main_v59) (V c main_arg6) :=
  (dat3 (F := Ideal) V c).arrAt_eq_of_cover 2 (Cert.Spec.mm64 (V c main_v59) (V c main_arg6))
    (fun t _ => flushed3 V c t) cover3

end Cert.KernelIdeal.Val

end
-- ==== Proof.Region4.lean ====
/-
  The batch statistics of the second hidden layer: per channel, the sum and the sum of squares over all 100000 rows.
  The launch walks 20 row blocks of 5000 rows. The two 1×64 outputs stay in place from point to point: the first point
  zeroes them, every point adds its block's column sums (of x and of x · x), and only what the last point leaves reaches
  the arrays. So after point n an output holds the sum over the rows of blocks 0 … n, and after the last point the whole
  column sum. Addition of extended reals is commutative and associative, so regrouping 100000 rows into 20 blocks of
  5000 needs no finiteness.
-/
import proofs.«121954_j7129645711840_1_alg».proof.Proof.Gen.KernelIdeal.Frame
import proofs.«121954_j7129645711840_1_alg».proof.Proof.Spec
import proofs.«121954_j7129645711840_1_alg».proof.Proof.BNAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen

/-- The offsets of a whole-block access are zero on both axes. -/
theorem zeroOffsets4 : (![0, 0] : Fin 2 → Nat) = fun _ => 0 := funext fun a => by fin_cases a <;> rfl

/-! ## What one grid point leaves in the two accumulators, as the body's arithmetic of the block and of what they held -/

section Pieces
variable {F : FTy → Type} [FloatOps F]

/-- The first point: the sum accumulator is zeroed, read back, and the block's column sums added. -/
theorem firstSum4 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S5000x64 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) zeroOffsets4, View.readCov_unit_zero (S := S1x64) _ zeroOffsets4]
  simp only [View.readAt_eq_ld, h1.read_unread, View.ld_unit_zero (S := S5000x64) zeroOffsets4]

/-- The first point, the accumulator of squares: zeroed, read back, and the column sums of the block's squares added. -/
theorem firstSq4 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S5000x64 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) zeroOffsets4, View.readCov_unit_zero (S := S1x64) _ zeroOffsets4]
  simp only [View.readAt_eq_ld, h1.read_unread, View.ld_unit_zero (S := S5000x64) zeroOffsets4]

/-- A later point adds the block's column sums onto what the sum accumulator held. -/
theorem nextSum4 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S5000x64 .f32) (s1 s2 : Vec F S1x64 .f32) :
    out4_B_1 c i a1 h1 a2 h2 a3 h3 hc x s1 s2 = k4_pay4 x s1 := by
  unfold out4_B_1
  rw [View.read_writes_eq_canon _ _ _ (cover4_B_1 c i a1 h1 a2 h2 a3 h3 hc x s1 s2)]
  unfold kernelRun4_B
  dsimp only
  rw [View.canon_unit_zero (S := S1x64) zeroOffsets4]
  simp only [View.readAt_eq_ld, h1.read_unread, h2.read_unread, View.ld_unit_zero (S := S5000x64) zeroOffsets4,
    View.ld_unit_zero (S := S1x64) zeroOffsets4]

/-- A later point adds the column sums of the block's squares onto what the accumulator of squares held. -/
theorem nextSq4 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S5000x64 .f32) (s1 s2 : Vec F S1x64 .f32) :
    out4_B_2 c i a1 h1 a2 h2 a3 h3 hc x s1 s2 = k4_pay5 x s2 := by
  unfold out4_B_2
  rw [View.read_writes_eq_canon _ _ _ (cover4_B_2 c i a1 h1 a2 h2 a3 h3 hc x s1 s2)]
  unfold kernelRun4_B
  dsimp only
  rw [View.canon_unit_zero (S := S1x64) zeroOffsets4]
  simp only [View.readAt_eq_ld, h1.read_unread, h3.read_unread, View.ld_unit_zero (S := S5000x64) zeroOffsets4,
    View.ld_unit_zero (S := S1x64) zeroOffsets4]

end Pieces

/-! ## The body's arithmetic at a channel -/

/-- A 64-vector stored as a 1×64 row reads, at channel q of the row, the vector's entry q. -/
theorem asRow4 {α : Type} (w : S64.Idx → α) (h : S64.ShapeCasts S1x64) (q : Fin 64) :
    shapeCast S1x64 w h (ix2 (0 : Fin 1) q) = w (ix1 q) :=
  shapeCast_apply w h (ix2 (0 : Fin 1) q) (ix1 q) (by
    rw [Shape.rowMajor_val_one, Shape.rowMajor_val_two]
    show q.val = 0 * 64 + q.val
    omega)

/-- The entry of a 5000×64 block over channel q with row p put back is (p, q). -/
theorem liftCol4 (h : S5000x64.Reduces [0] S64) (q : Fin 64) (p : Fin 5000) : h.lift (ix1 q) p = ix2 p q :=
  funext fun c => Fin.ext (by match c with | ⟨0, _⟩ => rfl | ⟨1, _⟩ => rfl)

/-- The sum of a block down its rows, at channel q, is the sum over the 5000 rows of the entries of column q. -/
theorem colReduce4 (x : FVec Ideal S5000x64 .f32) (h : S5000x64.Reduces [0] S64) (hφ) (hacc) (q : Fin 64) :
    multiReduction .add [0] S64 x 0x00000000#32 h hφ hacc (ix1 q) = ∑ p : Fin 5000, x (ix2 p q) :=
  (Ideal.multiReduction_add_single x _ h hφ hacc (ix1 q)).trans
    (Finset.sum_congr rfl fun p _ => congrArg x (liftCol4 h q p))

/-- The two zero rows the first point stores are zero everywhere. -/
theorem zeroRowA4_at (j : S1x64.Idx) : k4_pay1 (F := Ideal) j = 0 := Ideal.ofBits_zero_f32
theorem zeroRowB4_at (j : S1x64.Idx) : k4_pay2 (F := Ideal) j = 0 := Ideal.ofBits_zero_f32

/-- One step of the sum: the accumulator's entry at channel q plus the block's column sum there. -/
theorem sumStep4_at (x : Vec Ideal S5000x64 .f32) (acc : Vec Ideal S1x64 .f32) (q : Fin 64) :
    k4_pay4 (F := Ideal) x acc (ix2 (0 : Fin 1) q) = acc (ix2 (0 : Fin 1) q) + ∑ p : Fin 5000, x (ix2 p q) := by
  unfold k4_pay4 k4_pay3
  simp only [shapeCast_self]
  rw [addf_apply, asRow4]
  exact congrArg (acc (ix2 (0 : Fin 1) q) + ·) (colReduce4 x _ _ _ q)

/-- One step of the sum of squares: the accumulator's entry at channel q plus the column sum of the block's squares. -/
theorem sqStep4_at (x : Vec Ideal S5000x64 .f32) (acc : Vec Ideal S1x64 .f32) (q : Fin 64) :
    k4_pay5 (F := Ideal) x acc (ix2 (0 : Fin 1) q)
      = acc (ix2 (0 : Fin 1) q) + ∑ p : Fin 5000, x (ix2 p q) * x (ix2 p q) := by
  unfold k4_pay5 k4_pay3
  simp only [shapeCast_self]
  rw [addf_apply, asRow4]
  exact congrArg (acc (ix2 (0 : Fin 1) q) + ·) (colReduce4 (mulf x x) _ _ _ q)

/-! ## The running sums -/

/-- Column q of a 100000×64 array, as a function of the row. -/
abbrev col4 (A : Cert.Spec.N64.Idx → EReal) (q : Fin 64) : Fin 100000 → EReal := fun r => A (ix2 r q)

/-- Block t's share of a column sum: rows 5000 t … 5000 t + 4999 (nothing beyond row 99999). -/
abbrev blockShare4 (f : Fin 100000 → EReal) (t : ℕ) : EReal :=
  ∑ p : Fin 5000, (if h : 5000 * t + p.val < 100000 then f ⟨5000 * t + p.val, h⟩ else 0)

/-- A sum over the 5000 rows of block t whose terms are the column's entries at rows 5000 t + p is that share. -/
theorem blockShare4_of (f : Fin 100000 → EReal) (t : ℕ) (ht : t < 20) (g : Fin 5000 → EReal)
    (hg : ∀ (p : Fin 5000) (h : 5000 * t + p.val < 100000), g p = f ⟨5000 * t + p.val, h⟩) :
    ∑ p : Fin 5000, g p = blockShare4 f t :=
  Finset.sum_congr rfl fun p _ => by
    have hp : 5000 * t + p.val < 100000 := by have := p.isLt; omega
    rw [hg p hp, dif_pos hp]

variable (V : (c : Dev nD) → (b : Ref sig .tc) → Buf (Elt Ideal) ((c : Thread nD τ).loc b))

/-- Where the input's block sits: at grid point t it is row block t. -/
theorem blockPlaces4 : ∀ t : Fin cfg4.N, win4_0.index t (0 : Fin 2) = t.val ∧ win4_0.index t (1 : Fin 2) = 0 :=
  (by decide +kernel : ∀ t : Fin grid4.N, _)

/-- Row p, channel q of the input's block at grid point t is row 5000 t + p, channel q of the input array. -/
theorem blockRead4 (c : Dev nD) (t : Fin cfg4.N) (p : Fin 5000) (q : Fin 64) (h : 5000 * t.val + p.val < 100000) :
    (iblk4 (F := Ideal) V c 0 t : Vec Ideal S5000x64 .f32) (ix2 p q)
      = (V c main_v76 : Cert.Spec.N64.Idx → EReal) (ix2 (⟨5000 * t.val + p.val, h⟩ : Fin 100000) q) := by
  obtain ⟨e0, e1⟩ := blockPlaces4 t
  unfold iblk4
  rw [View.read_apply]
  show V c main_v76 _ = V c main_v76 _
  congr 1
  funext a
  apply Fin.ext
  match a with
  | ⟨0, _⟩ => show win4_0.index t (0 : Fin 2) * 5000 + 1 * p.val = 5000 * t.val + p.val; omega
  | ⟨1, _⟩ => show win4_0.index t (1 : Fin 2) * 64 + 1 * q.val = q.val; omega

/-- After the first point the accumulators hold the first block's column sums over zero. -/
theorem outsFirst4 (c : Dev nD) (hn : 0 < cfg4.N) :
    outsAt4 (F := Ideal) V c 0 hn
      = (k4_pay4 (iblk4 V c 0 ⟨0, hn⟩) (k4_pay1 (F := Ideal)), k4_pay5 (iblk4 V c 0 ⟨0, hn⟩) (k4_pay2 (F := Ideal))) := by
  rw [outsAt4_A V c ⟨0, hn⟩ rfl, firstSum4, firstSq4]

/-- After a later point they hold what the point before left plus the point's block's column sums. -/
theorem outsNext4 (c : Dev nD) (n : ℕ) (hn : n + 1 < cfg4.N) :
    outsAt4 (F := Ideal) V c (n + 1) hn
      = (k4_pay4 (iblk4 V c 0 ⟨n + 1, hn⟩) (outsAt4 (F := Ideal) V c n (Nat.lt_of_succ_lt hn)).1,
         k4_pay5 (iblk4 V c 0 ⟨n + 1, hn⟩) (outsAt4 (F := Ideal) V c n (Nat.lt_of_succ_lt hn)).2) := by
  have hN : cfg4.N = 20 := N_4
  have hB : ¬(⟨n + 1, hn⟩ : Fin cfg4.N).val % 20 = 0 := by dsimp only; omega
  rw [outsAt4_B V c ⟨n + 1, hn⟩ hB, nextSum4, nextSq4]
  rfl

/-- After point n the two accumulators hold, at channel q, the sums of the entries and of their squares over the rows
    of blocks 0 … n. -/
theorem running4 (c : Dev nD) (q : Fin 64) : ∀ (n : ℕ) (hn : n < cfg4.N),
    (outsAt4 (F := Ideal) V c n hn).1 (ix2 (0 : Fin 1) q)
        = ∑ t ∈ Finset.range (n + 1), blockShare4 (col4 (V c main_v76) q) t
      ∧ (outsAt4 (F := Ideal) V c n hn).2 (ix2 (0 : Fin 1) q)
        = ∑ t ∈ Finset.range (n + 1), blockShare4 (col4 (Cert.Spec.sq (V c main_v76)) q) t
  | 0, hn => by
    rw [outsFirst4 V c hn]
    dsimp only
    rw [sumStep4_at, sqStep4_at, zeroRowA4_at, zeroRowB4_at, ]
    simp only [zero_add, Finset.sum_range_one]
    exact ⟨blockShare4_of _ 0 (by omega) _ (fun p h => blockRead4 V c ⟨0, hn⟩ p q h),
      blockShare4_of _ 0 (by omega) _ (fun p h => by
        rw [blockRead4 V c ⟨0, hn⟩ p q h]; rfl)⟩
  | n + 1, hn => by
    have hN : cfg4.N = 20 := N_4
    obtain ⟨ih1, ih2⟩ := running4 c q n (Nat.lt_of_succ_lt hn)
    rw [outsNext4 V c n hn]
    dsimp only
    rw [sumStep4_at, sqStep4_at, ih1, ih2, Finset.sum_range_succ _ (n + 1), Finset.sum_range_succ _ (n + 1)]
    exact ⟨congrArg (_ + ·) (blockShare4_of _ (n + 1) (by omega) _ (fun p h => blockRead4 V c ⟨n + 1, hn⟩ p q h)),
      congrArg (_ + ·) (blockShare4_of _ (n + 1) (by omega) _ (fun p h => by
        rw [blockRead4 V c ⟨n + 1, hn⟩ p q h]; rfl))⟩

/-- After the last point they hold the whole column sums: the specification's two rows. -/
theorem lastPoint4 (c : Dev nD) (n : ℕ) (hn : n < cfg4.N) (hlast : n = 19) :
    (outsAt4 (F := Ideal) V c n hn).1 = Cert.Spec.colsum (V c main_v76)
      ∧ (outsAt4 (F := Ideal) V c n hn).2 = Cert.Spec.colsum (Cert.Spec.sq (V c main_v76)) := by
  subst hlast
  constructor <;> funext j
  · obtain ⟨z, q, rfl⟩ : ∃ (z : Fin 1) (q : Fin 64), j = ix2 z q := ⟨j 0, j 1, eq_ix2 j⟩
    obtain rfl : z = 0 := Subsingleton.elim _ _
    rw [(running4 V c q 19 hn).1, Cert.Spec.colsum_ix]
    exact (Cert.BNAlgebra.sum_blocks_range (col4 (V c main_v76) q)).symm
  · obtain ⟨z, q, rfl⟩ : ∃ (z : Fin 1) (q : Fin 64), j = ix2 z q := ⟨j 0, j 1, eq_ix2 j⟩
    obtain rfl : z = 0 := Subsingleton.elim _ _
    rw [(running4 V c q 19 hn).2, Cert.Spec.colsum_ix]
    exact (Cert.BNAlgebra.sum_blocks_range (col4 (Cert.Spec.sq (V c main_v76)) q)).symm

/-! ## From the last point to the arrays -/

/-- The two outputs' one block never moves: it is the whole 1×64 array at every point. -/
theorem rowPlaces4 : ∀ t : Fin cfg4.N, win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Output 1's block at any point is the whole row: reading a row through it gives the row back. -/
theorem sameRow4_1 (G : S1x64.Idx → EReal) (t : Fin cfg4.N) :
    (cfg4.win 1).cut (grid4.coords t) G = ((cfg4.win 1).blk t).view.read (Elt Ideal) G := by
  obtain ⟨e0, e1, -, -⟩ := rowPlaces4 t
  funext j
  show G j = G (((cfg4.win 1).blk t).view.emb j)
  congr 1
  funext a
  apply Fin.ext
  match a with
  | ⟨0, _⟩ => show (j 0).val = win4_1.index t (0 : Fin 2) * 1 + 1 * (j 0).val; omega
  | ⟨1, _⟩ => show (j 1).val = win4_1.index t (1 : Fin 2) * 64 + 1 * (j 1).val; omega

/-- Output 2's block at any point is the whole row: reading a row through it gives the row back. -/
theorem sameRow4_2 (G : S1x64.Idx → EReal) (t : Fin cfg4.N) :
    (cfg4.win 2).cut (grid4.coords t) G = ((cfg4.win 2).blk t).view.read (Elt Ideal) G := by
  obtain ⟨-, -, e0, e1⟩ := rowPlaces4 t
  funext j
  show G j = G (((cfg4.win 2).blk t).view.emb j)
  congr 1
  funext a
  apply Fin.ext
  match a with
  | ⟨0, _⟩ => show (j 0).val = win4_2.index t (0 : Fin 2) * 1 + 1 * (j 0).val; omega
  | ⟨1, _⟩ => show (j 1).val = win4_2.index t (1 : Fin 2) * 64 + 1 * (j 1).val; omega

/-- The only write-back of the sum, at the last point, writes the specification's row. -/
theorem writtenSum4 (c : Dev nD) (t : Fin cfg4.N) (hf : (cfg4.win 1).flush t = true) :
    (dat4 (F := Ideal) V c).flushed 1 t
      = ((cfg4.win 1).blk t).view.read (Elt Ideal) (Cert.Spec.colsum (V c main_v76)) := by
  have hN : cfg4.N = 20 := N_4
  have h19 : t.val = 19 := by have := (flush4_1 t).mp hf; have := t.isLt; omega
  show (cfg4.win 1).cut (grid4.coords t) ((dat4 (F := Ideal) V c).after 1 t) = _
  rw [after4_1, (lastPoint4 V c t.val t.isLt h19).1]
  exact sameRow4_1 _ t

/-- The only write-back of the sum of squares, at the last point, writes the specification's row. -/
theorem writtenSq4 (c : Dev nD) (t : Fin cfg4.N) (hf : (cfg4.win 2).flush t = true) :
    (dat4 (F := Ideal) V c).flushed 2 t
      = ((cfg4.win 2).blk t).view.read (Elt Ideal) (Cert.Spec.colsum (Cert.Spec.sq (V c main_v76))) := by
  have hN : cfg4.N = 20 := N_4
  have h19 : t.val = 19 := by have := (flush4_2 t).mp hf; have := t.isLt; omega
  show (cfg4.win 2).cut (grid4.coords t) ((dat4 (F := Ideal) V c).after 2 t) = _
  rw [after4_2, (lastPoint4 V c t.val t.isLt h19).2]
  exact sameRow4_2 _ t

/-- The last point's block of either output is the whole 1×64 array. -/
theorem lastCovers4_1 (i : S1x64.Idx) :
    ∃ t : Fin cfg4.N, (cfg4.win 1).flush t = true ∧ i ∈ ((cfg4.win 1).blk t).view.set := by
  have hi0 : (i 0).val < 1 := idx2_lt0 i
  have hi1 : (i 1).val < 64 := idx2_lt1 i
  have hN : cfg4.N = 20 := N_4
  obtain ⟨t, ht⟩ : ∃ t : Fin cfg4.N, t.val = 19 := ⟨⟨19, by rw [hN]; decide⟩, rfl⟩
  obtain ⟨e0, e1, -, -⟩ := rowPlaces4 t
  refine ⟨t, (flush4_1 t).mpr (by rw [ht]), ?_⟩
  show i ∈ ((View.whole main_v77_0).slice (win4_1.rect t)).set
  rw [View.set_slice_whole, Rect.mem_set_unit]
  intro a
  match a with
  | ⟨0, _⟩ => show win4_1.index t (0 : Fin 2) * 1 ≤ (i 0).val ∧ (i 0).val < win4_1.index t (0 : Fin 2) * 1 + 1; omega
  | ⟨1, _⟩ => show win4_1.index t (1 : Fin 2) * 64 ≤ (i 1).val ∧ (i 1).val < win4_1.index t (1 : Fin 2) * 64 + 64; omega

theorem lastCovers4_2 (i : S1x64.Idx) :
    ∃ t : Fin cfg4.N, (cfg4.win 2).flush t = true ∧ i ∈ ((cfg4.win 2).blk t).view.set := by
  have hi0 : (i 0).val < 1 := idx2_lt0 i
  have hi1 : (i 1).val < 64 := idx2_lt1 i
  have hN : cfg4.N = 20 := N_4
  obtain ⟨t, ht⟩ : ∃ t : Fin cfg4.N, t.val = 19 := ⟨⟨19, by rw [hN]; decide⟩, rfl⟩
  obtain ⟨-, -, e0, e1⟩ := rowPlaces4 t
  refine ⟨t, (flush4_2 t).mpr (by rw [ht]), ?_⟩
  show i ∈ ((View.whole main_v77_1).slice (win4_2.rect t)).set
  rw [View.set_slice_whole, Rect.mem_set_unit]
  intro a
  match a with
  | ⟨0, _⟩ => show win4_2.index t (0 : Fin 2) * 1 ≤ (i 0).val ∧ (i 0).val < win4_2.index t (0 : Fin 2) * 1 + 1; omega
  | ⟨1, _⟩ => show win4_2.index t (1 : Fin 2) * 64 ≤ (i 1).val ∧ (i 1).val < win4_2.index t (1 : Fin 2) * 64 + 64; omega

/-- The sum array after the launch: per channel, the sum of the input over all 100000 rows. -/
theorem region4_sum (c : Dev nD) :
    (Gen.dat4 (F := Ideal) V c).arrAt 1 cfg4.N = Cert.Spec.colsum (V c main_v76) :=
  (Gen.dat4 (F := Ideal) V c).arrAt_eq_of_cover 1 (Cert.Spec.colsum (V c main_v76))
    (fun t hf => writtenSum4 V c t hf) (fun i => lastCovers4_1 i)

/-- The sum-of-squares array after the launch: per channel, the sum of the squared input over all 100000 rows. -/
theorem region4_sumsq (c : Dev nD) :
    (Gen.dat4 (F := Ideal) V c).arrAt 2 cfg4.N = Cert.Spec.colsum (Cert.Spec.sq (V c main_v76)) :=
  (Gen.dat4 (F := Ideal) V c).arrAt_eq_of_cover 2 (Cert.Spec.colsum (Cert.Spec.sq (V c main_v76)))
    (fun t hf => writtenSq4 V c t hf) (fun i => lastCovers4_2 i)

end Cert.KernelIdeal.Val

end
-- ==== Proof.Region5.lean ====
/-
  The normalise-and-clip launch over the second hidden layer: every entry of the 100000×64 output is
  max (x · scale + shift, 0) of the entry of x above it and of the channel's scale and shift (two 1×64 rows).
  The launch walks 20 row blocks of 5000 rows; block t of the output depends on block t of x and on the two rows,
  which every block sees whole. So the array after the launch is ONE entrywise function of the three input arrays.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (V : (c : Dev nD) → (b : Ref sig .tc) → Buf (Elt Ideal) ((c : Thread nD τ).loc b))

/-- The offsets of a whole-block access are zero on both axes. -/
theorem zeroOffsets5 : (![0, 0] : Fin 2 → Nat) = fun _ => 0 := funext fun a => by fin_cases a <;> rfl

/-- A 1×64 row broadcast down 5000 rows reads, at row p and channel q, the row's entry at channel q. -/
theorem rowDown5 (x : Vec Ideal S1x64 .f32) (h : S1x64.Broadcasts S5000x64) (p : Fin 5000) (q : Fin 64) :
    broadcastTo S5000x64 x h (ix2 p q) = x (ix2 (0 : Fin 1) q) :=
  broadcastTo_apply x h (ix2 p q) (ix2 (0 : Fin 1) q)
    (fun a => by match a with | ⟨0, _⟩ => rfl | ⟨1, _⟩ => rfl)

/-- The body's arithmetic at row p, channel q of a block: multiply by the channel's scale, add its shift, clip at zero. -/
theorem affineClip5_at (x0 : Vec Ideal S5000x64 .f32) (x1 x2 : Vec Ideal S1x64 .f32) (p : Fin 5000) (q : Fin 64) :
    Gen.k5_pay1 (F := Ideal) x0 x1 x2 (ix2 p q)
      = max (x0 (ix2 p q) * x1 (ix2 (0 : Fin 1) q) + x2 (ix2 (0 : Fin 1) q)) 0 := by
  unfold Gen.k5_pay1
  simp only [shapeCast_self]
  rw [maximumf_apply, addf_apply, mulf_apply, broadcast_apply, rowDown5, rowDown5]
  exact congrArg (max _) Ideal.ofBits_zero_f32

/-- The same against the arrays: when the block's entry j is the array's entry e j (same channel) and the two rows are
    the arrays' rows, the body leaves the specification's value at e j. -/
theorem affineClip5_block (x0 : Vec Ideal S5000x64 .f32) (x1 x2 : Vec Ideal S1x64 .f32)
    (a0 : Cert.Spec.N64.Idx → EReal) (a1 a2 : Cert.Spec.R64.Idx → EReal)
    (e : S5000x64.Idx → Cert.Spec.N64.Idx)
    (he : ∀ j, (e j 1).val = (j 1).val)
    (h0 : ∀ j, x0 j = a0 (e j)) (h1 : ∀ y, x1 y = a1 y) (h2 : ∀ y, x2 y = a2 y) (j : S5000x64.Idx) :
    Gen.k5_pay1 (F := Ideal) x0 x1 x2 j = Cert.Spec.affRelu a0 a1 a2 (e j) := by
  obtain ⟨p, q, rfl⟩ : ∃ (p : Fin 5000) (q : Fin 64), j = ix2 p q := ⟨j 0, j 1, eq_ix2 j⟩
  refine (affineClip5_at x0 x1 x2 p q).trans ?_
  have hq : (⟨(e (ix2 p q) 1).val, idx2_lt1 (e (ix2 p q))⟩ : Fin 64) = q := Fin.ext (he (ix2 p q))
  rw [h0, h1, h2]
  show _ = max (a0 (e (ix2 p q)) * a1 (ix2 (0 : Fin 1) (⟨(e (ix2 p q) 1).val, idx2_lt1 (e (ix2 p q))⟩ : Fin 64))
      + a2 (ix2 (0 : Fin 1) (⟨(e (ix2 p q) 1).val, idx2_lt1 (e (ix2 p q))⟩ : Fin 64))) 0
  rw [hq]

/-- Where the blocks sit: at grid point t the x block and the output block are row block t; the two rows never move. -/
theorem blockPlaces5 : ∀ t : Fin cfg5.N, win5_0.index t (0 : Fin 2) = t.val ∧ win5_0.index t (1 : Fin 2) = 0
    ∧ win5_3.index t (0 : Fin 2) = t.val ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What grid point t writes back is row block t of the specification's array. -/
theorem written5 (c : Dev nD) (t : Fin cfg5.N) :
    (Gen.dat5 (F := Ideal) V c).flushed 3 t
      = ((cfg5.win 3).blk t).view.read (Elt Ideal) (Cert.Spec.affRelu (V c main_v76) (V c main_v88) (V c main_v91)) := by
  show (cfg5.win 3).cut (grid5.coords t) ((Gen.dat5 (F := Ideal) V c).after 3 t) = _
  rw [after5_3]
  unfold Gen.out5_3
  rw [View.canon_unit_zero zeroOffsets5]
  simp only [View.ld_unit_zero (S := S5000x64) zeroOffsets5, View.ld_unit_zero (S := S1x64) zeroOffsets5]
  obtain ⟨e0, e1, e2, e3, e4, e5, e6, e7⟩ := blockPlaces5 t
  funext j
  show Gen.k5_pay1 (F := Ideal) (iblk5 V c 0 t) (iblk5 V c 1 t) (iblk5 V c 2 t) j
    = Cert.Spec.affRelu (V c main_v76) (V c main_v88) (V c main_v91) (((cfg5.win 3).blk t).view.emb j)
  refine affineClip5_block (iblk5 V c 0 t) (iblk5 V c 1 t) (iblk5 V c 2 t) (V c main_v76) (V c main_v88) (V c main_v91)
    (fun y => ((cfg5.win 3).blk t).view.emb y) (fun y => ?_) (fun y => ?_) (fun y => ?_) (fun y => ?_) j
  · show win5_3.index t (1 : Fin 2) * 64 + 1 * (y 1).val = (y 1).val
    omega
  · show V c main_v76 (((cfg5.win 0).blk t).view.emb y) = V c main_v76 (((cfg5.win 3).blk t).view.emb y)
    have hemb : ((cfg5.win 0).blk t).view.emb y = ((cfg5.win 3).blk t).view.emb y := by
      funext a; apply Fin.ext
      match a with
      | ⟨0, _⟩ => show win5_0.index t (0 : Fin 2) * 5000 + 1 * (y 0).val = win5_3.index t (0 : Fin 2) * 5000 + 1 * (y 0).val; omega
      | ⟨1, _⟩ => show win5_0.index t (1 : Fin 2) * 64 + 1 * (y 1).val = win5_3.index t (1 : Fin 2) * 64 + 1 * (y 1).val; omega
    rw [hemb]
  · show V c main_v88 (((cfg5.win 1).blk t).view.emb y) = V c main_v88 y
    congr 1; funext a; apply Fin.ext
    match a with
    | ⟨0, _⟩ => show win5_1.index t (0 : Fin 2) * 1 + 1 * (y 0).val = (y 0).val; omega
    | ⟨1, _⟩ => show win5_1.index t (1 : Fin 2) * 64 + 1 * (y 1).val = (y 1).val; omega
  · show V c main_v91 (((cfg5.win 2).blk t).view.emb y) = V c main_v91 y
    congr 1; funext a; apply Fin.ext
    match a with
    | ⟨0, _⟩ => show win5_2.index t (0 : Fin 2) * 1 + 1 * (y 0).val = (y 0).val; omega
    | ⟨1, _⟩ => show win5_2.index t (1 : Fin 2) * 64 + 1 * (y 1).val = (y 1).val; omega

/-- An entry of the output array is in point t's block iff each coordinate is in the block's range on its axis. -/
theorem inBlock5 (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v92).slice (win5_3.rect t)).set ↔ _
  rw [View.set_slice_whole, Rect.mem_set_unit]
  exact Iff.rfl

/-- Row r of the output lies in the block of grid point r / 5000, and every point writes its block back. -/
theorem rowCovered5 (i : S100000x64.Idx) :
    ∃ t : Fin cfg5.N, (cfg5.win 3).flush t = true ∧ i ∈ ((cfg5.win 3).blk t).view.set := by
  have hi0 : (i 0).val < 100000 := idx2_lt0 i
  have hi1 : (i 1).val < 64 := idx2_lt1 i
  have hN : cfg5.N = 20 := N_5
  obtain ⟨t, ht⟩ : ∃ t : Fin cfg5.N, t.val = (i 0).val / 5000 := ⟨⟨(i 0).val / 5000, by rw [hN]; omega⟩, rfl⟩
  obtain ⟨-, -, e2, e3, -⟩ := blockPlaces5 t
  refine ⟨t, flush5_3 t, ?_⟩
  rw [inBlock5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The output array after the launch is the specification's function of the three input arrays. -/
theorem region5 (c : Dev nD) :
    (Gen.dat5 (F := Ideal) V c).arrAt 3 cfg5.N = Cert.Spec.affRelu (V c main_v76) (V c main_v88) (V c main_v91) :=
  (Gen.dat5 (F := Ideal) V c).arrAt_eq_of_cover 3 (Cert.Spec.affRelu (V c main_v76) (V c main_v88) (V c main_v91))
    (fun t _ => written5 V c t) (fun i => rowCovered5 i)

end Cert.KernelIdeal.Val

end
-- ==== Proof.Region6.lean ====
/-
  The third dense layer (launch 6 of 8, counting from 0).

  The launch walks 20 grid points. Point t loads rows 5000·t … 5000·t + 4999 of the node features (all 64
  channels) and the whole 64×64 weight matrix, multiplies the two, and stores the 5000×64 product as the same rows
  of the output array. Recasting a block to its own shape and rounding an operand to a shorter float format are both
  the identity on the extended reals, and a matrix product accumulated into zero is the plain sum over the contracted
  channel. So entry (n, c) of the output array is ∑ₖ x (n, k) · w (k, c): row n lies in block n / 5000, at row
  n % 5000 inside it, and the 20 blocks tile the 100000 rows.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-- The zero offsets of a whole-buffer load or store. -/
theorem zeroOff6 : (![0, 0] : Fin 2 → Nat) = fun _ => 0 := funext fun a => by fin_cases a <;> rfl

/-! ## The product's operand indices: output entry (r, c) and contraction index k read x (r, k) and w (k, c) -/

theorem dot6_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot6_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot6_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot6_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What one grid point stores, entry by entry: the block's row p times the weights' column q, summed over the
    64 input channels. -/
theorem pay6_apply (x0 : Vec Ideal S5000x64 .f32) (x1 : Vec Ideal S64x64 .f32) (p : Fin 5000) (q : Fin 64) :
    k6_pay1 (F := Ideal) x0 x1 (ix2 p q) = ∑ k : Fin 64, x0 (ix2 p k) * x1 (ix2 k q) := by
  unfold k6_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot6_lhs_row _ _
    | ⟨1, _⟩ => exact (dot6_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot6_rhs_row _ _).trans hk
    | ⟨1, _⟩ => exact dot6_rhs_col _ _)
  rw [truncf_apply, truncf_apply, shapeCast_self, el, er]

/-- One block of the product is the same block of the whole-array product: for a 5000-row block x0 holding rows
    T·5000 … of the array A, and x1 holding all of W, the stored entry j is entry i of `mm64 A W` whenever i is j
    moved down by T·5000 rows. -/
theorem block6_apply (A : Cert.Spec.N64.Idx → EReal) (W : Cert.Spec.W64x64.Idx → EReal)
    (x0 : Vec Ideal S5000x64 .f32) (x1 : Vec Ideal S64x64 .f32) (T : Nat) (hT : T < 20)
    (h0 : ∀ (p : Fin 5000) (k : Fin 64) (h : T * 5000 + p.val < 100000), x0 (ix2 p k) = A (ix2 (⟨T * 5000 + p.val, h⟩ : Fin 100000) k))
    (h1 : ∀ (k : Fin 64) (q : Fin 64), x1 (ix2 k q) = W (ix2 k q))
    (j : S5000x64.Idx) (i : S100000x64.Idx) (hi0 : (i 0).val = T * 5000 + (j 0).val) (hi1 : (i 1).val = (j 1).val) :
    k6_pay1 (F := Ideal) x0 x1 j = Cert.Spec.mm64 A W i := by
  obtain ⟨p, q, rfl⟩ : ∃ (p : Fin 5000) (q : Fin 64), j = ix2 p q := ⟨j 0, j 1, eq_ix2 j⟩
  have hp : p.val < 5000 := p.isLt
  have hlt : T * 5000 + p.val < 100000 := by omega
  have hi : i = ix2 (⟨T * 5000 + p.val, hlt⟩ : Fin 100000) q := by
    funext a; apply Fin.ext
    match a with
    | ⟨0, _⟩ => exact hi0
    | ⟨1, _⟩ => exact hi1
  rw [hi, Cert.Spec.mm64_ix, pay6_apply]
  exact Finset.sum_congr rfl fun k _ => by rw [h0 p k hlt, h1 k q]

variable (V : (c : Dev nD) → (b : Ref sig .tc) → Buf (Elt Ideal) ((c : Thread nD τ).loc b))

/-! ## Blocks as rows of the arrays -/

/-- The index maps over the grid: the feature and output windows step one block of rows per point, the weight
    window stays at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature block at point t holds rows 5000·t … 5000·t + 4999 of the feature array. -/
theorem read6_0 (c : Dev nD) (t : Fin cfg6.N) (p : Fin 5000) (k : Fin 64) (h : t.val * 5000 + p.val < 100000) :
    (iblk6 V c 0 t : Vec Ideal S5000x64 .f32) (ix2 p k)
      = (V c main_v92 : S100000x64.Idx → EReal) (ix2 (⟨t.val * 5000 + p.val, h⟩ : Fin 100000) k) := by
  obtain ⟨e0, e1, -⟩ := idx_facts6 t
  unfold iblk6
  rw [View.read_apply]
  show V c main_v92 _ = V c main_v92 _
  refine congrArg (V c main_v92) ?_
  funext a
  apply Fin.ext
  match a with
  | ⟨0, _⟩ => show win6_0.index t (0 : Fin 2) * 5000 + 1 * p.val = t.val * 5000 + p.val; rw [e0]; omega
  | ⟨1, _⟩ => show win6_0.index t (1 : Fin 2) * 64 + 1 * k.val = k.val; rw [e1]; omega

/-- The weight block at every point is the whole weight matrix. -/
theorem read6_1 (c : Dev nD) (t : Fin cfg6.N) (k : Fin 64) (q : Fin 64) :
    (iblk6 V c 1 t : Vec Ideal S64x64 .f32) (ix2 k q) = (V c main_arg10 : S64x64.Idx → EReal) (ix2 k q) := by
  obtain ⟨-, -, e2, e3, -⟩ := idx_facts6 t
  unfold iblk6
  rw [View.read_apply]
  show V c main_arg10 _ = V c main_arg10 _
  refine congrArg (V c main_arg10) ?_
  funext a
  apply Fin.ext
  match a with
  | ⟨0, _⟩ => show win6_1.index t (0 : Fin 2) * 64 + 1 * k.val = k.val; rw [e2]; omega
  | ⟨1, _⟩ => show win6_1.index t (1 : Fin 2) * 64 + 1 * q.val = q.val; rw [e3]; omega

/-- What point t writes back is block t of the whole-array product. -/
theorem flushed6 (c : Dev nD) (t : Fin cfg6.N) :
    (dat6 (F := Ideal) V c).flushed 2 t
      = ((cfg6.win 2).blk t).view.read (Elt Ideal) (Cert.Spec.mm64 (V c main_v92) (V c main_arg10)) := by
  show (cfg6.win 2).cut (grid6.coords t) ((dat6 V c).after 2 t) = _
  rw [after6_2]
  unfold out6_2
  rw [View.canon_unit_zero zeroOff6]
  simp only [View.ld_unit_zero (S := S5000x64) zeroOff6, View.ld_unit_zero (S := S64x64) zeroOff6]
  obtain ⟨-, -, -, -, e4, e5⟩ := idx_facts6 t
  have ht : t.val < 20 := t.isLt
  funext j
  show k6_pay1 (F := Ideal) (iblk6 V c 0 t) (iblk6 V c 1 t) j
    = Cert.Spec.mm64 (V c main_v92) (V c main_arg10) (((cfg6.win 2).blk t).view.emb j)
  refine block6_apply (V c main_v92) (V c main_arg10) (iblk6 V c 0 t) (iblk6 V c 1 t) t.val ht
    (fun p k h => read6_0 V c t p k h) (fun k q => read6_1 V c t k q) j _ ?_ ?_
  · show win6_2.index t (0 : Fin 2) * 5000 + 1 * (j 0).val = t.val * 5000 + (j 0).val
    rw [e4]; omega
  · show win6_2.index t (1 : Fin 2) * 64 + 1 * (j 1).val = (j 1).val
    rw [e5]; omega

/-- An index of the output array is in point t's block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v93).slice (win6_2.rect t)).set ↔ _
  rw [View.set_slice_whole, Rect.mem_set_unit]
  exact Iff.rfl

/-- Every block of rows is some point's. -/
theorem idx_onto6 : ∀ q0 : Fin 20, ∃ t : Fin cfg6.N, win6_2.index t = ![q0.val, 0] :=
  (by decide +kernel : ∀ q0 : Fin 20, ∃ t : Fin grid6.N, win6_2.index t = ![q0.val, 0])

/-- Row r of the output is covered by the point whose block index is r / 5000. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array after the launch is the dense layer of the two input arrays as the launch found them. -/
theorem region6 (c : Dev nD) :
    (dat6 (F := Ideal) V c).arrAt 2 cfg6.N = Cert.Spec.mm64 (V c main_v92) (V c main_arg10) :=
  (dat6 (F := Ideal) V c).arrAt_eq_of_cover 2 (Cert.Spec.mm64 (V c main_v92) (V c main_arg10))
    (fun t _ => flushed6 V c t) cover6

end Cert.KernelIdeal.Val

end
-- ==== Proof.Region7.lean ====
/-
  The last launch (launch 7 of 8): the entrywise maximum of three node-feature arrays, a 64-to-40 dense layer, and
  a per-channel bias.

  The launch walks 20 grid points. Point t loads rows 5000·t … 5000·t + 4999 of each of the three 64-channel
  feature arrays, the whole 64×40 weight matrix and the 1×40 bias row; it takes the maximum of the three blocks
  entry by entry, multiplies by the weights, adds the bias row to every row, and stores the 5000×40 result as the
  same rows of the output array. Rounding an operand to a shorter float format is the identity on the extended reals,
  and a matrix product accumulated into zero is the plain sum over the contracted channel. So entry (n, c) of the
  output is ∑ₖ max (max (x₁ (n, k)) (x₂ (n, k))) (x₃ (n, k)) · w (k, c) + b (0, c): row n lies in block n / 5000, and
  the 20 blocks tile the 100000 rows.
-/
import proofs.«121954_j7129645711840_1_alg».proof.Proof.Gen.KernelIdeal.Frame
import proofs.«121954_j7129645711840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-- The zero offsets of a whole-buffer load or store. -/
theorem zeroOff7 : (![0, 0] : Fin 2 → Nat) = fun _ => 0 := funext fun a => by fin_cases a <;> rfl

/-! ## The product's operand indices: output entry (r, c) and contraction index k read x (r, k) and w (k, c) -/

theorem dot7_lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem dot7_lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem dot7_rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem dot7_rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The product of the maximum block with the weights, entry by entry. -/
theorem mm7_apply (y : Vec Ideal S5000x64 .f32) (x3 : Vec Ideal S64x40 .f32) (p : Fin 5000) (q : Fin 40) :
    (matmul (F := Ideal) dot_S5000x64_S64x40_S5000x40_1_0_0_1_n_n none (truncf .bf16 y bitsLt_bf16_f32) (truncf .bf16 x3 bitsLt_bf16_f32)
        (constant S5000x40 .f32 0x00000000#32) : FVec Ideal S5000x40 .f32) (ix2 p q)
      = ∑ k : Fin 64, y (ix2 p k) * x3 (ix2 k q) := by
  refine (Ideal.matmul_constant_zero_apply dot_S5000x64_S64x40_S5000x40_1_0_0_1_n_n none _ _ (ix2 p q)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact dot7_lhs_row _ _
    | ⟨1, _⟩ => exact (dot7_lhs_col _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (dot7_rhs_row _ _).trans hk
    | ⟨1, _⟩ => exact dot7_rhs_col _ _)
  rw [truncf_apply, truncf_apply, el, er]

/-- What one grid point stores, entry by entry: the maximum of the three blocks' row p against the weights' column q,
    summed over the 64 channels, plus the bias of channel q. -/
theorem pay7_apply (x0 x1 x2 : Vec Ideal S5000x64 .f32) (x3 : Vec Ideal S64x40 .f32) (x4 : Vec Ideal S1x40 .f32)
    (p : Fin 5000) (q : Fin 40) :
    k7_pay1 (F := Ideal) x0 x1 x2 x3 x4 (ix2 p q)
      = (∑ k : Fin 64, max (max (x0 (ix2 p k)) (x1 (ix2 p k))) (x2 (ix2 p k)) * x3 (ix2 k q)) + x4 (ix2 (0 : Fin 1) q) := by
  unfold k7_pay1
  simp only [shapeCast_self]
  rw [addf_apply, mm7_apply, broadcastTo_1b_ab_apply]
  rfl

/-- One block of the result is the same block of the whole-array result: for 5000-row blocks x0, x1, x2 holding rows
    T·5000 … of the arrays A1, A2, A3, with x3 all of the weights and x4 the bias row, the stored entry j is entry i
    of `jk A1 A2 A3 W B` whenever i is j moved down by T·5000 rows. -/
theorem block7_apply (A1 A2 A3 : Cert.Spec.N64.Idx → EReal) (W : Cert.Spec.W64x40.Idx → EReal) (B : Cert.Spec.R40.Idx → EReal)
    (x0 x1 x2 : Vec Ideal S5000x64 .f32) (x3 : Vec Ideal S64x40 .f32) (x4 : Vec Ideal S1x40 .f32) (T : Nat) (hT : T < 20)
    (h0 : ∀ (p : Fin 5000) (k : Fin 64) (h : T * 5000 + p.val < 100000), x0 (ix2 p k) = A1 (ix2 (⟨T * 5000 + p.val, h⟩ : Fin 100000) k))
    (h1 : ∀ (p : Fin 5000) (k : Fin 64) (h : T * 5000 + p.val < 100000), x1 (ix2 p k) = A2 (ix2 (⟨T * 5000 + p.val, h⟩ : Fin 100000) k))
    (h2 : ∀ (p : Fin 5000) (k : Fin 64) (h : T * 5000 + p.val < 100000), x2 (ix2 p k) = A3 (ix2 (⟨T * 5000 + p.val, h⟩ : Fin 100000) k))
    (h3 : ∀ (k : Fin 64) (q : Fin 40), x3 (ix2 k q) = W (ix2 k q))
    (h4 : ∀ q : Fin 40, x4 (ix2 (0 : Fin 1) q) = B (ix2 (0 : Fin 1) q))
    (j : S5000x40.Idx) (i : S100000x40.Idx) (hi0 : (i 0).val = T * 5000 + (j 0).val) (hi1 : (i 1).val = (j 1).val) :
    k7_pay1 (F := Ideal) x0 x1 x2 x3 x4 j = Cert.Spec.jk A1 A2 A3 W B i := by
  obtain ⟨p, q, rfl⟩ : ∃ (p : Fin 5000) (q : Fin 40), j = ix2 p q := ⟨j 0, j 1, eq_ix2 j⟩
  have hp : p.val < 5000 := p.isLt
  have hlt : T * 5000 + p.val < 100000 := by omega
  have hi : i = ix2 (⟨T * 5000 + p.val, hlt⟩ : Fin 100000) q := by
    funext a; apply Fin.ext
    match a with
    | ⟨0, _⟩ => exact hi0
    | ⟨1, _⟩ => exact hi1
  rw [hi, Cert.Spec.jk_ix, pay7_apply, h4 q]
  exact congrArg (· + B (ix2 (0 : Fin 1) q)) (Finset.sum_congr rfl fun k _ => by rw [h0 p k hlt, h1 p k hlt, h2 p k hlt, h3 k q])

variable (V : (c : Dev nD) → (b : Ref sig .tc) → Buf (Elt Ideal) ((c : Thread nD τ).loc b))

/-! ## Blocks as rows of the arrays -/

/-- The index maps over the grid: the three feature windows and the output window step one block of rows per point,
    the weight and bias windows stay at block (0, 0). -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The first feature block at point t holds rows 5000·t … 5000·t + 4999 of its array. -/
theorem read7_0 (c : Dev nD) (t : Fin cfg7.N) (p : Fin 5000) (k : Fin 64) (h : t.val * 5000 + p.val < 100000) :
    (iblk7 V c 0 t : Vec Ideal S5000x64 .f32) (ix2 p k)
      = (V c main_v59 : S100000x64.Idx → EReal) (ix2 (⟨t.val * 5000 + p.val, h⟩ : Fin 100000) k) := by
  obtain ⟨e0, e1, -⟩ := idx_facts7 t
  unfold iblk7
  rw [View.read_apply]
  show V c main_v59 _ = V c main_v59 _
  refine congrArg (V c main_v59) ?_
  funext a
  apply Fin.ext
  match a with
  | ⟨0, _⟩ => show win7_0.index t (0 : Fin 2) * 5000 + 1 * p.val = t.val * 5000 + p.val; rw [e0]; omega
  | ⟨1, _⟩ => show win7_0.index t (1 : Fin 2) * 64 + 1 * k.val = k.val; rw [e1]; omega

/-- The second feature block likewise. -/
theorem read7_1 (c : Dev nD) (t : Fin cfg7.N) (p : Fin 5000) (k : Fin 64) (h : t.val * 5000 + p.val < 100000) :
    (iblk7 V c 1 t : Vec Ideal S5000x64 .f32) (ix2 p k)
      = (V c main_v92 : S100000x64.Idx → EReal) (ix2 (⟨t.val * 5000 + p.val, h⟩ : Fin 100000) k) := by
  obtain ⟨-, -, e0, e1, -⟩ := idx_facts7 t
  unfold iblk7
  rw [View.read_apply]
  show V c main_v92 _ = V c main_v92 _
  refine congrArg (V c main_v92) ?_
  funext a
  apply Fin.ext
  match a with
  | ⟨0, _⟩ => show win7_1.index t (0 : Fin 2) * 5000 + 1 * p.val = t.val * 5000 + p.val; rw [e0]; omega
  | ⟨1, _⟩ => show win7_1.index t (1 : Fin 2) * 64 + 1 * k.val = k.val; rw [e1]; omega

/-- The third feature block likewise. -/
theorem read7_2 (c : Dev nD) (t : Fin cfg7.N) (p : Fin 5000) (k : Fin 64) (h : t.val * 5000 + p.val < 100000) :
    (iblk7 V c 2 t : Vec Ideal S5000x64 .f32) (ix2 p k)
      = (V c main_v109 : S100000x64.Idx → EReal) (ix2 (⟨t.val * 5000 + p.val, h⟩ : Fin 100000) k) := by
  obtain ⟨-, -, -, -, e0, e1, -⟩ := idx_facts7 t
  unfold iblk7
  rw [View.read_apply]
  show V c main_v109 _ = V c main_v109 _
  refine congrArg (V c main_v109) ?_
  funext a
  apply Fin.ext
  match a with
  | ⟨0, _⟩ => show win7_2.index t (0 : Fin 2) * 5000 + 1 * p.val = t.val * 5000 + p.val; rw [e0]; omega
  | ⟨1, _⟩ => show win7_2.index t (1 : Fin 2) * 64 + 1 * k.val = k.val; rw [e1]; omega

/-- The weight block at every point is the whole weight matrix. -/
theorem read7_3 (c : Dev nD) (t : Fin cfg7.N) (k : Fin 64) (q : Fin 40) :
    (iblk7 V c 3 t : Vec Ideal S64x40 .f32) (ix2 k q) = (V c main_arg12 : S64x40.Idx → EReal) (ix2 k q) := by
  obtain ⟨-, -, -, -, -, -, e0, e1, -⟩ := idx_facts7 t
  unfold iblk7
  rw [View.read_apply]
  show V c main_arg12 _ = V c main_arg12 _
  refine congrArg (V c main_arg12) ?_
  funext a
  apply Fin.ext
  match a with
  | ⟨0, _⟩ => show win7_3.index t (0 : Fin 2) * 64 + 1 * k.val = k.val; rw [e0]; omega
  | ⟨1, _⟩ => show win7_3.index t (1 : Fin 2) * 40 + 1 * q.val = q.val; rw [e1]; omega

/-- The bias block at every point is the whole bias row. -/
theorem read7_4 (c : Dev nD) (t : Fin cfg7.N) (q : Fin 40) :
    (iblk7 V c 4 t : Vec Ideal S1x40 .f32) (ix2 (0 : Fin 1) q) = (V c main_v110 : S1x40.Idx → EReal) (ix2 (0 : Fin 1) q) := by
  obtain ⟨-, -, -, -, -, -, -, -, e0, e1, -⟩ := idx_facts7 t
  unfold iblk7
  rw [View.read_apply]
  show V c main_v110 _ = V c main_v110 _
  refine congrArg (V c main_v110) ?_
  funext a
  apply Fin.ext
  match a with
  | ⟨0, _⟩ => show win7_4.index t (0 : Fin 2) * 1 + 1 * (0 : Fin 1).val = (0 : Fin 1).val; rw [e0]; omega
  | ⟨1, _⟩ => show win7_4.index t (1 : Fin 2) * 40 + 1 * q.val = q.val; rw [e1]; omega

/-- What point t writes back is block t of the whole-array result. -/
theorem flushed7 (c : Dev nD) (t : Fin cfg7.N) :
    (dat7 (F := Ideal) V c).flushed 5 t
      = ((cfg7.win 5).blk t).view.read (Elt Ideal)
          (Cert.Spec.jk (V c main_v59) (V c main_v92) (V c main_v109) (V c main_arg12) (V c main_v110)) := by
  show (cfg7.win 5).cut (grid7.coords t) ((dat7 V c).after 5 t) = _
  rw [after7_5]
  unfold out7_5
  rw [View.canon_unit_zero zeroOff7]
  simp only [View.ld_unit_zero (S := S5000x64) zeroOff7, View.ld_unit_zero (S := S64x40) zeroOff7, View.ld_unit_zero (S := S1x40) zeroOff7]
  obtain ⟨-, -, -, -, -, -, -, -, -, -, e4, e5⟩ := idx_facts7 t
  have ht : t.val < 20 := t.isLt
  funext j
  show k7_pay1 (F := Ideal) (iblk7 V c 0 t) (iblk7 V c 1 t) (iblk7 V c 2 t) (iblk7 V c 3 t) (iblk7 V c 4 t) j
    = Cert.Spec.jk (V c main_v59) (V c main_v92) (V c main_v109) (V c main_arg12) (V c main_v110) (((cfg7.win 5).blk t).view.emb j)
  refine block7_apply (V c main_v59) (V c main_v92) (V c main_v109) (V c main_arg12) (V c main_v110)
    (iblk7 V c 0 t) (iblk7 V c 1 t) (iblk7 V c 2 t) (iblk7 V c 3 t) (iblk7 V c 4 t) t.val ht
    (fun p k h => read7_0 V c t p k h) (fun p k h => read7_1 V c t p k h) (fun p k h => read7_2 V c t p k h)
    (fun k q => read7_3 V c t k q) (fun q => read7_4 V c t q) j _ ?_ ?_
  · show win7_5.index t (0 : Fin 2) * 5000 + 1 * (j 0).val = t.val * 5000 + (j 0).val
    rw [e4]; omega
  · show win7_5.index t (1 : Fin 2) * 40 + 1 * (j 1).val = (j 1).val
    rw [e5]; omega

/-- An index of the output array is in point t's block iff each coordinate is in the block's range on its axis. -/
theorem mem_blk7 (t : Fin cfg7.N) (i : S100000x40.Idx) :
    i ∈ ((cfg7.win 5).blk t).view.set ↔ ∀ a : Fin 2, win7_5.index t a * S5000x40.size a ≤ (i a).val ∧ (i a).val < win7_5.index t a * S5000x40.size a + S5000x40.size a := by
  show i ∈ ((View.whole main_v111).slice (win7_5.rect t)).set ↔ _
  rw [View.set_slice_whole, Rect.mem_set_unit]
  exact Iff.rfl

/-- Every block of rows is some point's. -/
theorem idx_onto7 : ∀ q0 : Fin 20, ∃ t : Fin cfg7.N, win7_5.index t = ![q0.val, 0] :=
  (by decide +kernel : ∀ q0 : Fin 20, ∃ t : Fin grid7.N, win7_5.index t = ![q0.val, 0])

/-- Row r of the output is covered by the point whose block index is r / 5000. -/
theorem cover7 (i : S100000x40.Idx) :
    ∃ t : Fin cfg7.N, (cfg7.win 5).flush t = true ∧ i ∈ ((cfg7.win 5).blk t).view.set := by
  have hi0 : (i 0).val < 100000 := (i 0).isLt
  have hi1 : (i 1).val < 40 := (i 1).isLt
  obtain ⟨t, ht⟩ := idx_onto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 40 ≤ (i 1).val ∧ (i 1).val < win7_5.index t (1 : Fin 2) * 40 + 40; omega

/-- The output array after the launch is the maximum, dense layer and bias of the five input arrays as the launch
    found them. -/
theorem region7 (c : Dev nD) :
    (dat7 (F := Ideal) V c).arrAt 5 cfg7.N
      = Cert.Spec.jk (V c main_v59) (V c main_v92) (V c main_v109) (V c main_arg12) (V c main_v110) :=
  (dat7 (F := Ideal) V c).arrAt_eq_of_cover 5
    (Cert.Spec.jk (V c main_v59) (V c main_v92) (V c main_v109) (V c main_arg12) (V c main_v110))
    (fun t _ => flushed7 V c t) cover7

end Cert.KernelIdeal.Val

end
-- ==== Proof.Glue.lean ====
/-
  Between the statistics launch and the normalising launch the kernel's program computes, per channel, on the host:
  the mean s / n and the variance q / n − mean² from the two sums s = ∑ x and q = ∑ x², then
  `scale = g · (variance + ε)^(−1/2)` and `shift = β − mean · scale`, as 1×64 rows. These are those two rows as
  functions of the sums and of the channel's parameters, operation by operation as the program spells them.
-/
import proofs.«121954_j7129645711840_1_alg».proof.Proof.Gen.KernelIdeal

noncomputable section

namespace Cert.Glue

open Cert.KernelIdeal Cert.KernelIdeal.Facts₀ Idealize.ShloMosaic

variable {F : FTy → Type} [FloatOps F]

/-- The divisor n = 100000 as a 1×64 row. -/
def nRow : FVec F S1x64 .f32 := broadcastInDim S1x64 ![] bcast_S_S1x64 (constant S_ .f32 0x47C35000#32)

/-- `g · (q / n − (s / n)² + ε)^(−1/2)`, channel by channel. -/
def scale (s q : FVec F S1x64 .f32) (g : FVec F S64 .f32) : FVec F S1x64 .f32 :=
  mulf (broadcastInDim S1x64 ![1] bcast_S64_S1x64_1 g)
    (Host.rsqrt (addf (subf (Host.divf q (broadcastInDim S1x64 ![] bcast_S_S1x64 (constant S_ .f32 0x47C35000#32)))
          (mulf (Host.divf s (broadcastInDim S1x64 ![] bcast_S_S1x64 (constant S_ .f32 0x47C35000#32)))
            (Host.divf s (broadcastInDim S1x64 ![] bcast_S_S1x64 (constant S_ .f32 0x47C35000#32)))))
        (broadcastInDim S1x64 ![] bcast_S_S1x64 (constant S_ .f32 0x3727C5AC#32))))

/-- `β − (s / n) · scale`, channel by channel. -/
def shift (s q : FVec F S1x64 .f32) (g β : FVec F S64 .f32) : FVec F S1x64 .f32 :=
  subf (broadcastInDim S1x64 ![1] bcast_S64_S1x64_1 β)
    (mulf (Host.divf s (broadcastInDim S1x64 ![] bcast_S_S1x64 (constant S_ .f32 0x47C35000#32))) (scale s q g))

end Cert.Glue

end
-- ==== Proof.GlueStretch.lean ====
/-
  The two host stretches between a statistics launch and its normalising launch write the per-channel scale and
  shift rows of `Glue`, computed from the two sum rows the statistics launch left and the layer's two parameter
  vectors — read off the program's operations from any buffer contents at the stretch's entry.
-/
import proofs.«121954_j7129645711840_1_alg».proof.Proof.Gen.KernelIdeal.Launch
import proofs.«121954_j7129645711840_1_alg».proof.Proof.Glue
import Idealize.ShloMosaic.Lib.StableHlo.Run

set_option maxRecDepth 16384

noncomputable section

namespace Cert.GlueStretch

open Cert.KernelIdeal Cert.KernelIdeal.Gen Idealize.ShloMosaic Idealize.ShloMosaic.StableHlo

variable {F : FTy → Type} [FloatOps F]

/-- First layer: the scale row. -/
theorem scale1 (W : Valuation τ sig (Elt F)) :
    StableHlo.after (hostOps2 (F := F)) W (Proc.devRef .tc main_v55)
      = Cert.Glue.scale (W (Proc.devRef .tc main_v44_0)) (W (Proc.devRef .tc main_v44_1)) (W (Proc.devRef .tc main_arg4)) := by
  dsimp only [hostOps2]; after_results_simp <;> rfl

/-- First layer: the shift row. -/
theorem shift1 (W : Valuation τ sig (Elt F)) :
    StableHlo.after (hostOps2 (F := F)) W (Proc.devRef .tc main_v58)
      = Cert.Glue.shift (W (Proc.devRef .tc main_v44_0)) (W (Proc.devRef .tc main_v44_1)) (W (Proc.devRef .tc main_arg4))
          (W (Proc.devRef .tc main_arg5)) := by
  dsimp only [hostOps2]; after_results_simp <;> rfl

/-- Second layer: the scale row. -/
theorem scale2 (W : Valuation τ sig (Elt F)) :
    StableHlo.after (hostOps5 (F := F)) W (Proc.devRef .tc main_v88)
      = Cert.Glue.scale (W (Proc.devRef .tc main_v77_0)) (W (Proc.devRef .tc main_v77_1)) (W (Proc.devRef .tc main_arg8)) := by
  dsimp only [hostOps5]; after_results_simp <;> rfl

/-- Second layer: the shift row. -/
theorem shift2 (W : Valuation τ sig (Elt F)) :
    StableHlo.after (hostOps5 (F := F)) W (Proc.devRef .tc main_v91)
      = Cert.Glue.shift (W (Proc.devRef .tc main_v77_0)) (W (Proc.devRef .tc main_v77_1)) (W (Proc.devRef .tc main_arg8))
          (W (Proc.devRef .tc main_arg9)) := by
  dsimp only [hostOps5]; after_results_simp <;> rfl

end Cert.GlueStretch

end
-- ==== Proof.KernelFn.lean ====
/-
  The idealized kernel's result as ONE function of its arguments and of the three graph arrays its first host
  stretch builds from the edge list (sources, destinations, edge weights): three layers
  "dense product, aggregation over the graph", the first two followed by the normalisation the kernel applies as a
  per-channel multiply-add from the two column sums, clipped at zero; then the entrywise maximum of the three
  layers' outputs through the last dense product with its bias.
-/
import proofs.«121954_j7129645711840_1_alg».proof.Proof.Spec
import proofs.«121954_j7129645711840_1_alg».proof.Proof.Glue
import proofs.«121954_j7129645711840_1_alg».proof.Proof.Graph

noncomputable section

namespace Cert.KernelFn

open Cert.KernelIdeal Cert.KernelIdeal.Gen Idealize.ShloMosaic

/-- A layer's normalisation as the kernel computes it: scale and shift rows from the column sums of `h` and of its
    square, then one multiply-add per entry, clipped at zero. -/
def norm (h : FVec Ideal S100000x64 .f32) (g β : FVec Ideal S64 .f32) : FVec Ideal S100000x64 .f32 :=
  Cert.Spec.affRelu h (Cert.Glue.scale (F := Ideal) (Cert.Spec.colsum h) (Cert.Spec.colsum (Cert.Spec.sq h)) g)
    (Cert.Glue.shift (F := Ideal) (Cert.Spec.colsum h) (Cert.Spec.colsum (Cert.Spec.sq h)) g β)

/-- First layer's output. -/
def y1 (x0 : FVec Ideal S100000x128 .f32) (x2 : FVec Ideal S128x64 .f32) (x3 x4 x5 : FVec Ideal S64 .f32)
    (src dst : IVec S1700000 32) (nrm : FVec Ideal S1700000 .f32) : FVec Ideal S100000x64 .f32 :=
  norm (Cert.Graph.agg (F := Ideal) (Cert.Spec.mm128 x0 x2) src dst nrm x3) x4 x5

/-- Second layer's output, from the first's. -/
def y2 (y : FVec Ideal S100000x64 .f32) (x6 : FVec Ideal S64x64 .f32) (x7 x8 x9 : FVec Ideal S64 .f32)
    (src dst : IVec S1700000 32) (nrm : FVec Ideal S1700000 .f32) : FVec Ideal S100000x64 .f32 :=
  norm (Cert.Graph.agg (F := Ideal) (Cert.Spec.mm64 y x6) src dst nrm x7) x8 x9

/-- Third layer's output (no normalisation), from the second's. -/
def h3 (y : FVec Ideal S100000x64 .f32) (x10 : FVec Ideal S64x64 .f32) (x11 : FVec Ideal S64 .f32)
    (src dst : IVec S1700000 32) (nrm : FVec Ideal S1700000 .f32) : FVec Ideal S100000x64 .f32 :=
  Cert.Graph.agg (F := Ideal) (Cert.Spec.mm64 y x10) src dst nrm x11

/-- The result: the maximum of the three layers' outputs through the last dense product and bias. -/
def out (a b c : FVec Ideal S100000x64 .f32) (x12 : FVec Ideal S64x40 .f32) (x13 : FVec Ideal S40 .f32) :
    FVec Ideal S100000x40 .f32 :=
  Cert.Spec.jk a b c x12 (broadcastInDim S1x40 ![1] bcast_S40_S1x40_1 x13)

end Cert.KernelFn

end
-- ==== Proof.KernelValue.lean ====
/-
  What the idealized kernel's result buffer holds after the run, as the function `KernelFn.out …` of the launch
  contents of the arguments and of the three graph arrays the first host stretch writes. The buffer contents at each
  segment boundary are followed from launch to return: a launch's output array is the specification function of its
  input arrays (one fact per launch), a host stretch's result is its operations' term (aggregation; scale and shift),
  and a value read later than it is written has not changed in between.
-/
import proofs.«121954_j7129645711840_1_alg».proof.Proof.Gen.KernelIdeal.Frame
import proofs.«121954_j7129645711840_1_alg».proof.Proof.ChaseArgs
import proofs.«121954_j7129645711840_1_alg».proof.Proof.ChaseMid
import proofs.«121954_j7129645711840_1_alg».proof.Proof.Region0
import proofs.«121954_j7129645711840_1_alg».proof.Proof.Region1
import proofs.«121954_j7129645711840_1_alg».proof.Proof.Region2
import proofs.«121954_j7129645711840_1_alg».proof.Proof.Region3
import proofs.«121954_j7129645711840_1_alg».proof.Proof.Region4
import proofs.«121954_j7129645711840_1_alg».proof.Proof.Region5
import proofs.«121954_j7129645711840_1_alg».proof.Proof.Region6
import proofs.«121954_j7129645711840_1_alg».proof.Proof.Region7
import proofs.«121954_j7129645711840_1_alg».proof.Proof.Graph
import proofs.«121954_j7129645711840_1_alg».proof.Proof.GlueStretch
import proofs.«121954_j7129645711840_1_alg».proof.Proof.KernelFn

set_option maxRecDepth 16384

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The sources, destinations and edge weights as the first host stretch leaves them. -/
abbrev gsrc := W1 m ρ c (Proc.devRef .tc main_v3)
abbrev gdst := W1 m ρ c (Proc.devRef .tc main_v6)
abbrev gnrm := W1 m ρ c (Proc.devRef .tc main_v26)

/-- Launch 0: the first dense product. -/
theorem v27_eq : W2 m ρ c (Proc.devRef .tc main_v27) = Cert.Spec.mm128 (m ((c : Thread nD τ).loc main_arg0)) (m ((c : Thread nD τ).loc main_arg2)) :=
  (W2_arr m ρ c 2).trans ((region0 (V1 m ρ) c).trans
    (congrArg₂ Cert.Spec.mm128 (W1_arg0_W0 m ρ c) (W1_arg2_W0 m ρ c)))

/-- Stretch 1: the first aggregation. -/
theorem v43_eq : W3 m ρ c (Proc.devRef .tc main_v43)
    = Cert.Graph.agg (F := Ideal) (Cert.Spec.mm128 (m ((c : Thread nD τ).loc main_arg0)) (m ((c : Thread nD τ).loc main_arg2))) (gsrc m ρ c) (gdst m ρ c) (gnrm m ρ c) (m ((c : Thread nD τ).loc main_arg3)) :=
  (Cert.Graph.stretch1 (W2 m ρ c)).trans (by
    rw [v27_eq m ρ c, W2_v3_W1 m ρ c, W2_v6_W1 m ρ c, W2_v26_W1 m ρ c, W2_arg3_W0 m ρ c]; try rfl)

/-- Launch 1: the two column sums of the first layer's pre-normalisation output. -/
theorem v44_0_eq : W4 m ρ c (Proc.devRef .tc main_v44_0) = Cert.Spec.colsum (W3 m ρ c (Proc.devRef .tc main_v43)) :=
  (W4_arr m ρ c 1).trans (region1_sum (V3 m ρ) c)
theorem v44_1_eq : W4 m ρ c (Proc.devRef .tc main_v44_1) = Cert.Spec.colsum (Cert.Spec.sq (W3 m ρ c (Proc.devRef .tc main_v43))) :=
  (W4_arr m ρ c 2).trans (region1_sumsq (V3 m ρ) c)

/-- Stretch 2 and launch 2: the first layer's output. -/
theorem v59_eq : W6 m ρ c (Proc.devRef .tc main_v59)
    = Cert.KernelFn.y1 (m ((c : Thread nD τ).loc main_arg0)) (m ((c : Thread nD τ).loc main_arg2)) (m ((c : Thread nD τ).loc main_arg3)) (m ((c : Thread nD τ).loc main_arg4)) (m ((c : Thread nD τ).loc main_arg5)) (gsrc m ρ c) (gdst m ρ c) (gnrm m ρ c) :=
  (W6_arr m ρ c 3).trans ((region2 (V5 m ρ) c).trans (by
    show Cert.Spec.affRelu (W5 m ρ c (Proc.devRef .tc main_v43)) (W5 m ρ c (Proc.devRef .tc main_v55)) (W5 m ρ c (Proc.devRef .tc main_v58)) = _
    rw [show W5 m ρ c (Proc.devRef .tc main_v55) = _ from Cert.GlueStretch.scale1 (W4 m ρ c),
        show W5 m ρ c (Proc.devRef .tc main_v58) = _ from Cert.GlueStretch.shift1 (W4 m ρ c),
        W5_v43_W3 m ρ c, v44_0_eq m ρ c, v44_1_eq m ρ c, v43_eq m ρ c, W4_arg4_W0 m ρ c, W4_arg5_W0 m ρ c]
    rfl))

/-- Launch 3 and stretch 4: the second dense product and aggregation. -/
theorem v60_eq : W7 m ρ c (Proc.devRef .tc main_v60) = Cert.Spec.mm64 (W6 m ρ c (Proc.devRef .tc main_v59)) (m ((c : Thread nD τ).loc main_arg6)) :=
  (W7_arr m ρ c 2).trans ((region3 (V6 m ρ) c).trans
    (congrArg₂ Cert.Spec.mm64 rfl (W6_arg6_W0 m ρ c)))
theorem v76_eq : W8 m ρ c (Proc.devRef .tc main_v76)
    = Cert.Graph.agg (F := Ideal) (Cert.Spec.mm64 (W6 m ρ c (Proc.devRef .tc main_v59)) (m ((c : Thread nD τ).loc main_arg6))) (gsrc m ρ c) (gdst m ρ c) (gnrm m ρ c) (m ((c : Thread nD τ).loc main_arg7)) :=
  (Cert.Graph.stretch4 (W7 m ρ c)).trans (by
    rw [v60_eq m ρ c, W7_v3_W1 m ρ c, W7_v6_W1 m ρ c, W7_v26_W1 m ρ c, W7_arg7_W0 m ρ c]; try rfl)

/-- Launch 4: the second layer's two column sums. -/
theorem v77_0_eq : W9 m ρ c (Proc.devRef .tc main_v77_0) = Cert.Spec.colsum (W8 m ρ c (Proc.devRef .tc main_v76)) :=
  (W9_arr m ρ c 1).trans (region4_sum (V8 m ρ) c)
theorem v77_1_eq : W9 m ρ c (Proc.devRef .tc main_v77_1) = Cert.Spec.colsum (Cert.Spec.sq (W8 m ρ c (Proc.devRef .tc main_v76))) :=
  (W9_arr m ρ c 2).trans (region4_sumsq (V8 m ρ) c)

/-- Stretch 5 and launch 5: the second layer's output. -/
theorem v92_eq : W11 m ρ c (Proc.devRef .tc main_v92)
    = Cert.KernelFn.y2 (W6 m ρ c (Proc.devRef .tc main_v59)) (m ((c : Thread nD τ).loc main_arg6)) (m ((c : Thread nD τ).loc main_arg7)) (m ((c : Thread nD τ).loc main_arg8)) (m ((c : Thread nD τ).loc main_arg9)) (gsrc m ρ c) (gdst m ρ c) (gnrm m ρ c) :=
  (W11_arr m ρ c 3).trans ((region5 (V10 m ρ) c).trans (by
    show Cert.Spec.affRelu (W10 m ρ c (Proc.devRef .tc main_v76)) (W10 m ρ c (Proc.devRef .tc main_v88)) (W10 m ρ c (Proc.devRef .tc main_v91)) = _
    rw [show W10 m ρ c (Proc.devRef .tc main_v88) = _ from Cert.GlueStretch.scale2 (W9 m ρ c),
        show W10 m ρ c (Proc.devRef .tc main_v91) = _ from Cert.GlueStretch.shift2 (W9 m ρ c),
        W10_v76_W8 m ρ c, v77_0_eq m ρ c, v77_1_eq m ρ c, v76_eq m ρ c, W9_arg8_W0 m ρ c, W9_arg9_W0 m ρ c]
    rfl))

/-- Launch 6 and stretch 7: the third dense product and aggregation, and the bias row. -/
theorem v93_eq : W12 m ρ c (Proc.devRef .tc main_v93) = Cert.Spec.mm64 (W11 m ρ c (Proc.devRef .tc main_v92)) (m ((c : Thread nD τ).loc main_arg10)) :=
  (W12_arr m ρ c 2).trans ((region6 (V11 m ρ) c).trans
    (congrArg₂ Cert.Spec.mm64 rfl (W11_arg10_W0 m ρ c)))
theorem v109_eq : W13 m ρ c (Proc.devRef .tc main_v109)
    = Cert.KernelFn.h3 (W11 m ρ c (Proc.devRef .tc main_v92)) (m ((c : Thread nD τ).loc main_arg10)) (m ((c : Thread nD τ).loc main_arg11)) (gsrc m ρ c) (gdst m ρ c) (gnrm m ρ c) :=
  (Cert.Graph.stretch7 (W12 m ρ c)).trans (by
    rw [v93_eq m ρ c, W12_v3_W1 m ρ c, W12_v6_W1 m ρ c, W12_v26_W1 m ρ c, W12_arg11_W0 m ρ c]; try rfl)
theorem v110_eq : W13 m ρ c (Proc.devRef .tc main_v110) = broadcastInDim S1x40 ![1] bcast_S40_S1x40_1 (m ((c : Thread nD τ).loc main_arg13)) :=
  (Cert.Graph.stretch7_bias (W12 m ρ c)).trans (by rw [W12_arg13_W0 m ρ c]; try rfl)

/-- Launch 7: the result. -/
theorem v111_eq : W14 m ρ c (Proc.devRef .tc main_v111)
    = Cert.KernelFn.out (W6 m ρ c (Proc.devRef .tc main_v59)) (W11 m ρ c (Proc.devRef .tc main_v92)) (W13 m ρ c (Proc.devRef .tc main_v109)) (m ((c : Thread nD τ).loc main_arg12)) (m ((c : Thread nD τ).loc main_arg13)) :=
  (W14_arr m ρ c 5).trans ((region7 (V13 m ρ) c).trans (by
    show Cert.Spec.jk (W13 m ρ c (Proc.devRef .tc main_v59)) (W13 m ρ c (Proc.devRef .tc main_v92)) (W13 m ρ c (Proc.devRef .tc main_v109)) (W13 m ρ c (Proc.devRef .tc main_arg12)) (W13 m ρ c (Proc.devRef .tc main_v110)) = _
    rw [W13_v59_W6 m ρ c, W13_v92_W11 m ρ c, W13_arg12_W0 m ρ c, v110_eq m ρ c]
    rfl))

/-- The result buffer as the kernel's function of the arguments' launch contents and the graph arrays. -/
theorem result_eq : W14 m ρ c (Proc.devRef .tc main_v111)
    = Cert.KernelFn.out
        (Cert.KernelFn.y1 (m ((c : Thread nD τ).loc main_arg0)) (m ((c : Thread nD τ).loc main_arg2)) (m ((c : Thread nD τ).loc main_arg3)) (m ((c : Thread nD τ).loc main_arg4)) (m ((c : Thread nD τ).loc main_arg5)) (gsrc m ρ c) (gdst m ρ c) (gnrm m ρ c))
        (Cert.KernelFn.y2 (Cert.KernelFn.y1 (m ((c : Thread nD τ).loc main_arg0)) (m ((c : Thread nD τ).loc main_arg2)) (m ((c : Thread nD τ).loc main_arg3)) (m ((c : Thread nD τ).loc main_arg4)) (m ((c : Thread nD τ).loc main_arg5)) (gsrc m ρ c) (gdst m ρ c) (gnrm m ρ c))
          (m ((c : Thread nD τ).loc main_arg6)) (m ((c : Thread nD τ).loc main_arg7)) (m ((c : Thread nD τ).loc main_arg8)) (m ((c : Thread nD τ).loc main_arg9)) (gsrc m ρ c) (gdst m ρ c) (gnrm m ρ c))
        (Cert.KernelFn.h3 (Cert.KernelFn.y2 (Cert.KernelFn.y1 (m ((c : Thread nD τ).loc main_arg0)) (m ((c : Thread nD τ).loc main_arg2)) (m ((c : Thread nD τ).loc main_arg3)) (m ((c : Thread nD τ).loc main_arg4)) (m ((c : Thread nD τ).loc main_arg5)) (gsrc m ρ c) (gdst m ρ c) (gnrm m ρ c))
          (m ((c : Thread nD τ).loc main_arg6)) (m ((c : Thread nD τ).loc main_arg7)) (m ((c : Thread nD τ).loc main_arg8)) (m ((c : Thread nD τ).loc main_arg9)) (gsrc m ρ c) (gdst m ρ c) (gnrm m ρ c))
          (m ((c : Thread nD τ).loc main_arg10)) (m ((c : Thread nD τ).loc main_arg11)) (gsrc m ρ c) (gdst m ρ c) (gnrm m ρ c))
        (m ((c : Thread nD τ).loc main_arg12)) (m ((c : Thread nD τ).loc main_arg13)) := by
  rw [v111_eq m ρ c, v109_eq m ρ c, v92_eq m ρ c, v59_eq m ρ c]

end Cert.KernelIdeal.Val

end
-- ==== Proof.Stretch0.lean ====
/-
  The kernel's program begins, before its first launch, by building from the edge list the three arrays every
  aggregation reads: the source and the destination index of each of the 1700000 edges (the 1600000 given ones
  followed by one self-loop per node), and the edge weights (the product of the two endpoints' inverse square-root
  degrees, the degree counted at the destinations). The reference builds the same three arrays by the same
  operations in the same order. So what the kernel's first host stretch leaves in those three buffers is the
  reference's stage of the same number applied to the edge-list argument, from ANY buffer contents at the
  stretch's entry.
-/
import proofs.«121954_j7129645711840_1_alg».proof.Proof.RefReadP
import proofs.«121954_j7129645711840_1_alg».proof.Proof.Gen.KernelIdeal.Launch
import Idealize.ShloMosaic.Lib.StableHlo.Run

set_option maxRecDepth 16384

noncomputable section

namespace Cert.Stretch0

open Cert.KernelIdeal Cert.KernelIdeal.Facts₀ Cert.KernelIdeal.Gen Idealize.ShloMosaic Idealize.ShloMosaic.StableHlo

variable {F : FTy → Type} [FloatOps F]

/-- The source indices: the edge list's first row followed by the node numbers. -/
theorem src_eq (W : Valuation τ sig (Elt F)) :
    StableHlo.after (hostOps0 (F := F)) W (Proc.devRef .tc main_v3)
      = Cert.ReferenceIdeal.Read.val_main_v3 (F := F) (W (Proc.devRef .tc main_arg1)) := by
  dsimp only [hostOps0]; after_results_simp
  unfold Cert.ReferenceIdeal.Read.val_main_v3 Cert.ReferenceIdeal.Read.val_main_v2 Cert.ReferenceIdeal.Read.val_main_v1 Cert.ReferenceIdeal.Read.val_main_v0
  rfl

/-- The destination indices: the edge list's second row followed by the node numbers. -/
theorem dst_eq (W : Valuation τ sig (Elt F)) :
    StableHlo.after (hostOps0 (F := F)) W (Proc.devRef .tc main_v6)
      = Cert.ReferenceIdeal.Read.val_main_v6 (F := F) (W (Proc.devRef .tc main_arg1)) := by
  dsimp only [hostOps0]; after_results_simp
  unfold Cert.ReferenceIdeal.Read.val_main_v6 Cert.ReferenceIdeal.Read.val_main_v5 Cert.ReferenceIdeal.Read.val_main_v4 Cert.ReferenceIdeal.Read.val_main_v0
  rfl

/-- The edge weights. -/
theorem nrm_eq (W : Valuation τ sig (Elt F)) :
    StableHlo.after (hostOps0 (F := F)) W (Proc.devRef .tc main_v26)
      = Cert.ReferenceIdeal.Read.val_main_v26 (F := F) (W (Proc.devRef .tc main_arg1)) := by
  dsimp only [hostOps0]; after_results_simp
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_c_3 Cert.ReferenceIdeal.Read.val_main_v20 Cert.ReferenceIdeal.Read.val_main_v19 Cert.ReferenceIdeal.Read.val_main_c_2 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_c_1 Cert.ReferenceIdeal.Read.val_main_v13 Cert.ReferenceIdeal.Read.val_main_v12 Cert.ReferenceIdeal.Read.val_main_c Cert.ReferenceIdeal.Read.val_main_v11 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

end Cert.Stretch0

end
-- ==== Proof.BNBridge.lean ====
/- The kernel's per-channel scale and shift rows read at a channel, and the normalising launch's entry
   (one multiply-add with that scale and shift, clipped below at zero) identified with the centred form
   of batch normalisation: subtract the channel's mean, multiply by the reciprocal square root of the
   mean squared deviation plus epsilon, scale, shift, clip.  The identification is the column algebra of
   Proof/BNAlgebra.lean at the column of 100000 rows of one channel; it needs every entry real. -/
import proofs.«121954_j7129645711840_1_alg».proof.Proof.Glue
import proofs.«121954_j7129645711840_1_alg».proof.Proof.Spec
import proofs.«121954_j7129645711840_1_alg».proof.Proof.BNAlgebra
import Idealize.ShloMosaic.Lib.ValueIdx
import Idealize.ShloMosaic.Lib.Pipeline.Value

noncomputable section

namespace Cert.BNBridge

open Idealize.ShloMosaic Idealize.ShloMosaic.ValueIdx Cert.BNAlgebra
open scoped BigOperators

/-- The divisor literal (the number of rows, 100000). -/
local notation "C" => Ideal.ofBits FTy.f32 0x47C35000#32
/-- The epsilon literal. -/
local notation "E" => Ideal.ofBits FTy.f32 0x3727C5AC#32

/-- The host's quotient at an index is the extended reals' division of the elements. -/
theorem hostDivf_at {s : Shape} {φ : FTy} (a b : FVec Ideal s φ) (i : s.Idx) :
    Host.divf a b i = Ideal.div (a i) (b i) := rfl

/-- The host's reciprocal square root at an index is that of the element. -/
theorem hostRsqrt_at {s : Shape} {φ : FTy} (a : FVec Ideal s φ) (i : s.Idx) :
    Host.rsqrt a i = Ideal.rsqrt (a i) := rfl

/-- A scalar literal broadcast to a 1×64 row reads the literal's value at every index. -/
theorem bcast_const_at (hb : Cert.KernelIdeal.S_.BroadcastsInDim Cert.KernelIdeal.S1x64 ![]) (b : BitVec 32)
    (j : Cert.KernelIdeal.S1x64.Idx) :
    broadcastInDim Cert.KernelIdeal.S1x64 ![] hb (constant (F := Ideal) Cert.KernelIdeal.S_ .f32 b) j
      = Ideal.ofBits .f32 b :=
  broadcastInDim_apply _ hb (constant (F := Ideal) Cert.KernelIdeal.S_ .f32 b) j ix0 (fun a => a.elim0)

/-- A 64-vector broadcast along axis 1 to a 1×64 row reads the vector at the channel. -/
theorem bcast_vec_at (hb : Cert.KernelIdeal.S64.BroadcastsInDim Cert.KernelIdeal.S1x64 ![1])
    (g : FVec Ideal Cert.KernelIdeal.S64 .f32) (c : Fin 64) :
    broadcastInDim Cert.KernelIdeal.S1x64 ![1] hb g (ix2 (0 : Fin 1) c) = g (ix1 c) :=
  broadcastInDim_apply _ hb g (ix2 (0 : Fin 1) c) (ix1 c) (fun a => match a with
    | ⟨0, _⟩ => by show c.val = if (64 : Nat) = 1 then 0 else c.val; rw [if_neg (by decide)])

/-- The scale row at a channel: g · rsqrt(q / n − (s / n)² + ε). -/
theorem scale_apply (s q : FVec Ideal Cert.KernelIdeal.S1x64 .f32) (g : FVec Ideal Cert.KernelIdeal.S64 .f32) (c : Fin 64) :
    Cert.Glue.scale (F := Ideal) s q g (ix2 (0 : Fin 1) c)
      = g (ix1 c) * Ideal.rsqrt ((Ideal.div (q (ix2 (0 : Fin 1) c)) C
          - Ideal.div (s (ix2 (0 : Fin 1) c)) C * Ideal.div (s (ix2 (0 : Fin 1) c)) C) + E) := by
  unfold Cert.Glue.scale
  simp only [mulf_apply, addf_apply, subf_apply, hostDivf_at, hostRsqrt_at]
  rw [bcast_vec_at, bcast_const_at, bcast_const_at]

/-- The shift row at a channel: β − (s / n) · scale. -/
theorem shift_apply (s q : FVec Ideal Cert.KernelIdeal.S1x64 .f32) (g β : FVec Ideal Cert.KernelIdeal.S64 .f32) (c : Fin 64) :
    Cert.Glue.shift (F := Ideal) s q g β (ix2 (0 : Fin 1) c)
      = β (ix1 c) - Ideal.div (s (ix2 (0 : Fin 1) c)) C
          * (g (ix1 c) * Ideal.rsqrt ((Ideal.div (q (ix2 (0 : Fin 1) c)) C
              - Ideal.div (s (ix2 (0 : Fin 1) c)) C * Ideal.div (s (ix2 (0 : Fin 1) c)) C) + E)) := by
  unfold Cert.Glue.shift
  simp only [mulf_apply, subf_apply, hostDivf_at, scale_apply]
  rw [bcast_vec_at, bcast_const_at]

/-- The normalising launch's entry, with the kernel's scale and shift computed from the column sums of the
    array and of its square, is the centred batch normalisation of that entry, clipped below at zero. -/
theorem bn_bridge (h : Cert.Spec.N64.Idx → EReal) (g β : Cert.KernelIdeal.S64.Idx → EReal) (hh : ∀ i, IsReal (h i))
    (hg : ∀ i, IsReal (g i)) (hβ : ∀ i, IsReal (β i)) (n : Fin 100000) (c : Fin 64) :
    Cert.Spec.affRelu h (Cert.Glue.scale (F := Ideal) (Cert.Spec.colsum h) (Cert.Spec.colsum (Cert.Spec.sq h)) g)
        (Cert.Glue.shift (F := Ideal) (Cert.Spec.colsum h) (Cert.Spec.colsum (Cert.Spec.sq h)) g β) (ix2 n c)
      = max ((h (ix2 n c) - Ideal.div (∑ r : Fin 100000, h (ix2 r c)) C)
            * Ideal.rsqrt (Ideal.div (∑ r : Fin 100000, (h (ix2 r c) - Ideal.div (∑ r : Fin 100000, h (ix2 r c)) C)
                * (h (ix2 r c) - Ideal.div (∑ r : Fin 100000, h (ix2 r c)) C)) C + E)
            * g (ix1 c) + β (ix1 c)) 0 := by
  rw [Cert.Spec.affRelu_ix, scale_apply, shift_apply, Cert.Spec.colsum_ix, Cert.Spec.colsum_ix]
  refine congrArg (fun y => max y 0) ?_
  exact bn_column (ι := Fin 100000) (fun r => h (ix2 r c)) (g (ix1 c)) (β (ix1 c)) C E (fun r => hh _) (hg _) (hβ _)
    ofBits_1e5_card (by rw [Fintype.card_fin]; decide) ofBits_eps n

/-- That entry is a real. -/
theorem bn_bridge_isReal (h : Cert.Spec.N64.Idx → EReal) (g β : Cert.KernelIdeal.S64.Idx → EReal) (hh : ∀ i, IsReal (h i))
    (hg : ∀ i, IsReal (g i)) (hβ : ∀ i, IsReal (β i)) (n : Fin 100000) (c : Fin 64) :
    IsReal (Cert.Spec.affRelu h (Cert.Glue.scale (F := Ideal) (Cert.Spec.colsum h) (Cert.Spec.colsum (Cert.Spec.sq h)) g)
        (Cert.Glue.shift (F := Ideal) (Cert.Spec.colsum h) (Cert.Spec.colsum (Cert.Spec.sq h)) g β) (ix2 n c)) := by
  rw [Cert.Spec.affRelu_ix, scale_apply, shift_apply, Cert.Spec.colsum_ix, Cert.Spec.colsum_ix]
  refine isReal_max ?_ isReal_zero
  exact bn_column_isReal (ι := Fin 100000) (fun r => h (ix2 r c)) (g (ix1 c)) (β (ix1 c)) C E (fun r => hh _) (hg _) (hβ _)
    ofBits_1e5_card (by rw [Fintype.card_fin]; decide) ofBits_eps n

/-- The same identification with each column sum written with a leading zero, as a reduction that starts
    from zero spells it. -/
theorem bn_bridge_zero_add (h : Cert.Spec.N64.Idx → EReal) (g β : Cert.KernelIdeal.S64.Idx → EReal) (hh : ∀ i, IsReal (h i))
    (hg : ∀ i, IsReal (g i)) (hβ : ∀ i, IsReal (β i)) (n : Fin 100000) (c : Fin 64) :
    Cert.Spec.affRelu h (Cert.Glue.scale (F := Ideal) (Cert.Spec.colsum h) (Cert.Spec.colsum (Cert.Spec.sq h)) g)
        (Cert.Glue.shift (F := Ideal) (Cert.Spec.colsum h) (Cert.Spec.colsum (Cert.Spec.sq h)) g β) (ix2 n c)
      = max ((h (ix2 n c) - Ideal.div (0 + ∑ r : Fin 100000, h (ix2 r c)) C)
            * Ideal.rsqrt (Ideal.div (0 + ∑ r : Fin 100000, (h (ix2 r c) - Ideal.div (0 + ∑ r : Fin 100000, h (ix2 r c)) C)
                * (h (ix2 r c) - Ideal.div (0 + ∑ r : Fin 100000, h (ix2 r c)) C)) C + E)
            * g (ix1 c) + β (ix1 c)) 0 := by
  simp only [zero_add]
  exact bn_bridge h g β hh hg hβ n c

end Cert.BNBridge

end
-- ==== Proof.RefMax3.lean ====
/-
  The entrywise maximum of three arrays in the form a max-reduce gives it: the three arrays, each carrying a leading
  axis of extent one, are joined along that axis into one [3, 100000, 64] array, and the joined axis is folded with
  `max` from an initial value. At entry (n, c) the fold runs over exactly three values — the three arrays' entries
  there — so it is max (max (max init a) b) c; from −∞ (the bottom of the extended reals) it is max (max a b) c.
-/
import Idealize.ShloMosaic.Lib.Pipeline.Value
import Idealize.ShloMosaic.Lib.ValueIdx
import Idealize.ShloMosaic.PureOps.Ideal.Laws
import Idealize.ShloMosaic.PureOps.Reduce

noncomputable section

namespace Cert.RefMax3

open Idealize.ShloMosaic Idealize.ShloMosaic.ValueIdx

/-- One array with a leading unit axis; the three joined; one array; the scalar shape. -/
abbrev P : Shape := ⟨3, ![1, 100000, 64]⟩
abbrev T : Shape := ⟨3, ![3, 100000, 64]⟩
abbrev N : Shape := ⟨2, ![100000, 64]⟩
abbrev S0 : Shape := ⟨0, ![]⟩

/-- A fold over three values of a commutative, associative operation, written out from the initial value. -/
theorem fold_univ_fin3 {α : Type} (f : α → α → α) [Std.Commutative f] [Std.Associative f] (b : α) (g : Fin 3 → α) :
    (Finset.univ : Finset (Fin 3)).fold f b g = f (f (f b (g 0)) (g 1)) (g 2) := by
  simp only [Fin.univ_succ, Finset.fold_cons, Finset.fold_map, Finset.univ_unique, Finset.fold_singleton]
  show f (g 0) (f (g 1) (f (g 2) b)) = _
  ac_rfl

section Join
variable {α : Type} (A B C : P.Idx → α) (h : Shape.Concatenates [P, P, P] T 0) (n : Fin 100000) (c : Fin 64)

/-- The joined array at (0, n, c) is the first piece at (0, n, c). -/
theorem join_0 : concatenate T 0 [⟨P, A⟩, ⟨P, B⟩, ⟨P, C⟩] h (ix3 0 n c) = A (ix3 0 n c) :=
  concatenate_apply_piece (0 : Fin T.rank) [⟨P, A⟩, ⟨P, B⟩, ⟨P, C⟩] h (ix3 0 n c) 0 (show 0 < 3 by omega) P A rfl rfl 0 rfl (ix3 0 n c)
    (fun b hb => by match b with | ⟨0, _⟩ => exact absurd rfl hb | ⟨1, _⟩ => rfl | ⟨2, _⟩ => rfl) rfl

/-- The joined array at (1, n, c) is the second piece at (0, n, c). -/
theorem join_1 : concatenate T 0 [⟨P, A⟩, ⟨P, B⟩, ⟨P, C⟩] h (ix3 1 n c) = B (ix3 0 n c) :=
  concatenate_apply_piece (0 : Fin T.rank) [⟨P, A⟩, ⟨P, B⟩, ⟨P, C⟩] h (ix3 1 n c) 1 (show 1 < 3 by omega) P B rfl rfl 1 rfl (ix3 0 n c)
    (fun b hb => by match b with | ⟨0, _⟩ => exact absurd rfl hb | ⟨1, _⟩ => rfl | ⟨2, _⟩ => rfl) rfl

/-- The joined array at (2, n, c) is the third piece at (0, n, c). -/
theorem join_2 : concatenate T 0 [⟨P, A⟩, ⟨P, B⟩, ⟨P, C⟩] h (ix3 2 n c) = C (ix3 0 n c) :=
  concatenate_apply_piece (0 : Fin T.rank) [⟨P, A⟩, ⟨P, B⟩, ⟨P, C⟩] h (ix3 2 n c) 2 (show 2 < 3 by omega) P C rfl rfl 2 rfl (ix3 0 n c)
    (fun b hb => by match b with | ⟨0, _⟩ => exact absurd rfl hb | ⟨1, _⟩ => rfl | ⟨2, _⟩ => rfl) rfl

end Join

/-- Entry (n, c) of the reduced shape with coordinate `k` put back on the joined axis is (k, n, c). -/
theorem lift_ix3 (h : T.Reduces [0] N) (n : Fin 100000) (c : Fin 64) (k : Fin (T.size 0)) :
    h.lift (ix2 n c) k = ix3 (⟨k.val, k.isLt⟩ : Fin 3) n c := by
  funext d; apply Fin.ext
  fin_cases d <;> rfl

/-- The max-reduce of the joined array over the joined axis, at (n, c): the fold of the three entries there. -/
theorem max3_init (A B C : P.Idx → Ideal .f32) (hc : Shape.Concatenates [P, P, P] T 0) (h' : T.ReducesTo [0] N)
    (hu : 0 < S0.numel) (init : S0.Idx → Ideal .f32) (n : Fin 100000) (c : Fin 64) :
    Host.reduce FloatOps.maximumf (concatenate T 0 [⟨P, A⟩, ⟨P, B⟩, ⟨P, C⟩] hc) init h' hu (ix2 n c)
      = max (max (max (init (Shape.Idx.first hu)) (A (ix3 0 n c))) (B (ix3 0 n c))) (C (ix3 0 n c)) := by
  have h : T.Reduces [0] N := by decide
  rw [Host.reduce_eq_fold_single FloatOps.maximumf _ init h' h hu]
  have e := fold_univ_fin3 (max : Ideal .f32 → Ideal .f32 → Ideal .f32) (init (Shape.Idx.first hu))
    (fun k : Fin 3 => concatenate T 0 [⟨P, A⟩, ⟨P, B⟩, ⟨P, C⟩] hc (ix3 k n c))
  rw [join_0 A B C hc n c, join_1 A B C hc n c, join_2 A B C hc n c] at e
  refine Eq.trans ?_ e
  have hf : (concatenate T 0 [⟨P, A⟩, ⟨P, B⟩, ⟨P, C⟩] hc ∘ h.lift (ix2 n c))
      = fun k : Fin 3 => concatenate T 0 [⟨P, A⟩, ⟨P, B⟩, ⟨P, C⟩] hc (ix3 k n c) :=
    funext fun k => congrArg (concatenate T 0 [⟨P, A⟩, ⟨P, B⟩, ⟨P, C⟩] hc) (lift_ix3 h n c k)
  exact congrArg (fun f => Finset.fold max (init (Shape.Idx.first hu)) f (Finset.univ : Finset (Fin 3))) hf

/-- The word 0xFF800000 is −∞, the bottom of the extended reals. -/
theorem ofBits_negInf : Ideal.ofBits .f32 0xFF800000#32 = (⊥ : EReal) := by simp [Ideal.ofBits, Ideal.ieee]

/-- From −∞ the max-reduce of the joined array at (n, c) is the maximum of the three entries there. -/
theorem max3_apply (A B C : P.Idx → Ideal .f32) (hc : Shape.Concatenates [P, P, P] T 0) (h' : T.ReducesTo [0] N)
    (hu : 0 < S0.numel) (n : Fin 100000) (c : Fin 64) :
    Host.reduce FloatOps.maximumf (concatenate T 0 [⟨P, A⟩, ⟨P, B⟩, ⟨P, C⟩] hc)
        (constant (F := Ideal) S0 .f32 0xFF800000#32) h' hu (ix2 n c)
      = max (max (A (ix3 0 n c)) (B (ix3 0 n c))) (C (ix3 0 n c)) := by
  rw [max3_init A B C hc h' hu _ n c]
  show max (max (max (Ideal.ofBits .f32 0xFF800000#32) _) _) _ = _
  rw [ofBits_negInf, max_eq_right (bot_le : (⊥ : EReal) ≤ A (ix3 0 n c))]

end Cert.RefMax3

end
-- ==== Proof.RefRead.lean ====
/-
  The reference program's stages, read entry by entry on the extended reals, in the specification's terms.
  * The three dense layers are the specification's matrix products.
  * Each of the two normalisation stages, read at entry (n, c) over its input array kept as one name, is `norm`:
    (h (n, c) − mean) · rsqrt (mean of squared deviations + offset) · scale c + shift c, clipped below at zero.
  * The program's result is the specification's last stage over the two layers' outputs and the third aggregation's
    result: their entrywise maximum through the 64-to-40 dense layer, plus the bias row.
-/
import proofs.«121954_j7129645711840_1_alg».proof.Proof.RefReadP
import proofs.«121954_j7129645711840_1_alg».proof.Proof.Spec
import proofs.«121954_j7129645711840_1_alg».proof.Proof.RefMax3
import Idealize.ShloMosaic.Lib.ValueIdx
import Idealize.ShloMosaic.Lib.Pipeline.Value
import Idealize.ShloMosaic.PureOps.Ideal.Laws

noncomputable section

open scoped BigOperators

namespace Cert.RefRead

open Cert.ReferenceIdeal Cert.ReferenceIdeal.Read Idealize.ShloMosaic Idealize.ShloMosaic.ValueIdx

/-! ## (1) The dense layers

A `dot_general` contracting the left operand's columns with the right operand's rows is, entry by entry, the sum over
the contracted coordinate k of left (n, k) · right (k, c). -/

theorem lidx27 (i : S100000x64.Idx) (k : Fin 128) :
    lidx_main_v27 i k = ix2 (⟨(i 0).val, idx2_lt0 i⟩ : Fin 100000) k := funext fun a => Fin.ext (by match a with | ⟨0, _⟩ => rfl | ⟨1, _⟩ => rfl)
theorem ridx27 (i : S100000x64.Idx) (k : Fin 128) :
    ridx_main_v27 i k = ix2 k (⟨(i 1).val, idx2_lt1 i⟩ : Fin 64) := funext fun a => Fin.ext (by match a with | ⟨0, _⟩ => rfl | ⟨1, _⟩ => rfl)
theorem lidx70 (i : S100000x64.Idx) (k : Fin 64) :
    lidx_main_v70 i k = ix2 (⟨(i 0).val, idx2_lt0 i⟩ : Fin 100000) k := funext fun a => Fin.ext (by match a with | ⟨0, _⟩ => rfl | ⟨1, _⟩ => rfl)
theorem ridx70 (i : S100000x64.Idx) (k : Fin 64) :
    ridx_main_v70 i k = ix2 k (⟨(i 1).val, idx2_lt1 i⟩ : Fin 64) := funext fun a => Fin.ext (by match a with | ⟨0, _⟩ => rfl | ⟨1, _⟩ => rfl)

/-- The first dense layer is the 128-to-64 product of the node features with the first weight matrix. -/
theorem v27_eq (x0 : (⟨S100000x128, .f32⟩ : BufTy).Contents (Elt Ideal)) (x2 : (⟨S128x64, .f32⟩ : BufTy).Contents (Elt Ideal)) :
    val_main_v27 (F := Ideal) x0 x2 = Cert.Spec.mm128 x0 x2 := by
  funext i
  rw [val_main_v27_apply]
  exact Finset.sum_congr rfl fun k _ => by rw [lidx27, ridx27]

/-- The second dense layer is the 64-to-64 product of the first layer's output with the second weight matrix. -/
theorem v70_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) :
    val_main_v70 (F := Ideal) x0 x1 x2 x3 x4 x5 x6 = Cert.Spec.mm64 (val_main_v69 (F := Ideal) x0 x1 x2 x3 x4 x5) x6 := by
  funext i
  rw [val_main_v70_apply]
  exact Finset.sum_congr rfl fun k _ => by rw [lidx70, ridx70]

theorem lidx113 (i : S100000x64.Idx) (k : Fin 64) :
    lidx_main_v113 i k = ix2 (⟨(i 0).val, idx2_lt0 i⟩ : Fin 100000) k := funext fun a => Fin.ext (by match a with | ⟨0, _⟩ => rfl | ⟨1, _⟩ => rfl)
theorem ridx113 (i : S100000x64.Idx) (k : Fin 64) :
    ridx_main_v113 i k = ix2 k (⟨(i 1).val, idx2_lt1 i⟩ : Fin 64) := funext fun a => Fin.ext (by match a with | ⟨0, _⟩ => rfl | ⟨1, _⟩ => rfl)

/-- The third dense layer is the 64-to-64 product of the second layer's output with the third weight matrix. -/
theorem v113_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) :
    val_main_v113 (F := Ideal) x0 x1 x2 x3 x4 x5 x6 x7 x8 x9 x10 = Cert.Spec.mm64 (val_main_v112 (F := Ideal) x0 x1 x2 x3 x4 x5 x6 x7 x8 x9) x10 := by
  funext i
  rw [val_main_v113_apply]
  exact Finset.sum_congr rfl fun k _ => by rw [lidx113, ridx113]

/-! ## (2) The normalisation stage

Per channel c the mean over the 100000 nodes, the mean of the squared deviations, the reciprocal square root of that
plus a small offset; each entry's deviation from the mean times that factor, times the channel's scale, plus the
channel's shift, clipped below at zero. The stage's input array `h` is kept as one name throughout. -/

/-- The channel's mean: the sum over the nodes divided by the node count 1e5 (the word 0x47C35000). -/
def mean (h : Cert.Spec.N64.Idx → EReal) (c : Fin 64) : EReal :=
  Ideal.div (∑ r : Fin 100000, h (ix2 r c)) (Ideal.ofBits .f32 0x47C35000#32)

/-- The normalised, scaled, shifted and clipped entry (n, c), the factors in the order the program multiplies them;
    the offset under the root is the word 0x3727C5AC (about 1e-5). -/
def norm (h : Cert.Spec.N64.Idx → EReal) (g b : (⟨1, ![64]⟩ : Shape).Idx → EReal) (n : Fin 100000) (c : Fin 64) : EReal :=
  max ((h (ix2 n c) - mean h c)
        * Ideal.rsqrt (Ideal.div (∑ r : Fin 100000, (h (ix2 r c) - mean h c) * (h (ix2 r c) - mean h c))
              (Ideal.ofBits .f32 0x47C35000#32) + Ideal.ofBits .f32 0x3727C5AC#32)
        * g (ix1 c) + b (ix1 c)) 0

theorem e47 (n : Fin 100000) (c : Fin 64) : idx_main_v47 (idx_main_v48 (ix2 n c)) = ix1 c := funext fun a => Fin.ext (by match a with | ⟨0, _⟩ => rfl)
theorem e54 (n : Fin 100000) (c : Fin 64) : idx_main_v54 (idx_main_v55 (ix2 n c)) = ix1 c := funext fun a => Fin.ext (by match a with | ⟨0, _⟩ => rfl)
theorem e60 (n : Fin 100000) (c : Fin 64) : idx_main_v60 (idx_main_v61 (ix2 n c)) = ix1 c := funext fun a => Fin.ext (by match a with | ⟨0, _⟩ => rfl)
theorem e63 (n : Fin 100000) (c : Fin 64) : idx_main_v63 (idx_main_v64 (ix2 n c)) = ix1 c := funext fun a => Fin.ext (by match a with | ⟨0, _⟩ => rfl)
theorem e66 (n : Fin 100000) (c : Fin 64) : idx_main_v66 (idx_main_v67 (ix2 n c)) = ix1 c := funext fun a => Fin.ext (by match a with | ⟨0, _⟩ => rfl)
theorem e44 (c : Fin 64) (k : Fin 100000) : idx_main_v44 (ix1 c) k = ix2 k c := funext fun a => Fin.ext (by match a with | ⟨0, _⟩ => rfl | ⟨1, _⟩ => rfl)
theorem e51 (c : Fin 64) (k : Fin 100000) : idx_main_v51 (ix1 c) k = ix2 k c := funext fun a => Fin.ext (by match a with | ⟨0, _⟩ => rfl | ⟨1, _⟩ => rfl)

/-- The channel's mean as the program computes it: zero plus the sum over the nodes, divided by the node count. -/
theorem v46_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (c : Fin 64) :
    val_main_v46 (F := Ideal) x0 x1 x2 x3 (ix1 c) = mean (val_main_v43 (F := Ideal) x0 x1 x2 x3) c := by
  rw [val_main_v46_apply, val_main_v44_apply, val_main_v45_apply, val_main_cst_7_apply, val_main_cst_8_apply, Ideal.hostDivf_def,
    Ideal.ofBits_def, Ideal.ofBits_zero_f32, zero_add, Ideal.ofBits_def]
  unfold mean
  exact congrArg (fun s => Ideal.div s (Ideal.ofBits .f32 0x47C35000#32)) (Finset.sum_congr rfl fun k _ => by rw [e44])

/-- An entry's deviation from its channel's mean (the copy that is squared). -/
theorem v49_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (r : Fin 100000) (c : Fin 64) :
    val_main_v49 (F := Ideal) x0 x1 x2 x3 (ix2 r c) = (val_main_v43 (F := Ideal) x0 x1 x2 x3) (ix2 r c) - mean (val_main_v43 (F := Ideal) x0 x1 x2 x3) c := by
  rw [val_main_v49_apply, val_main_v48_apply, val_main_v47_apply, e47, v46_read, Ideal.subf_def]

/-- An entry's deviation from its channel's mean (the copy that is scaled). -/
theorem v56_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (r : Fin 100000) (c : Fin 64) :
    val_main_v56 (F := Ideal) x0 x1 x2 x3 (ix2 r c) = (val_main_v43 (F := Ideal) x0 x1 x2 x3) (ix2 r c) - mean (val_main_v43 (F := Ideal) x0 x1 x2 x3) c := by
  rw [val_main_v56_apply, val_main_v55_apply, val_main_v54_apply, e54, v46_read, Ideal.subf_def]

/-- The channel's factor: the reciprocal square root of the mean squared deviation plus the offset. -/
theorem v59_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (c : Fin 64) :
    val_main_v59 (F := Ideal) x0 x1 x2 x3 (ix1 c)
      = Ideal.rsqrt (Ideal.div (∑ r : Fin 100000, ((val_main_v43 (F := Ideal) x0 x1 x2 x3) (ix2 r c) - mean (val_main_v43 (F := Ideal) x0 x1 x2 x3) c) * ((val_main_v43 (F := Ideal) x0 x1 x2 x3) (ix2 r c) - mean (val_main_v43 (F := Ideal) x0 x1 x2 x3) c))
          (Ideal.ofBits .f32 0x47C35000#32) + (Ideal.ofBits .f32 0x3727C5AC#32)) := by
  rw [val_main_v59_apply, val_main_v58_apply, val_main_v53_apply, val_main_v51_apply, val_main_v52_apply, val_main_v57_apply, val_main_cst_9_apply,
    val_main_cst_10_apply, val_main_cst_11_apply, Ideal.hostUnary_rsqrt_def, Ideal.addf_def, Ideal.hostDivf_def,
    Ideal.ofBits_def, Ideal.ofBits_zero_f32, zero_add, Ideal.ofBits_def, Ideal.ofBits_def]
  refine congrArg (fun s => Ideal.rsqrt (Ideal.div s (Ideal.ofBits .f32 0x47C35000#32) + (Ideal.ofBits .f32 0x3727C5AC#32))) (Finset.sum_congr rfl fun k _ => ?_)
  rw [e51, val_main_v50_apply, v49_read, Ideal.mulf_def]

/-- The first layer's output at (n, c) is the normalisation of the first aggregation's result with the first scale and shift. -/
theorem v69_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (n : Fin 100000) (c : Fin 64) :
    val_main_v69 (F := Ideal) x0 x1 x2 x3 x4 x5 (ix2 n c) = norm (val_main_v43 (F := Ideal) x0 x1 x2 x3) x4 x5 n c := by
  rw [val_main_v69_apply, val_main_v68_apply, val_main_v65_apply, val_main_v62_apply, v56_read, val_main_v61_apply, val_main_v60_apply, e60,
    v59_read, val_main_v64_apply, val_main_v63_apply, e63, val_main_v67_apply, val_main_v66_apply, e66,
    val_main_call0_v0_apply, val_main_call0_cst_apply, Ideal.maximumf_def, Ideal.addf_def, Ideal.mulf_def, Ideal.mulf_def,
    Ideal.ofBits_def, Ideal.ofBits_zero_f32]
  unfold norm
  rfl

theorem e90 (n : Fin 100000) (c : Fin 64) : idx_main_v90 (idx_main_v91 (ix2 n c)) = ix1 c := funext fun a => Fin.ext (by match a with | ⟨0, _⟩ => rfl)
theorem e97 (n : Fin 100000) (c : Fin 64) : idx_main_v97 (idx_main_v98 (ix2 n c)) = ix1 c := funext fun a => Fin.ext (by match a with | ⟨0, _⟩ => rfl)
theorem e103 (n : Fin 100000) (c : Fin 64) : idx_main_v103 (idx_main_v104 (ix2 n c)) = ix1 c := funext fun a => Fin.ext (by match a with | ⟨0, _⟩ => rfl)
theorem e106 (n : Fin 100000) (c : Fin 64) : idx_main_v106 (idx_main_v107 (ix2 n c)) = ix1 c := funext fun a => Fin.ext (by match a with | ⟨0, _⟩ => rfl)
theorem e109 (n : Fin 100000) (c : Fin 64) : idx_main_v109 (idx_main_v110 (ix2 n c)) = ix1 c := funext fun a => Fin.ext (by match a with | ⟨0, _⟩ => rfl)
theorem e87 (c : Fin 64) (k : Fin 100000) : idx_main_v87 (ix1 c) k = ix2 k c := funext fun a => Fin.ext (by match a with | ⟨0, _⟩ => rfl | ⟨1, _⟩ => rfl)
theorem e94 (c : Fin 64) (k : Fin 100000) : idx_main_v94 (ix1 c) k = ix2 k c := funext fun a => Fin.ext (by match a with | ⟨0, _⟩ => rfl | ⟨1, _⟩ => rfl)

/-- The channel's mean as the program computes it: zero plus the sum over the nodes, divided by the node count. -/
theorem v89_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal)) (c : Fin 64) :
    val_main_v89 (F := Ideal) x0 x1 x2 x3 x4 x5 x6 x7 (ix1 c) = mean (val_main_v86 (F := Ideal) x0 x1 x2 x3 x4 x5 x6 x7) c := by
  rw [val_main_v89_apply, val_main_v87_apply, val_main_v88_apply, val_main_cst_15_apply, val_main_cst_16_apply, Ideal.hostDivf_def,
    Ideal.ofBits_def, Ideal.ofBits_zero_f32, zero_add, Ideal.ofBits_def]
  unfold mean
  exact congrArg (fun s => Ideal.div s (Ideal.ofBits .f32 0x47C35000#32)) (Finset.sum_congr rfl fun k _ => by rw [e87])

/-- An entry's deviation from its channel's mean (the copy that is squared). -/
theorem v92_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal)) (r : Fin 100000) (c : Fin 64) :
    val_main_v92 (F := Ideal) x0 x1 x2 x3 x4 x5 x6 x7 (ix2 r c) = (val_main_v86 (F := Ideal) x0 x1 x2 x3 x4 x5 x6 x7) (ix2 r c) - mean (val_main_v86 (F := Ideal) x0 x1 x2 x3 x4 x5 x6 x7) c := by
  rw [val_main_v92_apply, val_main_v91_apply, val_main_v90_apply, e90, v89_read, Ideal.subf_def]

/-- An entry's deviation from its channel's mean (the copy that is scaled). -/
theorem v99_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal)) (r : Fin 100000) (c : Fin 64) :
    val_main_v99 (F := Ideal) x0 x1 x2 x3 x4 x5 x6 x7 (ix2 r c) = (val_main_v86 (F := Ideal) x0 x1 x2 x3 x4 x5 x6 x7) (ix2 r c) - mean (val_main_v86 (F := Ideal) x0 x1 x2 x3 x4 x5 x6 x7) c := by
  rw [val_main_v99_apply, val_main_v98_apply, val_main_v97_apply, e97, v89_read, Ideal.subf_def]

/-- The channel's factor: the reciprocal square root of the mean squared deviation plus the offset. -/
theorem v102_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal)) (c : Fin 64) :
    val_main_v102 (F := Ideal) x0 x1 x2 x3 x4 x5 x6 x7 (ix1 c)
      = Ideal.rsqrt (Ideal.div (∑ r : Fin 100000, ((val_main_v86 (F := Ideal) x0 x1 x2 x3 x4 x5 x6 x7) (ix2 r c) - mean (val_main_v86 (F := Ideal) x0 x1 x2 x3 x4 x5 x6 x7) c) * ((val_main_v86 (F := Ideal) x0 x1 x2 x3 x4 x5 x6 x7) (ix2 r c) - mean (val_main_v86 (F := Ideal) x0 x1 x2 x3 x4 x5 x6 x7) c))
          (Ideal.ofBits .f32 0x47C35000#32) + (Ideal.ofBits .f32 0x3727C5AC#32)) := by
  rw [val_main_v102_apply, val_main_v101_apply, val_main_v96_apply, val_main_v94_apply, val_main_v95_apply, val_main_v100_apply, val_main_cst_17_apply,
    val_main_cst_18_apply, val_main_cst_19_apply, Ideal.hostUnary_rsqrt_def, Ideal.addf_def, Ideal.hostDivf_def,
    Ideal.ofBits_def, Ideal.ofBits_zero_f32, zero_add, Ideal.ofBits_def, Ideal.ofBits_def]
  refine congrArg (fun s => Ideal.rsqrt (Ideal.div s (Ideal.ofBits .f32 0x47C35000#32) + (Ideal.ofBits .f32 0x3727C5AC#32))) (Finset.sum_congr rfl fun k _ => ?_)
  rw [e94, val_main_v93_apply, v92_read, Ideal.mulf_def]

/-- The second layer's output at (n, c) is the normalisation of the second aggregation's result with the second scale and shift. -/
theorem v112_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (n : Fin 100000) (c : Fin 64) :
    val_main_v112 (F := Ideal) x0 x1 x2 x3 x4 x5 x6 x7 x8 x9 (ix2 n c) = norm (val_main_v86 (F := Ideal) x0 x1 x2 x3 x4 x5 x6 x7) x8 x9 n c := by
  rw [val_main_v112_apply, val_main_v111_apply, val_main_v108_apply, val_main_v105_apply, v99_read, val_main_v104_apply, val_main_v103_apply, e103,
    v102_read, val_main_v107_apply, val_main_v106_apply, e106, val_main_v110_apply, val_main_v109_apply, e109,
    val_main_call1_v0_apply, val_main_call1_cst_apply, Ideal.maximumf_def, Ideal.addf_def, Ideal.mulf_def, Ideal.mulf_def,
    Ideal.ofBits_def, Ideal.ofBits_zero_f32]
  unfold norm
  rfl

/-! ## (3) The last stage

The entrywise maximum of the two layers' outputs and the third aggregation's result — the program writes it as a
max-reduce from −∞ over the leading axis of the three arrays joined — then the 64-to-40 dense layer and the bias. -/

theorem idx130 (n : Fin 100000) (k : Fin 64) : idx_main_v130 (ix3 (0 : Fin 1) n k) = ix2 n k := funext fun a => Fin.ext (by match a with | ⟨0, _⟩ => rfl | ⟨1, _⟩ => rfl)
theorem idx131 (n : Fin 100000) (k : Fin 64) : idx_main_v131 (ix3 (0 : Fin 1) n k) = ix2 n k := funext fun a => Fin.ext (by match a with | ⟨0, _⟩ => rfl | ⟨1, _⟩ => rfl)
theorem idx132 (n : Fin 100000) (k : Fin 64) : idx_main_v132 (ix3 (0 : Fin 1) n k) = ix2 n k := funext fun a => Fin.ext (by match a with | ⟨0, _⟩ => rfl | ⟨1, _⟩ => rfl)
theorem lidx135 (n : Fin 100000) (c : Fin 40) (k : Fin 64) : lidx_main_v135 (ix2 n c) k = ix2 n k := funext fun a => Fin.ext (by match a with | ⟨0, _⟩ => rfl | ⟨1, _⟩ => rfl)
theorem ridx135 (n : Fin 100000) (c : Fin 40) (k : Fin 64) : ridx_main_v135 (ix2 n c) k = ix2 k c := funext fun a => Fin.ext (by match a with | ⟨0, _⟩ => rfl | ⟨1, _⟩ => rfl)
theorem idx137 (n : Fin 100000) (c : Fin 40) : idx_main_v136 (idx_main_v137 (ix2 n c)) = ix1 c := funext fun a => Fin.ext (by match a with | ⟨0, _⟩ => rfl)

/-- The max-reduce over the three joined arrays, at (n, k): the maximum of the three arrays' entries there. -/
theorem v134_read (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) (x11 : (⟨S64, .f32⟩ : BufTy).Contents (Elt Ideal)) (n : Fin 100000) (k : Fin 64) :
    val_main_v134 (F := Ideal) x0 x1 x2 x3 x4 x5 x6 x7 x8 x9 x10 x11 (ix2 n k)
      = max (max (val_main_v69 (F := Ideal) x0 x1 x2 x3 x4 x5 (ix2 n k)) (val_main_v112 (F := Ideal) x0 x1 x2 x3 x4 x5 x6 x7 x8 x9 (ix2 n k)))
          (val_main_v129 (F := Ideal) x0 x1 x2 x3 x4 x5 x6 x7 x8 x9 x10 x11 (ix2 n k)) := by
  unfold val_main_v134 val_main_v133 val_main_cst_23
  refine (Cert.RefMax3.max3_apply _ _ _ _ _ _ n k).trans ?_
  rw [val_main_v130_apply, val_main_v131_apply, val_main_v132_apply, idx130, idx131, idx132]

/-- The program's result: the maximum of the three arrays through the last dense layer, plus the bias as a 1×40 row. -/
theorem v138_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x40, .f32⟩ : BufTy).Contents (Elt Ideal)) (x13 : (⟨S40, .f32⟩ : BufTy).Contents (Elt Ideal)) :
    val_main_v138 (F := Ideal) x0 x1 x2 x3 x4 x5 x6 x7 x8 x9 x10 x11 x12 x13
      = Cert.Spec.jk (val_main_v69 (F := Ideal) x0 x1 x2 x3 x4 x5) (val_main_v112 (F := Ideal) x0 x1 x2 x3 x4 x5 x6 x7 x8 x9)
          (val_main_v129 (F := Ideal) x0 x1 x2 x3 x4 x5 x6 x7 x8 x9 x10 x11) x12
          (fun j => x13 (ix1 (⟨(j 1).val, idx2_lt1 j⟩ : Fin 40))) := by
  funext i
  obtain ⟨n, c, rfl⟩ : ∃ (n : Fin 100000) (c : Fin 40), i = ix2 n c := ⟨i 0, i 1, eq_ix2 i⟩
  rw [Cert.Spec.jk_ix, val_main_v138_apply, val_main_v135_apply, val_main_v137_apply, val_main_v136_apply, idx137,
    Ideal.addf_def]
  refine congrArg₂ (· + ·) (Finset.sum_congr rfl fun k _ => ?_) rfl
  rw [lidx135, ridx135, v134_read]

end Cert.RefRead

end
-- ==== Proof.FiniteLib.lean ====
/-
  Closure of "every entry is a real number" (an extended real that is neither infinity) under the
  host operations of a message-passing graph network at the ideal values: sums, products, maxima,
  gathers, accumulating scatters, contractions, broadcasts, the constants 0 and 1, the reciprocal
  square root of a positive real, and the degree count of a scatter of ones.
-/
import Idealize.ShloMosaic.PureOps.Ideal
import Idealize.ShloMosaic.PureOps.Ideal.Laws
import Idealize.ShloMosaic.PureOps.ShapeOps
import Idealize.ShloMosaic.PureOps.Contract

noncomputable section

namespace Cert.FiniteLib

open Idealize.ShloMosaic
open scoped BigOperators

/-- An extended real that is a real number. -/
abbrev IsReal (y : EReal) : Prop := ∃ a : ℝ, y = (a : EReal)

theorem real_coe (a : ℝ) : IsReal (a : EReal) := ⟨a, rfl⟩

theorem real_zero : IsReal (0 : EReal) := ⟨0, by simp⟩

theorem real_one : IsReal (1 : EReal) := ⟨1, by simp⟩

theorem real_add {x y : EReal} (hx : IsReal x) (hy : IsReal y) : IsReal (x + y) := by
  obtain ⟨a, rfl⟩ := hx; obtain ⟨b, rfl⟩ := hy
  exact ⟨a + b, (EReal.coe_add a b).symm⟩

theorem real_mul {x y : EReal} (hx : IsReal x) (hy : IsReal y) : IsReal (x * y) := by
  obtain ⟨a, rfl⟩ := hx; obtain ⟨b, rfl⟩ := hy
  exact ⟨a * b, (EReal.coe_mul a b).symm⟩

theorem real_neg {x : EReal} (hx : IsReal x) : IsReal (-x) := by
  obtain ⟨a, rfl⟩ := hx
  exact ⟨-a, (EReal.coe_neg a).symm⟩

theorem real_sub {x y : EReal} (hx : IsReal x) (hy : IsReal y) : IsReal (x - y) := by
  obtain ⟨a, rfl⟩ := hx; obtain ⟨b, rfl⟩ := hy
  exact ⟨a - b, (EReal.coe_sub a b).symm⟩

theorem real_max {x y : EReal} (hx : IsReal x) (hy : IsReal y) : IsReal (max x y) := by
  rcases max_choice x y with h | h <;> rw [h] <;> assumption

/-- A finite sum of reals, in the extended reals, is the real sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_finset_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact real_add (h a (Finset.mem_insert_self a s))
      (ih fun i hi => h i (Finset.mem_insert_of_mem hi))

/-- A gather's entries are entries of its operand. -/
theorem gather_real {s si t : Shape} {w : Nat} (d : GatherDims s si t) (x : s.Idx → EReal) (idx : IVec si w)
    (hx : ∀ i, IsReal (x i)) : ∀ j, IsReal (Host.gather d x idx j) :=
  fun j => hx _

/-- An accumulating scatter's entry is the operand's plus a finite sum of updates. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact real_add (hx i) (real_finset_sum _ _ fun j _ => hu j)

/-- A contraction's entry is a finite sum of products of the operands' entries. -/
theorem dotGeneral_real {sl sr so : Shape} {φ₁ φ₂ : FTy} (d : DotDims sl sr so) (l : FVec Ideal sl φ₁)
    (r : FVec Ideal sr φ₂) (hl : ∀ i, IsReal (l i)) (hr : ∀ i, IsReal (r i)) :
    ∀ j, IsReal (Host.dotGeneral (F := Ideal) d none l r j) := by
  intro j
  show IsReal (FloatOps.dotGeneral d none .single l r j)
  rw [Ideal.dotGeneral_apply]
  exact real_finset_sum _ _ fun k _ => real_mul (hl _) (hr _)

/-- A broadcast's entries are entries of its operand. -/
theorem broadcastInDim_real {s t : Shape} (dims : Fin s.rank → Fin t.rank) (h : s.BroadcastsInDim t dims)
    (x : s.Idx → EReal) (hx : ∀ i, IsReal (x i)) : ∀ j, IsReal (broadcastInDim t dims h x j) :=
  fun j => hx _

/-- The constant 0. -/
theorem constant_zero_real (s : Shape) (i : s.Idx) : IsReal (constant (F := Ideal) s .f32 0x00000000#32 i) := by
  show IsReal (Ideal.ofBits .f32 0x00000000#32)
  rw [Ideal.ofBits_zero_f32]; exact real_zero

/-- The word 0x3F800000 is the number 1. -/
theorem ofBits_one_f32 : Ideal.ofBits .f32 0x3F800000#32 = 1 := by
  simp [Ideal.ofBits, Ideal.ieee]
  rw [← EReal.coe_mul]
  norm_num

theorem constant_zero_eq (s : Shape) (i : s.Idx) : constant (F := Ideal) s .f32 0x00000000#32 i = 0 := by
  show Ideal.ofBits .f32 0x00000000#32 = 0
  exact Ideal.ofBits_zero_f32

theorem constant_one_eq (s : Shape) (i : s.Idx) : constant (F := Ideal) s .f32 0x3F800000#32 i = 1 := by
  show Ideal.ofBits .f32 0x3F800000#32 = 1
  exact ofBits_one_f32

/-- The constant 1. -/
theorem constant_one_real (s : Shape) (i : s.Idx) : IsReal (constant (F := Ideal) s .f32 0x3F800000#32 i) := by
  rw [constant_one_eq]; exact real_one

/-- The reciprocal square root of a positive real is a real (and positive). -/
theorem rsqrt_coe_of_pos {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

theorem rsqrt_real_of_pos {y : EReal} (h : ∃ a : ℝ, 0 < a ∧ y = (a : EReal)) : IsReal (Ideal.rsqrt y) := by
  obtain ⟨a, ha, rfl⟩ := h
  exact ⟨_, rsqrt_coe_of_pos ha⟩

/-- A count of ones, in the extended reals. -/
theorem nsmul_one_eq_coe (n : ℕ) : n • (1 : EReal) = ((n : ℝ) : EReal) := by
  induction n with
  | zero => simp
  | succ k ih => rw [succ_nsmul, ih]; push_cast; rfl

/-- An update lands on element `i` as soon as, on every axis, its start plus its window coordinate is `i`'s. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  have hb : ∀ a, 0 ≤ d.start j idx a + d.window j a ∧ d.start j idx a + d.window j a < s.size a := by
    intro a; rw [h a]; exact ⟨Int.natCast_nonneg _, by exact_mod_cast (i a).isLt⟩
  rw [ScatterDims.resultIdx?, dif_pos hb]
  refine congrArg some (funext fun a => Fin.ext ?_)
  show (d.start j idx a + d.window j a).toNat = (i a).val
  rw [h a]; exact Int.toNat_natCast _

/-- A scatter of the all-ones update into zeros counts, at each element, the updates landing on it. -/
theorem scatterAdd_ones_eq_card {s si u : Shape} {w : Nat} {φ : FTy} (d : ScatterDims s si u) (idx : IVec si w)
    (i : s.Idx) :
    Host.scatterAdd (F := Ideal) (φ := φ) d (fun _ => (0 : EReal)) idx (fun _ => (1 : EReal)) i
      = (((Finset.univ.filter fun j => d.resultIdx? j idx = some i).card : ℝ) : EReal) := by
  show (0 : EReal) + ∑ j ∈ Finset.univ.filter (fun j => d.resultIdx? j idx = some i), (1 : EReal) = _
  rw [zero_add, Finset.sum_const, nsmul_one_eq_coe]

/-- Hence it is a real number at least 1 wherever one update lands. -/
theorem scatterAdd_ones_ge_one {s si u : Shape} {w : Nat} {φ : FTy} (d : ScatterDims s si u) (idx : IVec si w)
    (i : s.Idx) (j : u.Idx) (hj : d.resultIdx? j idx = some i) :
    ∃ a : ℝ, 1 ≤ a ∧
      Host.scatterAdd (F := Ideal) (φ := φ) d (fun _ => (0 : EReal)) idx (fun _ => (1 : EReal)) i = (a : EReal) := by
  refine ⟨_, ?_, scatterAdd_ones_eq_card d idx i⟩
  have : 0 < (Finset.univ.filter fun j => d.resultIdx? j idx = some i).card :=
    Finset.card_pos.2 ⟨j, Finset.mem_filter.2 ⟨Finset.mem_univ j, hj⟩⟩
  exact_mod_cast this

end Cert.FiniteLib
-- ==== Proof.Finite.lean ====
/-
  Finiteness through the graph stages of the reference network. Every node carries a self-loop, so its
  degree (a scatter of ones at the destination list, which ends with the nodes themselves) is a real
  number at least 1; its reciprocal square root is then a real number, so is every edge weight (a
  product of two of them), and so is every entry of each graph convolution's output: a contraction,
  a gather, a product with the weights, an accumulating scatter into zeros, and a bias — each a finite
  sum or product of real numbers when the layer's input, weight matrix and bias have real entries.
-/
import proofs.«121954_j7129645711840_1_alg».proof.Proof.RefReadP
import proofs.«121954_j7129645711840_1_alg».proof.Proof.FiniteLib

noncomputable section

namespace Cert.Finite

open Cert.ReferenceIdeal Cert.ReferenceIdeal.Gen Cert.ReferenceIdeal.Read Idealize.ShloMosaic Cert.FiniteLib
open scoped BigOperators

/-! ## The degree: every node's self-loop lands on it -/

/-- The index word the one-axis scatter reads for update `j`, through the broadcast that gives the indices
    their trailing unit axis, is the index vector's entry `j`. -/
theorem siIdx_val (j : S1700000.Idx)
    (c : Fin scatter_S100000_S1700000x1_S1700000_n_0_0_1.scatterDimsToOperandDims.length) :
    (scatter_S100000_S1700000x1_S1700000_n_0_0_1.siIdx j c (0 : Fin 2)).val = (j 0).val := by
  have h2 : ¬ ((0 : Fin S1700000x1.rank).val = scatter_S100000_S1700000x1_S1700000_n_0_0_1.indexVectorDim) := by
    show ¬ ((0 : Fin 2).val = 1); decide
  unfold ScatterDims.siIdx
  rw [dif_neg h2]
  unfold ScatterDims.siCoord
  show (j _).val = (j 0).val
  exact congrArg (fun k => (j k).val) (Subsingleton.elim _ _)

theorem bcast_read (v : S1700000.Idx → BitVec 32) (j : S1700000.Idx)
    (c : Fin scatter_S100000_S1700000x1_S1700000_n_0_0_1.scatterDimsToOperandDims.length) :
    broadcastInDim S1700000x1 ![0] bcast_S1700000_S1700000x1_0 v
        (scatter_S100000_S1700000x1_S1700000_n_0_0_1.siIdx j c) = v j := by
  unfold broadcastInDim
  refine congrArg v (funext fun a => ?_)
  have ha : a = 0 := Subsingleton.elim _ _
  subst ha
  rw [dif_neg (show ¬ (S1700000.size 0 = 1) by decide)]
  exact Fin.ext (siIdx_val j c)

/-- Update `j` of the one-axis scatter lands on the element its index word names, read signed. -/
theorem scatter_lands (v : S1700000.Idx → BitVec 32) (j : S1700000.Idx) (n : S100000.Idx)
    (hv : (v j).toInt = ((n 0).val : Int)) :
    scatter_S100000_S1700000x1_S1700000_n_0_0_1.resultIdx? j
        (broadcastInDim S1700000x1 ![0] bcast_S1700000_S1700000x1_0 v) = some n := by
  refine resultIdx?_eq_some _ _ _ _ fun a => ?_
  have ha : a = 0 := Subsingleton.elim _ _
  subst ha
  have hw : scatter_S100000_S1700000x1_S1700000_n_0_0_1.window j (0 : Fin 1) = 0 := by
    unfold ScatterDims.window
    have h0 : (0 : Fin S100000.rank) ∉ scatter_S100000_S1700000x1_S1700000_n_0_0_1.sKept := by
      show (0 : Fin 1) ∉ (List.finRange 1).filter (· ∉ [(0 : Fin 1)]); decide
    rw [dif_neg h0]
  have hs : scatter_S100000_S1700000x1_S1700000_n_0_0_1.start j
      (broadcastInDim S1700000x1 ![0] bcast_S1700000_S1700000x1_0 v) (0 : Fin 1) = (v j).toInt := by
    unfold ScatterDims.start
    have h1 : (0 : Fin S100000.rank) ∈ scatter_S100000_S1700000x1_S1700000_n_0_0_1.scatterDimsToOperandDims := by
      show (0 : Fin 1) ∈ [(0 : Fin 1)]; decide
    rw [dif_pos h1, bcast_read]
  rw [hw, hs, hv]; simp

/-- The position of node `n`'s self-loop among the edges: after the 1600000 given ones. -/
abbrev selfLoop (n : S100000.Idx) : S1700000.Idx :=
  ValueIdx.ix1 ⟨1600000 + (n 0).val, by have h : (n 0).val < 100000 := (n 0).isLt; omega⟩

/-- The destination list ends with the nodes themselves: entry `1600000 + n` is the word `n`. -/
theorem v6_selfLoop (x1 : (⟨S2x1600000, .i32⟩ : BufTy).Contents (Elt Ideal)) (n : S100000.Idx) :
    val_main_v6 (F := Ideal) x1 (selfLoop n) = BitVec.ofNat 32 (n 0).val := by
  unfold val_main_v6
  refine (concatenate_pair_apply_right (0 : Fin S1700000.rank) _ _ concatenates_S1600000_S100000_S1700000_d0
    (selfLoop n) rfl rfl n (fun b hb => absurd (Subsingleton.elim _ _) hb) ?_).trans ?_
  · show (n 0).val + 1600000 = 1600000 + (n 0).val
    omega
  · exact val_main_v0_apply n

/-- A node number below 100000, as a 32-bit word read signed, is itself. -/
theorem toInt_ofNat_node (n : S100000.Idx) : (BitVec.ofNat 32 (n 0).val).toInt = ((n 0).val : Int) := by
  have h : (n 0).val < 100000 := (n 0).isLt
  have hn : (BitVec.ofNat 32 (n 0).val).toNat = (n 0).val := by
    rw [BitVec.toNat_ofNat]; exact Nat.mod_eq_of_lt (by omega)
  rw [BitVec.toInt_eq_toNat_of_lt (by rw [hn]; omega), hn]

theorem v8_eq_zero : val_main_v8 (F := Ideal) = fun _ => (0 : EReal) := by
  funext i
  rw [val_main_v8_apply, val_main_cst_0_apply]
  exact Ideal.ofBits_zero_f32

theorem v7_eq_one : val_main_v7 (F := Ideal) = fun _ => (1 : EReal) := by
  funext i
  rw [val_main_v7_apply, val_main_cst_apply]
  exact ofBits_one_f32

/-- Every node's degree, self-loop included, is a real number at least 1. -/
theorem deg_ge_one (x1 : (⟨S2x1600000, .i32⟩ : BufTy).Contents (Elt Ideal)) (n : S100000.Idx) :
    ∃ a : ℝ, 1 ≤ a ∧ val_main_v10 (F := Ideal) x1 n = (a : EReal) := by
  unfold val_main_v10
  rw [v8_eq_zero, v7_eq_one]
  refine scatterAdd_ones_ge_one (φ := .f32) _ _ n (selfLoop n) ?_
  unfold val_main_v9
  refine scatter_lands _ (selfLoop n) n ?_
  rw [v6_selfLoop]
  exact toInt_ofNat_node n

/-! ## The normalisation weights -/

/-- The reciprocal square root of every degree is a real number: the degree is a real at least 1. -/
theorem dis_real (x1 : (⟨S2x1600000, .i32⟩ : BufTy).Contents (Elt Ideal)) : ∀ i, IsReal (val_main_v11 (F := Ideal) x1 i) := by
  intro i
  obtain ⟨a, ha, h⟩ := deg_ge_one x1 i
  rw [val_main_v11_apply, h]
  exact rsqrt_real_of_pos ⟨a, lt_of_lt_of_le one_pos ha, rfl⟩

/-- Every edge weight — the product of the two endpoints' reciprocal square-root degrees — is a real number. -/
theorem norm_real (x1 : (⟨S2x1600000, .i32⟩ : BufTy).Contents (Elt Ideal)) : ∀ i, IsReal (val_main_v26 (F := Ideal) x1 i) := by
  have h18 : ∀ i, IsReal (val_main_v18 (F := Ideal) x1 i) := by
    unfold val_main_v18; exact gather_real _ _ _ (dis_real x1)
  have h25 : ∀ i, IsReal (val_main_v25 (F := Ideal) x1 i) := by
    unfold val_main_v25; exact gather_real _ _ _ (dis_real x1)
  intro i
  rw [val_main_v26_apply]
  exact real_mul (h18 i) (h25 i)

/-! ## The graph convolutions -/

/-- The first convolution's output, bias added, has real entries when the features, weights and bias do. -/
theorem h1_real (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) :
    ∀ i, IsReal (val_main_v43 (F := Ideal) x0 x1 x2 x3 i) := by
  have h27 : ∀ i, IsReal (val_main_v27 (F := Ideal) x0 x2 i) := by
    unfold val_main_v27; exact dotGeneral_real _ _ _ h0 h2
  have h34 : ∀ i, IsReal (val_main_v34 (F := Ideal) x0 x1 x2 i) := by
    unfold val_main_v34; exact gather_real _ _ _ h27
  have h35 : ∀ i, IsReal (val_main_v35 (F := Ideal) x1 i) := by
    unfold val_main_v35; exact broadcastInDim_real _ _ _ (norm_real x1)
  have h36 : ∀ i, IsReal (val_main_v36 (F := Ideal) x1 i) := by
    unfold val_main_v36; exact broadcastInDim_real _ _ _ h35
  have h37 : ∀ i, IsReal (val_main_v37 (F := Ideal) x0 x1 x2 i) := by
    intro i; rw [val_main_v37_apply]; exact real_mul (h34 i) (h36 i)
  have h38 : ∀ i, IsReal (val_main_v38 (F := Ideal) i) := by
    unfold val_main_v38 val_main_cst_6
    exact broadcastInDim_real _ _ _ (constant_zero_real S_)
  have h40 : ∀ i, IsReal (val_main_v40 (F := Ideal) x0 x1 x2 i) := by
    unfold val_main_v40; exact scatterAdd_real _ _ _ _ h38 h37
  have h41 : ∀ i, IsReal (val_main_v41 (F := Ideal) x3 i) := by
    unfold val_main_v41; exact broadcastInDim_real _ _ _ h3
  have h42 : ∀ i, IsReal (val_main_v42 (F := Ideal) x3 i) := by
    unfold val_main_v42; exact broadcastInDim_real _ _ _ h41
  intro i
  rw [val_main_v43_apply]
  exact real_add (h40 i) (h42 i)

/-- The second convolution's output, bias added, has real entries when its input (the first layer's
    activations), weights and bias do. -/
theorem h2_real (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (x6 : (⟨S64x64, .f32⟩ : BufTy).Contents (Elt Ideal)) (x7 : (⟨S64, .f32⟩ : BufTy).Contents (Elt Ideal))
    (hy : ∀ i, IsReal (val_main_v69 (F := Ideal) x0 x1 x2 x3 x4 x5 i))
    (h6 : ∀ i, IsReal (x6 i)) (h7 : ∀ i, IsReal (x7 i)) :
    ∀ i, IsReal (val_main_v86 (F := Ideal) x0 x1 x2 x3 x4 x5 x6 x7 i) := by
  have h70 : ∀ i, IsReal (val_main_v70 (F := Ideal) x0 x1 x2 x3 x4 x5 x6 i) := by
    unfold val_main_v70; exact dotGeneral_real _ _ _ hy h6
  have h77 : ∀ i, IsReal (val_main_v77 (F := Ideal) x0 x1 x2 x3 x4 x5 x6 i) := by
    unfold val_main_v77; exact gather_real _ _ _ h70
  have h78 : ∀ i, IsReal (val_main_v78 (F := Ideal) x1 i) := by
    unfold val_main_v78; exact broadcastInDim_real _ _ _ (norm_real x1)
  have h79 : ∀ i, IsReal (val_main_v79 (F := Ideal) x1 i) := by
    unfold val_main_v79; exact broadcastInDim_real _ _ _ h78
  have h80 : ∀ i, IsReal (val_main_v80 (F := Ideal) x0 x1 x2 x3 x4 x5 x6 i) := by
    intro i; rw [val_main_v80_apply]; exact real_mul (h77 i) (h79 i)
  have h81 : ∀ i, IsReal (val_main_v81 (F := Ideal) i) := by
    unfold val_main_v81 val_main_cst_14
    exact broadcastInDim_real _ _ _ (constant_zero_real S_)
  have h83 : ∀ i, IsReal (val_main_v83 (F := Ideal) x0 x1 x2 x3 x4 x5 x6 i) := by
    unfold val_main_v83; exact scatterAdd_real _ _ _ _ h81 h80
  have h84 : ∀ i, IsReal (val_main_v84 (F := Ideal) x7 i) := by
    unfold val_main_v84; exact broadcastInDim_real _ _ _ h7
  have h85 : ∀ i, IsReal (val_main_v85 (F := Ideal) x7 i) := by
    unfold val_main_v85; exact broadcastInDim_real _ _ _ h84
  intro i
  rw [val_main_v86_apply]
  exact real_add (h83 i) (h85 i)

/-- The third convolution's output, bias added, has real entries when its input (the second layer's
    activations), weights and bias do. -/
theorem h3_real (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (x6 : (⟨S64x64, .f32⟩ : BufTy).Contents (Elt Ideal)) (x7 x8 x9 : (⟨S64, .f32⟩ : BufTy).Contents (Elt Ideal))
    (x10 : (⟨S64x64, .f32⟩ : BufTy).Contents (Elt Ideal)) (x11 : (⟨S64, .f32⟩ : BufTy).Contents (Elt Ideal))
    (hy : ∀ i, IsReal (val_main_v112 (F := Ideal) x0 x1 x2 x3 x4 x5 x6 x7 x8 x9 i))
    (h10 : ∀ i, IsReal (x10 i)) (h11 : ∀ i, IsReal (x11 i)) :
    ∀ i, IsReal (val_main_v129 (F := Ideal) x0 x1 x2 x3 x4 x5 x6 x7 x8 x9 x10 x11 i) := by
  have h113 : ∀ i, IsReal (val_main_v113 (F := Ideal) x0 x1 x2 x3 x4 x5 x6 x7 x8 x9 x10 i) := by
    unfold val_main_v113; exact dotGeneral_real _ _ _ hy h10
  have h120 : ∀ i, IsReal (val_main_v120 (F := Ideal) x0 x1 x2 x3 x4 x5 x6 x7 x8 x9 x10 i) := by
    unfold val_main_v120; exact gather_real _ _ _ h113
  have h121 : ∀ i, IsReal (val_main_v121 (F := Ideal) x1 i) := by
    unfold val_main_v121; exact broadcastInDim_real _ _ _ (norm_real x1)
  have h122 : ∀ i, IsReal (val_main_v122 (F := Ideal) x1 i) := by
    unfold val_main_v122; exact broadcastInDim_real _ _ _ h121
  have h123 : ∀ i, IsReal (val_main_v123 (F := Ideal) x0 x1 x2 x3 x4 x5 x6 x7 x8 x9 x10 i) := by
    intro i; rw [val_main_v123_apply]; exact real_mul (h120 i) (h122 i)
  have h124 : ∀ i, IsReal (val_main_v124 (F := Ideal) i) := by
    unfold val_main_v124 val_main_cst_22
    exact broadcastInDim_real _ _ _ (constant_zero_real S_)
  have h126 : ∀ i, IsReal (val_main_v126 (F := Ideal) x0 x1 x2 x3 x4 x5 x6 x7 x8 x9 x10 i) := by
    unfold val_main_v126; exact scatterAdd_real _ _ _ _ h124 h123
  have h127 : ∀ i, IsReal (val_main_v127 (F := Ideal) x11 i) := by
    unfold val_main_v127; exact broadcastInDim_real _ _ _ h11
  have h128 : ∀ i, IsReal (val_main_v128 (F := Ideal) x11 i) := by
    unfold val_main_v128; exact broadcastInDim_real _ _ _ h127
  intro i
  rw [val_main_v129_apply]
  exact real_add (h126 i) (h128 i)

end Cert.Finite
-- ==== Proof.Bridge.lean ====
/- The kernel's result, as one function of the program's arguments and of the three graph arrays, is the reference's
   result: layer by layer the dense product is the reference's, the aggregation over the graph is the reference's
   (the same operations in the same order), and the normalisation the kernel applies as one multiply-add per entry
   from the two column sums is the centred normalisation the reference computes — an identity of real arithmetic,
   so each layer also carries the fact that its entries are reals to the next. -/
import proofs.«121954_j7129645711840_1_alg».proof.Proof.KernelFn
import proofs.«121954_j7129645711840_1_alg».proof.Proof.BNBridge
import proofs.«121954_j7129645711840_1_alg».proof.Proof.RefRead
import proofs.«121954_j7129645711840_1_alg».proof.Proof.RefGraph
import proofs.«121954_j7129645711840_1_alg».proof.Proof.Finite

noncomputable section

namespace Cert.Bridge

open Cert.ReferenceIdeal Cert.ReferenceIdeal.Read Idealize.ShloMosaic Idealize.ShloMosaic.ValueIdx Cert.BNAlgebra

/-! ## The normalisation, as the kernel computes it and as the reference reads it -/

/-- The kernel's normalisation of an array of reals with real scale and shift is, entry by entry, the centred
    normalisation the reference's stage reads as: so it equals any array that reads so at every (n, c). -/
theorem norm_eq (h : FVec Ideal Cert.KernelIdeal.S100000x64 .f32) (g β : FVec Ideal Cert.KernelIdeal.S64 .f32)
    (v : FVec Ideal Cert.KernelIdeal.S100000x64 .f32)
    (hh : ∀ i, IsReal (h i)) (hg : ∀ i, IsReal (g i)) (hβ : ∀ i, IsReal (β i))
    (hv : ∀ (n : Fin 100000) (c : Fin 64), v (ix2 n c) = Cert.RefRead.norm h g β n c) :
    Cert.KernelFn.norm h g β = v := by
  funext i
  obtain ⟨n, c, rfl⟩ : ∃ (n : Fin 100000) (c : Fin 64), i = ix2 n c := ⟨i 0, i 1, eq_ix2 i⟩
  rw [hv]
  unfold Cert.KernelFn.norm Cert.RefRead.norm Cert.RefRead.mean
  exact Cert.BNBridge.bn_bridge h g β hh hg hβ n c

/-- The kernel's normalisation of an array of reals with real scale and shift is an array of reals. -/
theorem norm_real (h : FVec Ideal Cert.KernelIdeal.S100000x64 .f32) (g β : FVec Ideal Cert.KernelIdeal.S64 .f32)
    (hh : ∀ i, IsReal (h i)) (hg : ∀ i, IsReal (g i)) (hβ : ∀ i, IsReal (β i)) :
    ∀ i, IsReal (Cert.KernelFn.norm h g β i) := by
  intro i
  obtain ⟨n, c, rfl⟩ : ∃ (n : Fin 100000) (c : Fin 64), i = ix2 n c := ⟨i 0, i 1, eq_ix2 i⟩
  unfold Cert.KernelFn.norm
  exact Cert.BNBridge.bn_bridge_isReal h g β hh hg hβ n c

/-- A 40-vector broadcast along axis 1 to a 1×40 row is the row that reads the vector at the column. -/
theorem bias_row (hb : Cert.KernelIdeal.S40.BroadcastsInDim Cert.KernelIdeal.S1x40 ![1])
    (b : FVec Ideal Cert.KernelIdeal.S40 .f32) :
    broadcastInDim Cert.KernelIdeal.S1x40 ![1] hb b = fun j => b (ix1 (⟨(j 1).val, idx2_lt1 j⟩ : Fin 40)) := by
  funext j
  exact broadcastInDim_apply _ hb b j (ix1 (⟨(j 1).val, idx2_lt1 j⟩ : Fin 40)) (fun a => match a with
    | ⟨0, _⟩ => by show (j 1).val = if (40 : Nat) = 1 then 0 else (j 1).val; rw [if_neg (by decide)])

/-! ## The three layers -/

/-- The first layer before its normalisation: the dense product and the aggregation are the reference's. -/
theorem y1_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) :
    Cert.KernelFn.y1 x0 x2 x3 x4 x5 (val_main_v3 (F := Ideal) x1) (val_main_v6 (F := Ideal) x1) (val_main_v26 (F := Ideal) x1)
      = Cert.KernelFn.norm (val_main_v43 (F := Ideal) x0 x1 x2 x3) x4 x5 := by
  unfold Cert.KernelFn.y1
  rw [← Cert.RefRead.v27_eq x0 x2, ← Cert.RefGraph.agg1 (F := Ideal) x0 x1 x2 x3]

/-- The kernel's first layer is the reference's. -/
theorem layer1 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal))
    (hr0 : ∀ i, IsReal (x0 i)) (hr2 : ∀ i, IsReal (x2 i)) (hr3 : ∀ i, IsReal (x3 i)) (hr4 : ∀ i, IsReal (x4 i)) (hr5 : ∀ i, IsReal (x5 i)) :
    Cert.KernelFn.y1 x0 x2 x3 x4 x5 (val_main_v3 (F := Ideal) x1) (val_main_v6 (F := Ideal) x1) (val_main_v26 (F := Ideal) x1)
      = val_main_v69 (F := Ideal) x0 x1 x2 x3 x4 x5 := by
  have hv : ∀ i, IsReal (val_main_v43 (F := Ideal) x0 x1 x2 x3 i) := Cert.Finite.h1_real x0 x1 x2 x3 hr0 hr2 hr3
  exact (y1_eq x0 x1 x2 x3 x4 x5).trans
    (norm_eq _ x4 x5 _ hv hr4 hr5 (fun n c => Cert.RefRead.v69_read x0 x1 x2 x3 x4 x5 n c))

/-- The first layer's output is an array of reals. -/
theorem layer1_real (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal))
    (hr0 : ∀ i, IsReal (x0 i)) (hr2 : ∀ i, IsReal (x2 i)) (hr3 : ∀ i, IsReal (x3 i)) (hr4 : ∀ i, IsReal (x4 i)) (hr5 : ∀ i, IsReal (x5 i)) :
    ∀ i, IsReal (val_main_v69 (F := Ideal) x0 x1 x2 x3 x4 x5 i) := by
  have hv : ∀ i, IsReal (val_main_v43 (F := Ideal) x0 x1 x2 x3 i) := Cert.Finite.h1_real x0 x1 x2 x3 hr0 hr2 hr3
  intro i
  rw [← layer1 x0 x1 x2 x3 x4 x5 hr0 hr2 hr3 hr4 hr5, y1_eq x0 x1 x2 x3 x4 x5]
  exact norm_real _ x4 x5 hv hr4 hr5 i

/-- The second layer before its normalisation. -/
theorem y2_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) :
    Cert.KernelFn.y2 (val_main_v69 (F := Ideal) x0 x1 x2 x3 x4 x5) x6 x7 x8 x9 (val_main_v3 (F := Ideal) x1) (val_main_v6 (F := Ideal) x1) (val_main_v26 (F := Ideal) x1)
      = Cert.KernelFn.norm (val_main_v86 (F := Ideal) x0 x1 x2 x3 x4 x5 x6 x7) x8 x9 := by
  unfold Cert.KernelFn.y2
  rw [← Cert.RefRead.v70_eq x0 x1 x2 x3 x4 x5 x6, ← Cert.RefGraph.agg2 (F := Ideal) x0 x1 x2 x3 x4 x5 x6 x7]

/-- The kernel's second layer, from the reference's first, is the reference's second. -/
theorem layer2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal))
    (hr0 : ∀ i, IsReal (x0 i)) (hr2 : ∀ i, IsReal (x2 i)) (hr3 : ∀ i, IsReal (x3 i)) (hr4 : ∀ i, IsReal (x4 i)) (hr5 : ∀ i, IsReal (x5 i)) (hr6 : ∀ i, IsReal (x6 i)) (hr7 : ∀ i, IsReal (x7 i)) (hr8 : ∀ i, IsReal (x8 i)) (hr9 : ∀ i, IsReal (x9 i)) :
    Cert.KernelFn.y2 (val_main_v69 (F := Ideal) x0 x1 x2 x3 x4 x5) x6 x7 x8 x9 (val_main_v3 (F := Ideal) x1) (val_main_v6 (F := Ideal) x1) (val_main_v26 (F := Ideal) x1)
      = val_main_v112 (F := Ideal) x0 x1 x2 x3 x4 x5 x6 x7 x8 x9 := by
  have hy : ∀ i, IsReal (val_main_v69 (F := Ideal) x0 x1 x2 x3 x4 x5 i) := layer1_real x0 x1 x2 x3 x4 x5 hr0 hr2 hr3 hr4 hr5
  have hv : ∀ i, IsReal (val_main_v86 (F := Ideal) x0 x1 x2 x3 x4 x5 x6 x7 i) := Cert.Finite.h2_real x0 x1 x2 x3 x4 x5 x6 x7 hy hr6 hr7
  exact (y2_eq x0 x1 x2 x3 x4 x5 x6 x7 x8 x9).trans
    (norm_eq _ x8 x9 _ hv hr8 hr9 (fun n c => Cert.RefRead.v112_read x0 x1 x2 x3 x4 x5 x6 x7 x8 x9 n c))

/-- The kernel's third layer, from the reference's second, is the reference's third aggregation. -/
theorem layer3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) (x11 : (⟨S64, .f32⟩ : BufTy).Contents (Elt Ideal)) :
    Cert.KernelFn.h3 (val_main_v112 (F := Ideal) x0 x1 x2 x3 x4 x5 x6 x7 x8 x9) x10 x11 (val_main_v3 (F := Ideal) x1) (val_main_v6 (F := Ideal) x1) (val_main_v26 (F := Ideal) x1)
      = val_main_v129 (F := Ideal) x0 x1 x2 x3 x4 x5 x6 x7 x8 x9 x10 x11 := by
  unfold Cert.KernelFn.h3
  rw [← Cert.RefRead.v113_eq x0 x1 x2 x3 x4 x5 x6 x7 x8 x9 x10, ← Cert.RefGraph.agg3 (F := Ideal) x0 x1 x2 x3 x4 x5 x6 x7 x8 x9 x10 x11]

/-! ## The result -/

/-- The kernel's result function, on the reference's three graph arrays, is the reference's result. -/
theorem result (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x40, .f32⟩ : BufTy).Contents (Elt Ideal)) (x13 : (⟨S40, .f32⟩ : BufTy).Contents (Elt Ideal))
    (hr0 : ∀ i, IsReal (x0 i)) (hr2 : ∀ i, IsReal (x2 i)) (hr3 : ∀ i, IsReal (x3 i)) (hr4 : ∀ i, IsReal (x4 i)) (hr5 : ∀ i, IsReal (x5 i)) (hr6 : ∀ i, IsReal (x6 i)) (hr7 : ∀ i, IsReal (x7 i)) (hr8 : ∀ i, IsReal (x8 i)) (hr9 : ∀ i, IsReal (x9 i)) :
    Cert.KernelFn.out (Cert.KernelFn.y1 x0 x2 x3 x4 x5 (val_main_v3 (F := Ideal) x1) (val_main_v6 (F := Ideal) x1) (val_main_v26 (F := Ideal) x1))
        (Cert.KernelFn.y2 (Cert.KernelFn.y1 x0 x2 x3 x4 x5 (val_main_v3 (F := Ideal) x1) (val_main_v6 (F := Ideal) x1) (val_main_v26 (F := Ideal) x1)) x6 x7 x8 x9 (val_main_v3 (F := Ideal) x1) (val_main_v6 (F := Ideal) x1) (val_main_v26 (F := Ideal) x1))
        (Cert.KernelFn.h3 (Cert.KernelFn.y2 (Cert.KernelFn.y1 x0 x2 x3 x4 x5 (val_main_v3 (F := Ideal) x1) (val_main_v6 (F := Ideal) x1) (val_main_v26 (F := Ideal) x1)) x6 x7 x8 x9 (val_main_v3 (F := Ideal) x1) (val_main_v6 (F := Ideal) x1) (val_main_v26 (F := Ideal) x1)) x10 x11 (val_main_v3 (F := Ideal) x1) (val_main_v6 (F := Ideal) x1) (val_main_v26 (F := Ideal) x1)) x12 x13
      = val_main_v138 (F := Ideal) x0 x1 x2 x3 x4 x5 x6 x7 x8 x9 x10 x11 x12 x13 := by
  rw [layer1 x0 x1 x2 x3 x4 x5 hr0 hr2 hr3 hr4 hr5, layer2 x0 x1 x2 x3 x4 x5 x6 x7 x8 x9 hr0 hr2 hr3 hr4 hr5 hr6 hr7 hr8 hr9, layer3 x0 x1 x2 x3 x4 x5 x6 x7 x8 x9 x10 x11]
  unfold Cert.KernelFn.out
  rw [Cert.RefRead.v138_eq, bias_row]

end Cert.Bridge

end
-- ==== Proof.PreReal.lean ====
/- From the finiteness precondition to real entries.

   The precondition is a conjunction, one conjunct per float argument: "every entry x of the
   argument has |x| < +∞", where |x| is max x (-x) on the extended reals and +∞ is the value of
   the bit pattern 0x7F800000.  Each conjunct is an all-reduction by "and" of the entrywise
   comparison bits, and the conjuncts are joined by "and" into one bit.  If that bit is 1 then every
   comparison bit is 1, so every entry satisfies max x (-x) < ⊤; an extended real with that property
   is neither ⊥ (where -x = ⊤) nor ⊤, hence is a real number. -/
import proofs.«121954_j7129645711840_1_alg».proof.Proof.Gen.Pre_finite_inputs
import proofs.«121954_j7129645711840_1_alg».proof.Proof.BNAlgebra
import Idealize.ShloMosaic.Lib.ReduceAll
import Idealize.ShloMosaic.Lib.ValueIdx
import Idealize.ShloMosaic.PureOps.Ideal.Laws

noncomputable section

namespace Cert.PreReal

open Idealize.ShloMosaic
open Cert.Pre_finite_inputs
open Cert.BNAlgebra (IsReal)

/-- The bit pattern 0x7F800000 (sign 0, exponent all ones, fraction 0) denotes +∞. -/
theorem inf_bits : Ideal.ofBits .f32 0x7F800000#32 = (⊤ : EReal) := by
  simp [Ideal.ofBits, Ideal.ieee]

theorem ofBool_eq_one {b : Bool} : BitVec.ofBool b = 1#1 ↔ b = true := by cases b <;> decide

/-- An extended real whose absolute value max y (-y) is below ⊤ is a real: at ⊥ the negation is ⊤,
    at ⊤ the value itself is. -/
theorem isReal_of_abs_lt_top (y : EReal) (h : max y (-y) < ⊤) : IsReal y := by
  induction y using EReal.rec with
  | bot => simp at h
  | top => simp at h
  | coe r => exact ⟨r, rfl⟩

/-- The element fact: where the comparison bit "|x i| < +∞" is 1, x i is a real. -/
theorem isReal_of_cmp {S : Shape} (hb : S_.BroadcastsInDim S (![] : Fin 0 → Fin S.rank))
    (x : FVec Ideal S .f32) (i : S.Idx)
    (h : cmpf .olt (Host.absf x) (broadcastInDim S ![] hb (constant (F := Ideal) S_ .f32 0x7F800000#32)) i = 1#1) :
    IsReal (x i) := by
  have h1 : Ideal.cmp .olt (max (x i) (-(x i))) (Ideal.ofBits .f32 0x7F800000#32) = 1#1 := h
  rw [inf_bits] at h1
  simp only [Ideal.cmp, ofBool_eq_one, decide_eq_true_eq] at h1
  exact isReal_of_abs_lt_top _ h1

/-- The rank-0 shape has one index. -/
instance : Subsingleton S_.Idx := ⟨fun a b => funext fun d => d.elim0⟩

/-- An all-reduction by "and" to a scalar that is 1 had a 1 at every index. -/
theorem all_of_reduce {S : Shape} {axes : List (Fin S.rank)} (p : IVec S 1) (init : IVec S_ 1)
    (hr : S.ReducesTo axes S_) (hu : 0 < S_.numel)
    (e : Host.reduce IntOp.andi p init hr hu ValueIdx.ix0 = 1#1) (i : S.Idx) : p i = 1#1 :=
  Host.reduce_andi_all p init hr hu ValueIdx.ix0 e i

/-- One argument's conjunct: its all-reduced comparison bit is 1, so each of its entries is a real. -/
theorem isReal_of_all {S : Shape} {axes : List (Fin S.rank)}
    (hb : S_.BroadcastsInDim S (![] : Fin 0 → Fin S.rank)) (x : FVec Ideal S .f32) (init : IVec S_ 1)
    (hr : S.ReducesTo axes S_) (hu : 0 < S_.numel)
    (e : Host.reduce IntOp.andi
          (cmpf .olt (Host.absf x) (broadcastInDim S ![] hb (constant (F := Ideal) S_ .f32 0x7F800000#32)))
          init hr hu ValueIdx.ix0 = 1#1) (i : S.Idx) : IsReal (x i) :=
  isReal_of_cmp hb x i (all_of_reduce _ init hr hu e i)

/-- A scalar "and" of two bits that is 1: both are 1. -/
theorem andi_split {a b : IVec S_ 1} (h : andi a b ValueIdx.ix0 = 1#1) :
    a ValueIdx.ix0 = 1#1 ∧ b ValueIdx.ix0 = 1#1 := IntOp.andi_eq_one.1 h

theorem of_pre (x0 : FVec Ideal S100000x128 .f32) (x1 : IVec S2x1600000 32) (x2 : FVec Ideal S128x64 .f32)
    (x3 x4 x5 : FVec Ideal S64 .f32) (x6 : FVec Ideal S64x64 .f32) (x7 x8 x9 : FVec Ideal S64 .f32)
    (x10 : FVec Ideal S64x64 .f32) (x11 : FVec Ideal S64 .f32) (x12 : FVec Ideal S64x40 .f32)
    (x13 : FVec Ideal S40 .f32)
    (h : Cert.Pre_finite_inputs.fn (F := Ideal) x0 x1 x2 x3 x4 x5 x6 x7 x8 x9 x10 x11 x12 x13 = fun _ => 1#1) :
    (∀ i, IsReal (x0 i)) ∧ (∀ i, IsReal (x2 i)) ∧ (∀ i, IsReal (x3 i)) ∧ (∀ i, IsReal (x4 i)) ∧
    (∀ i, IsReal (x5 i)) ∧ (∀ i, IsReal (x6 i)) ∧ (∀ i, IsReal (x7 i)) ∧ (∀ i, IsReal (x8 i)) ∧
    (∀ i, IsReal (x9 i)) ∧ (∀ i, IsReal (x10 i)) ∧ (∀ i, IsReal (x11 i)) ∧ (∀ i, IsReal (x12 i)) ∧
    (∀ i, IsReal (x13 i)) := by
  have h0 := congrFun h ValueIdx.ix0
  dsimp only [Cert.Pre_finite_inputs.fn, fn_part1, fn_part2, fn_part3] at h0
  obtain ⟨h0, e13⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e2⟩ := andi_split h0
  exact ⟨isReal_of_all _ x0 _ _ _ e0, isReal_of_all _ x2 _ _ _ e2, isReal_of_all _ x3 _ _ _ e3,
    isReal_of_all _ x4 _ _ _ e4, isReal_of_all _ x5 _ _ _ e5, isReal_of_all _ x6 _ _ _ e6,
    isReal_of_all _ x7 _ _ _ e7, isReal_of_all _ x8 _ _ _ e8, isReal_of_all _ x9 _ _ _ e9,
    isReal_of_all _ x10 _ _ _ e10, isReal_of_all _ x11 _ _ _ e11, isReal_of_all _ x12 _ _ _ e12,
    isReal_of_all _ x13 _ _ _ e13⟩

end Cert.PreReal
-- ==== Proof.Algebraic.lean ====
/-
  The two idealized programs, run from memories that agree on the arguments, end with equal results.
  The kernel's result buffer holds its function `KernelFn.out …` of the arguments and of the graph arrays its first
  host stretch writes; those arrays are the reference's (the same operations on the same edge list); layer by layer
  the kernel's function is the reference's stage — the dense products and the aggregation are the same sums, and the
  normalisation, which the kernel applies as a per-channel multiply-add from the two column sums, equals the
  reference's "subtract the mean, divide by the deviation" on REAL entries, which the precondition gives for the
  arguments and which the dense product, the aggregation (every node has its own loop, so every degree is at least
  one) and the normalisation itself preserve.
-/
import proofs.«121954_j7129645711840_1_alg».proof.Proof.KernelRun
import proofs.«121954_j7129645711840_1_alg».proof.Proof.KernelValue
import proofs.«121954_j7129645711840_1_alg».proof.Proof.Stretch0
import proofs.«121954_j7129645711840_1_alg».proof.Proof.Bridge
import proofs.«121954_j7129645711840_1_alg».proof.Proof.PreReal
import proofs.«121954_j7129645711840_1_alg».proof.Proof.RefRunStaged
import proofs.«121954_j7129645711840_1_alg».proof.Defs

set_option maxRecDepth 16384

noncomputable section

namespace Cert.Proof.Alg

open Idealize.ShloMosaic Idealize.ShloMosaic.TcCoe Idealize.SL.Sem
open Cert.ReferenceIdeal.Read

/-- The reference's result stage at the kernel memory's arguments is what the kernel's result buffer holds. -/
theorem values_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W14 m ρ c (Proc.devRef .tc Cert.KernelIdeal.main_v111) := by
  obtain ⟨r0, r2, r3, r4, r5, r6, r7, r8, r9, _⟩ := Cert.PreReal.of_pre _ _ _ _ _ _ _ _ _ _ _ _ _ _ (hpre c)
  rw [Cert.KernelIdeal.Val.result_eq m ρ c]
  rw [show Cert.KernelIdeal.Val.gsrc m ρ c = _ from Cert.Stretch0.src_eq (Cert.KernelIdeal.Gen.W0 m ρ c),
      show Cert.KernelIdeal.Val.gdst m ρ c = _ from Cert.Stretch0.dst_eq (Cert.KernelIdeal.Gen.W0 m ρ c),
      show Cert.KernelIdeal.Val.gnrm m ρ c = _ from Cert.Stretch0.nrm_eq (Cert.KernelIdeal.Gen.W0 m ρ c)]
  exact (Cert.Bridge.result _ _ _ _ _ _ _ _ _ _ _ _ _ _ r0 r2 r3 r4 r5 r6 r7 r8 r9).symm

theorem algebraic : Cert.algebraic_KernelIdeal_ReferenceIdeal := by
  intro m ρ m' ρ' hpre hagree
  refine ⟨fun c => Cert.KernelIdeal.Gen.W14 m ρ c (Proc.devRef .tc Cert.KernelIdeal.main_v111),
    Cert.KernelIdeal.Val.run_named m ρ, ?_⟩
  refine (θ_run Cert.ReferenceIdeal.defs _ _).mono (fun _ h c => ⟨(h c).1.trans ?_, (h c).2⟩)
    (Cert.RefRunStaged.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact values_eq m ρ hpre c

end Cert.Proof.Alg

end
-- ==== Proof.lean ====
/-
  The certificate of a three-layer graph convolution network (dense product, aggregation over the edge list with
  self-loops and symmetric degree weights, batch normalisation over the nodes, clipping at zero; the entrywise
  maximum of the three layers' outputs through a last dense product) written as eight kernel launches among host
  stretches, against its plain array-program reference.
  * The three frames: each program runs to the end without a fault and leaves its arguments as launched — the two
    kernel programs by their launches' generated frames, the reference by its run read back.
  * The idealization rewrote nothing, so there is nothing to preserve.
  * On the extended reals the two programs compute the same result: `Proof/Algebraic.lean`.
-/
import proofs.«121954_j7129645711840_1_alg».proof.Defs
import proofs.«121954_j7129645711840_1_alg».proof.Proof.Gen.Kernel
import proofs.«121954_j7129645711840_1_alg».proof.Proof.Gen.Kernel.Frame
import proofs.«121954_j7129645711840_1_alg».proof.Proof.Gen.KernelIdeal
import proofs.«121954_j7129645711840_1_alg».proof.Proof.Gen.KernelIdeal.Frame
import proofs.«121954_j7129645711840_1_alg».proof.Proof.Gen.ReferenceIdeal
import proofs.«121954_j7129645711840_1_alg».proof.Proof.RefRunStaged
import proofs.«121954_j7129645711840_1_alg».proof.Proof.Gen.Pre_finite_inputs
import proofs.«121954_j7129645711840_1_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result forgotten. -/
theorem frame_ri : Cert.frame_ReferenceIdeal := fun m ρ _ =>
  (θ_run Cert.ReferenceIdeal.defs _ _).mono (fun _ h c => (h c).2) (Cert.RefRunStaged.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
